-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x512 : Shape := ⟨3, ![16, 2048, 512]⟩
abbrev S512x64 : Shape := ⟨2, ![512, 64]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn_part1 {F : FTy → Type} [FloatOps F] (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  main_v18

def fn {F : FTy → Type} [FloatOps F] (main_arg0 : FVec F S16x2048x512 .f32) (main_arg1 : FVec F S512x64 .f32) (main_arg2 : FVec F S512x64 .f32) (main_arg3 : FVec F S512x64 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_v13 main_v16
-- ==== Kernel.lean ====
abbrev S16x2048x512 : Shape := ⟨3, ![16, 2048, 512]⟩
abbrev S512x64 : Shape := ⟨2, ![512, 64]⟩
abbrev S512x128 : Shape := ⟨2, ![512, 128]⟩
abbrev S16x2048x64 : Shape := ⟨3, ![16, 2048, 64]⟩
abbrev S1x512x512 : Shape := ⟨3, ![1, 512, 512]⟩
abbrev S1x512x64 : Shape := ⟨3, ![1, 512, 64]⟩
abbrev S512x1 : Shape := ⟨2, ![512, 1]⟩
abbrev S512x512 : Shape := ⟨2, ![512, 512]⟩
abbrev S64x512 : Shape := ⟨2, ![64, 512]⟩
abbrev S512 : Shape := ⟨1, ![512]⟩

abbrev nBuf : Space → Nat
  | .hbm => 6
  | .vmem => 12
  | .smem => 0
  | _ => 0

abbrev bufTy : (tb : Table) → Fin (tcTables nBuf tb) → BufTy
  | .hbm, ⟨0, _⟩ => ⟨S16x2048x512, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S512x128, .f32⟩
  | .hbm, ⟨5, _⟩ => ⟨S16x2048x64, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x64, .f32⟩
  | .local _ .vmem, ⟨5, _⟩ => ⟨S512x128, .f32⟩
  | .local _ .vmem, ⟨6, _⟩ => ⟨S1x512x64, .f32⟩
  | .local _ .vmem, ⟨7, _⟩ => ⟨S1x512x64, .f32⟩
  | .local _ .vmem, ⟨8, _⟩ => ⟨S512x64, .f32⟩
  | .local _ .vmem, ⟨9, _⟩ => ⟨S512x1, .f32⟩
  | .local _ .vmem, ⟨10, _⟩ => ⟨S512x1, .f32⟩
  | .local _ .vmem, ⟨11, _⟩ => ⟨S512x64, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  concatenates_S512x64_S512x64_S512x128_d1 : Shape.Concatenates [S512x64, S512x64] S512x128 1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x128_o0_0_S512x64 : S512x128.Slices ![0, 0] S512x64
  slices_S512x128_o0_64_S512x64 : S512x128.Slices ![0, 64] S512x64
  transposes_S512x64_p1_0_S64x512 : S512x64.Transposes [1, 0] S64x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S512x512_S512x64_S512x64_1_0_0_1_n_n_wf : DotDims.WF S512x512 S512x64 S512x64 [1] [0] [0] [1] [] []
  dot_S512x512_S512x128_S512x128_1_0_0_1_n_n_wf : DotDims.WF S512x512 S512x128 S512x128 [1] [0] [0] [1] [] []
  dot_S512x64_S64x512_S512x512_1_0_0_1_n_n_wf : DotDims.WF S512x64 S64x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S16x2048x512.size a
  hwx0_0 : ∀ i : grid0.Coords, EltTy.bits .f32 = 32 ∨ (Rect.block (s := S16x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S16x2048x512.size a
  hwx0_1 : ∀ i : grid0.Coords, EltTy.bits .f32 = 32 ∨ (Rect.block (s := S16x2048x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S16x2048x64.size a
  hwx0_4 : ∀ i : grid0.Coords, EltTy.bits .f32 = 32 ∨ (Rect.block (s := S16x2048x64) S1x512x64.size (cc0_transform_4 i) (hinb0_4 i)).WholeWords (EltTy.packing .f32)

variable [Facts₀]

def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S16x2048x512 : Shape := ⟨3, ![16, 2048, 512]⟩
abbrev S512x64 : Shape := ⟨2, ![512, 64]⟩
abbrev S16x2048x64 : Shape := ⟨3, ![16, 2048, 64]⟩
abbrev S16x2048x2048 : Shape := ⟨3, ![16, 2048, 2048]⟩
abbrev S_ : Shape := ⟨0, ![]⟩
abbrev S2048x2048 : Shape := ⟨2, ![2048, 2048]⟩
abbrev S1x2048x2048 : Shape := ⟨3, ![1, 2048, 2048]⟩
abbrev S16x2048 : Shape := ⟨2, ![16, 2048]⟩
abbrev S16x2048x1 : Shape := ⟨3, ![16, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S16x2048x64, .f32⟩
  | .hbm, ⟨5, _⟩ => ⟨S16x2048x64, .f32⟩
  | .hbm, ⟨6, _⟩ => ⟨S16x2048x64, .f32⟩
  | .hbm, ⟨7, _⟩ => ⟨S16x2048x2048, .f32⟩
  | .hbm, ⟨8, _⟩ => ⟨S_, .f32⟩
  | .hbm, ⟨9, _⟩ => ⟨S16x2048x2048, .f32⟩
  | .hbm, ⟨10, _⟩ => ⟨S16x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S1x2048x2048, .i1⟩
  | .hbm, ⟨23, _⟩ => ⟨S_, .f32⟩
  | .hbm, ⟨24, _⟩ => ⟨S_, .f32⟩
  | .hbm, ⟨25, _⟩ => ⟨S16x2048x2048, .i1⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S_, .f32⟩
  | .hbm, ⟨31, _⟩ => ⟨S16x2048, .f32⟩
  | .hbm, ⟨32, _⟩ => ⟨S16x2048, .f32⟩
  | .hbm, ⟨33, _⟩ => ⟨S16x2048x1, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S_, .f32⟩
  | .hbm, ⟨38, _⟩ => ⟨S16x2048, .f32⟩
  | .hbm, ⟨39, _⟩ => ⟨S16x2048x1, .f32⟩
  | .hbm, ⟨40, _⟩ => ⟨S16x2048x2048, .f32⟩
  | .hbm, ⟨41, _⟩ => ⟨S16x2048x2048, .f32⟩
  | .hbm, ⟨42, _⟩ => ⟨S16x2048x64, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x512_S512x64_S16x2048x64_2_0_01_1_n_n_wf : DotDims.WF S16x2048x512 S512x64 S16x2048x64 [2] [0] [0, 1] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x512_S512x64_S16x2048x64_2_0_01_1_n_n : DotDims S16x2048x512 S512x64 S16x2048x64 where
  lhsContracting := [2]
  rhsContracting := [0]
  lhsNonContracting := [0, 1]
  rhsNonContracting := [1]
  lhsBatch := []
  rhsBatch := []
  wf := dot_S16x2048x512_S512x64_S16x2048x64_2_0_01_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.KernelStep.lean ====
/-
  The body of the fused attention kernel at one grid point, as a pure function of what it finds: three branch conditions over the
  grid coordinates (first key tile; key tile at or before the query tile; last key tile) and, over the skeleton's payloads, the reset
  of the four scratch buffers, the fold of one key tile into them, and the quotient stored into the output tile.
-/
import proofs.«166854_j67577015435858_2_alg».proof.Proof.Gen.Kernel.Launch
import proofs.«166854_j67577015435858_2_alg».proof.Proof.Gen.Kernel.Skeleton
import proofs.«166854_j67577015435858_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three branch conditions, from the grid coordinates -/

/-- The first key tile of a query tile's sweep (`ki = 0`): the running statistics are reset and the query projection is computed. -/
abbrev c1 (i : grid0.Coords) : Prop :=
  (Scalar.cmpi .ne (Scalar.extui (Scalar.cmpi .eq (BitVec.ofNat 32 (i 2).val) 0#32)) 0#32) = 1#1
/-- A key tile at or before the query tile (`ki ≤ qi`): the tile is folded into the running statistics. -/
abbrev c2 (i : grid0.Coords) : Prop :=
  (Scalar.cmpi .ne (Scalar.extui (Scalar.cmpi .sle (BitVec.ofNat 32 (i 2).val) (BitVec.ofNat 32 (i 1).val))) 0#32) = 1#1
/-- The last key tile of the sweep (`ki = 3`): the output block is the accumulator divided by the normalizer. -/
abbrev c3 (i : grid0.Coords) : Prop := k0_cond3 i = 1#1

/-! ## One grid point as a pure step on the four scratch buffers -/

/-- The scratch the kernel carries from point to point: the projected queries, the running row maximum, the running
    normalizer and the running weighted sum of values. -/
structure Scr (F : FTy → Type) [FloatOps F] where
  q : Vec F S512x64 .f32
  mx : Vec F S512x1 .f32
  l : Vec F S512x1 .f32
  acc : Vec F S512x64 .f32

/-- What the reset branch stores: the query projection of the query tile, the maximum at −∞, the normalizer and the sum at 0. -/
def reset (xq : Vec F S1x512x512 .f32) (wq : Vec F S512x64 .f32) : Scr F :=
  ⟨k0_pay4 xq wq, k0_pay1, k0_pay2, k0_pay3⟩

/-- What the fold branch stores from the scratch it finds: the new maximum, the rescaled normalizer plus the tile's row sums,
    the rescaled sum plus the tile's weighted values. -/
def fold (a1 a2 : BitVec 32) (xkv : Vec F S1x512x512 .f32) (wkv : Vec F S512x128 .f32) (s : Scr F) : Scr F :=
  ⟨s.q, k0_pay7 (k0_pay12 a1 a2 xkv wkv s.q s.mx), k0_pay5 (k0_pay15 a1 a2 xkv wkv s.q s.mx s.l),
    k0_pay6 (k0_pay10 xkv wkv) (k0_pay13 a1 a2 xkv wkv s.q s.mx) (k0_pay14 a1 a2 xkv wkv s.q s.mx) s.acc⟩

open Classical in
/-- The scratch after the body at a point with coordinates `i`, from the scratch before it and the point's input blocks. -/
def step (i : grid0.Coords) (xq xkv : Vec F S1x512x512 .f32) (wq : Vec F S512x64 .f32) (wkv : Vec F S512x128 .f32) (s : Scr F) : Scr F :=
  let s1 := if c1 i then reset xq wq else s
  if c2 i then fold (BitVec.ofNat 32 (i 1).val) (BitVec.ofNat 32 (i 2).val) xkv wkv s1 else s1

/-- What the last branch stores into the output block: the weighted sum divided by the normalizer, row by row. -/
def outOf (s : Scr F) : Vec F S1x512x64 .f32 := k0_pay8 s.acc s.l

/-- A read after a run of stores whose LAST one is a store of the whole buffer is that store's payload. -/
theorem read_writes_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

theorem hz2 : (![0, 0] : Fin 2 → Nat) = fun _ => 0 := by funext a; fin_cases a <;> rfl
theorem hz3 : (![0, 0, 0] : Fin 3 → Nat) = fun _ => 0 := by funext a; fin_cases a <;> rfl

theorem rww_64 {sg : RefSig} {κ : Kind} {sp : Space} (v : View sg κ sp S512x64 .f32) (f : v.ty.Contents (Elt F)) (inb) (w : S512x64.Idx → Elt F .f32) (L) :
    v.read (Elt F) (v.writes (Elt F) f ((⟨Rect.unit ![0, 0] S512x64.size inb, w⟩ : View.Piece (Elt F) S512x64 .f32) :: L)) = w :=
  read_writes_whole v f hz2 inb w L
theorem rww_1 {sg : RefSig} {κ : Kind} {sp : Space} (v : View sg κ sp S512x1 .f32) (f : v.ty.Contents (Elt F)) (inb) (w : S512x1.Idx → Elt F .f32) (L) :
    v.read (Elt F) (v.writes (Elt F) f ((⟨Rect.unit ![0, 0] S512x1.size inb, w⟩ : View.Piece (Elt F) S512x1 .f32) :: L)) = w :=
  read_writes_whole v f hz2 inb w L
theorem rww_o {sg : RefSig} {κ : Kind} {sp : Space} (v : View sg κ sp S1x512x64 .f32) (f : v.ty.Contents (Elt F)) (inb) (w : S1x512x64.Idx → Elt F .f32) (L) :
    v.read (Elt F) (v.writes (Elt F) f ((⟨Rect.unit ![0, 0, 0] S1x512x64.size inb, w⟩ : View.Piece (Elt F) S1x512x64 .f32) :: L)) = w :=
  read_writes_whole v f hz3 inb w L

open Classical in
/-- The output block's staging buffer after the body: the quotient at the sweep's last point, untouched elsewhere. -/
def outAt (i : grid0.Coords) (o : Vec F S1x512x64 .f32) (s' : Scr F) : Vec F S1x512x64 .f32 := if c3 i then outOf s' else o

end Cert.Kernel.Hand

end
-- ==== Proof.KernelCases.lean ====
/-
  The body's triple: from whole buffers at given contents it runs to the continuation holding the input tiles as they were, the
  four scratch buffers at the pure step of Proof/KernelStep, and the output tile at the quotient at a sweep's last point (left
  alone elsewhere). One run per assignment of the branch conditions the grid meets, then one statement over all of them.
-/
import proofs.«166854_j67577015435858_2_alg».proof.Proof.KernelStep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, one run per control case

The grid meets five assignments of the three branch conditions; in each the skeleton runs through its loads and whole-buffer stores,
and what a stored buffer reads back is the last store's payload over the contents the loads found. -/

set_option maxHeartbeats 8000000 in
/-- The first key tile of a sweep: the scratch is reset, then the tile is folded in; the output buffer is left alone. -/
theorem run_reset_fold (c : Dev nD) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x64 .f32) (harg5 : arg5.IsWhole) (arg6 : Memref sig .tc .vmem S512x128 .f32) (harg6 : arg6.IsWhole)
    (arg7 : Memref sig .tc .vmem S1x512x64 .f32) (harg7 : arg7.IsWhole) (arg8 : Memref sig .tc .vmem S512x64 .f32) (harg8 : arg8.IsWhole)
    (arg9 : Memref sig .tc .vmem S512x1 .f32) (harg9 : arg9.IsWhole) (arg10 : Memref sig .tc .vmem S512x1 .f32) (harg10 : arg10.IsWhole)
    (arg11 : Memref sig .tc .vmem S512x64 .f32) (harg11 : arg11.IsWhole)
    (h1 : c1 i) (h2 : c2 i) (h3 : ¬ c3 i)
    (xq xkv : Vec F S1x512x512 .f32) (wq : Vec F S512x64 .f32) (wkv : Vec F S512x128 .f32) (o : Vec F S1x512x64 .f32) (s : Scr F)
    (E : Set ℕ) (K : PUnit → sProp 𝕄) :
    iprop(owns (c : Thread nD τ) arg3 fullShare xq
        ∗ owns (c : Thread nD τ) arg4 fullShare xkv
        ∗ owns (c : Thread nD τ) arg5 fullShare wq
        ∗ owns (c : Thread nD τ) arg6 fullShare wkv
        ∗ owns (c : Thread nD τ) arg7 fullShare o
        ∗ owns (c : Thread nD τ) arg8 fullShare s.q
        ∗ owns (c : Thread nD τ) arg9 fullShare s.mx
        ∗ owns (c : Thread nD τ) arg10 fullShare s.l
        ∗ owns (c : Thread nD τ) arg11 fullShare s.acc
        ∗ (iprop(owns (c : Thread nD τ) arg3 fullShare xq
            ∗ owns (c : Thread nD τ) arg4 fullShare xkv
            ∗ owns (c : Thread nD τ) arg5 fullShare wq
            ∗ owns (c : Thread nD τ) arg6 fullShare wkv
            ∗ owns (c : Thread nD τ) arg7 fullShare o
            ∗ owns (c : Thread nD τ) arg8 fullShare (k0_pay4 xq wq)
            ∗ owns (c : Thread nD τ) arg9 fullShare (k0_pay7 (k0_pay12 (BitVec.ofNat 32 (i 1).val) (BitVec.ofNat 32 (i 2).val) xkv wkv (k0_pay4 xq wq) k0_pay1))
            ∗ owns (c : Thread nD τ) arg10 fullShare (k0_pay5 (k0_pay15 (BitVec.ofNat 32 (i 1).val) (BitVec.ofNat 32 (i 2).val) xkv wkv (k0_pay4 xq wq) k0_pay1 k0_pay2))
            ∗ owns (c : Thread nD τ) arg11 fullShare (k0_pay6 (k0_pay10 xkv wkv) (k0_pay13 (BitVec.ofNat 32 (i 1).val) (BitVec.ofNat 32 (i 2).val) xkv wkv (k0_pay4 xq wq) k0_pay1) (k0_pay14 (BitVec.ofNat 32 (i 1).val) (BitVec.ofNat 32 (i 2).val) xkv wkv (k0_pay4 xq wq) k0_pay1) k0_pay3)) -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11) K := by
  simp only [cc0_kernel_eq_skeleton]; unfold cc0_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  obtain rfl := harg11.eq_unread hf11
  sl_exec (disch := first | exact h1 | exact h2 | exact h3)
  sl_step
  iapply Hk
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  isplitl [H9]
  · iexists _; isplitr
    swap; · iexact H9
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  isplitl [H10]
  · iexists _; isplitr
    swap; · iexact H10
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  iexists _; isplitr
  swap; · iexact H11
  ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))

set_option maxHeartbeats 8000000 in
/-- A later key tile at or before the query tile, not the last: the tile is folded in; the output buffer is left alone. -/
theorem run_fold (c : Dev nD) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x64 .f32) (harg5 : arg5.IsWhole) (arg6 : Memref sig .tc .vmem S512x128 .f32) (harg6 : arg6.IsWhole)
    (arg7 : Memref sig .tc .vmem S1x512x64 .f32) (harg7 : arg7.IsWhole) (arg8 : Memref sig .tc .vmem S512x64 .f32) (harg8 : arg8.IsWhole)
    (arg9 : Memref sig .tc .vmem S512x1 .f32) (harg9 : arg9.IsWhole) (arg10 : Memref sig .tc .vmem S512x1 .f32) (harg10 : arg10.IsWhole)
    (arg11 : Memref sig .tc .vmem S512x64 .f32) (harg11 : arg11.IsWhole)
    (h1 : ¬ c1 i) (h2 : c2 i) (h3 : ¬ c3 i)
    (xq xkv : Vec F S1x512x512 .f32) (wq : Vec F S512x64 .f32) (wkv : Vec F S512x128 .f32) (o : Vec F S1x512x64 .f32) (s : Scr F)
    (E : Set ℕ) (K : PUnit → sProp 𝕄) :
    iprop(owns (c : Thread nD τ) arg3 fullShare xq
        ∗ owns (c : Thread nD τ) arg4 fullShare xkv
        ∗ owns (c : Thread nD τ) arg5 fullShare wq
        ∗ owns (c : Thread nD τ) arg6 fullShare wkv
        ∗ owns (c : Thread nD τ) arg7 fullShare o
        ∗ owns (c : Thread nD τ) arg8 fullShare s.q
        ∗ owns (c : Thread nD τ) arg9 fullShare s.mx
        ∗ owns (c : Thread nD τ) arg10 fullShare s.l
        ∗ owns (c : Thread nD τ) arg11 fullShare s.acc
        ∗ (iprop(owns (c : Thread nD τ) arg3 fullShare xq
            ∗ owns (c : Thread nD τ) arg4 fullShare xkv
            ∗ owns (c : Thread nD τ) arg5 fullShare wq
            ∗ owns (c : Thread nD τ) arg6 fullShare wkv
            ∗ owns (c : Thread nD τ) arg7 fullShare o
            ∗ owns (c : Thread nD τ) arg8 fullShare s.q
            ∗ owns (c : Thread nD τ) arg9 fullShare (k0_pay7 (k0_pay12 (BitVec.ofNat 32 (i 1).val) (BitVec.ofNat 32 (i 2).val) xkv wkv s.q s.mx))
            ∗ owns (c : Thread nD τ) arg10 fullShare (k0_pay5 (k0_pay15 (BitVec.ofNat 32 (i 1).val) (BitVec.ofNat 32 (i 2).val) xkv wkv s.q s.mx s.l))
            ∗ owns (c : Thread nD τ) arg11 fullShare (k0_pay6 (k0_pay10 xkv wkv) (k0_pay13 (BitVec.ofNat 32 (i 1).val) (BitVec.ofNat 32 (i 2).val) xkv wkv s.q s.mx) (k0_pay14 (BitVec.ofNat 32 (i 1).val) (BitVec.ofNat 32 (i 2).val) xkv wkv s.q s.mx) s.acc)) -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11) K := by
  simp only [cc0_kernel_eq_skeleton]; unfold cc0_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  obtain rfl := harg11.eq_unread hf11
  sl_exec (disch := first | exact h1 | exact h2 | exact h3)
  sl_step
  iapply Hk
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact hf8
  isplitl [H9]
  · iexists _; isplitr
    swap; · iexact H9
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  isplitl [H10]
  · iexists _; isplitr
    swap; · iexact H10
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  iexists _; isplitr
  swap; · iexact H11
  ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))

set_option maxHeartbeats 8000000 in
/-- A key tile after the query tile, not the last: nothing is loaded or stored. -/
theorem run_skip (c : Dev nD) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x64 .f32) (harg5 : arg5.IsWhole) (arg6 : Memref sig .tc .vmem S512x128 .f32) (harg6 : arg6.IsWhole)
    (arg7 : Memref sig .tc .vmem S1x512x64 .f32) (harg7 : arg7.IsWhole) (arg8 : Memref sig .tc .vmem S512x64 .f32) (harg8 : arg8.IsWhole)
    (arg9 : Memref sig .tc .vmem S512x1 .f32) (harg9 : arg9.IsWhole) (arg10 : Memref sig .tc .vmem S512x1 .f32) (harg10 : arg10.IsWhole)
    (arg11 : Memref sig .tc .vmem S512x64 .f32) (harg11 : arg11.IsWhole)
    (h1 : ¬ c1 i) (h2 : ¬ c2 i) (h3 : ¬ c3 i)
    (xq xkv : Vec F S1x512x512 .f32) (wq : Vec F S512x64 .f32) (wkv : Vec F S512x128 .f32) (o : Vec F S1x512x64 .f32) (s : Scr F)
    (E : Set ℕ) (K : PUnit → sProp 𝕄) :
    iprop(owns (c : Thread nD τ) arg3 fullShare xq
        ∗ owns (c : Thread nD τ) arg4 fullShare xkv
        ∗ owns (c : Thread nD τ) arg5 fullShare wq
        ∗ owns (c : Thread nD τ) arg6 fullShare wkv
        ∗ owns (c : Thread nD τ) arg7 fullShare o
        ∗ owns (c : Thread nD τ) arg8 fullShare s.q
        ∗ owns (c : Thread nD τ) arg9 fullShare s.mx
        ∗ owns (c : Thread nD τ) arg10 fullShare s.l
        ∗ owns (c : Thread nD τ) arg11 fullShare s.acc
        ∗ (iprop(owns (c : Thread nD τ) arg3 fullShare xq
            ∗ owns (c : Thread nD τ) arg4 fullShare xkv
            ∗ owns (c : Thread nD τ) arg5 fullShare wq
            ∗ owns (c : Thread nD τ) arg6 fullShare wkv
            ∗ owns (c : Thread nD τ) arg7 fullShare o
            ∗ owns (c : Thread nD τ) arg8 fullShare s.q
            ∗ owns (c : Thread nD τ) arg9 fullShare s.mx
            ∗ owns (c : Thread nD τ) arg10 fullShare s.l
            ∗ owns (c : Thread nD τ) arg11 fullShare s.acc) -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11) K := by
  simp only [cc0_kernel_eq_skeleton]; unfold cc0_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  obtain rfl := harg11.eq_unread hf11
  sl_exec (disch := first | exact h1 | exact h2 | exact h3)
  sl_step
  iapply Hk
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact hf8
  isplitl [H9]
  · iexists _; isplitr
    swap; · iexact H9
    ipureintro; exact hf9
  isplitl [H10]
  · iexists _; isplitr
    swap; · iexact H10
    ipureintro; exact hf10
  iexists _; isplitr
  swap; · iexact H11
  ipureintro; exact hf11

set_option maxHeartbeats 8000000 in
/-- The last key tile, at the query tile: the tile is folded in, then the quotient is stored into the output buffer. -/
theorem run_fold_store (c : Dev nD) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x64 .f32) (harg5 : arg5.IsWhole) (arg6 : Memref sig .tc .vmem S512x128 .f32) (harg6 : arg6.IsWhole)
    (arg7 : Memref sig .tc .vmem S1x512x64 .f32) (harg7 : arg7.IsWhole) (arg8 : Memref sig .tc .vmem S512x64 .f32) (harg8 : arg8.IsWhole)
    (arg9 : Memref sig .tc .vmem S512x1 .f32) (harg9 : arg9.IsWhole) (arg10 : Memref sig .tc .vmem S512x1 .f32) (harg10 : arg10.IsWhole)
    (arg11 : Memref sig .tc .vmem S512x64 .f32) (harg11 : arg11.IsWhole)
    (h1 : ¬ c1 i) (h2 : c2 i) (h3 : c3 i)
    (xq xkv : Vec F S1x512x512 .f32) (wq : Vec F S512x64 .f32) (wkv : Vec F S512x128 .f32) (o : Vec F S1x512x64 .f32) (s : Scr F)
    (E : Set ℕ) (K : PUnit → sProp 𝕄) :
    iprop(owns (c : Thread nD τ) arg3 fullShare xq
        ∗ owns (c : Thread nD τ) arg4 fullShare xkv
        ∗ owns (c : Thread nD τ) arg5 fullShare wq
        ∗ owns (c : Thread nD τ) arg6 fullShare wkv
        ∗ owns (c : Thread nD τ) arg7 fullShare o
        ∗ owns (c : Thread nD τ) arg8 fullShare s.q
        ∗ owns (c : Thread nD τ) arg9 fullShare s.mx
        ∗ owns (c : Thread nD τ) arg10 fullShare s.l
        ∗ owns (c : Thread nD τ) arg11 fullShare s.acc
        ∗ (iprop(owns (c : Thread nD τ) arg3 fullShare xq
            ∗ owns (c : Thread nD τ) arg4 fullShare xkv
            ∗ owns (c : Thread nD τ) arg5 fullShare wq
            ∗ owns (c : Thread nD τ) arg6 fullShare wkv
            ∗ owns (c : Thread nD τ) arg7 fullShare (k0_pay8 (k0_pay6 (k0_pay10 xkv wkv) (k0_pay13 (BitVec.ofNat 32 (i 1).val) (BitVec.ofNat 32 (i 2).val) xkv wkv s.q s.mx) (k0_pay14 (BitVec.ofNat 32 (i 1).val) (BitVec.ofNat 32 (i 2).val) xkv wkv s.q s.mx) s.acc) (k0_pay5 (k0_pay15 (BitVec.ofNat 32 (i 1).val) (BitVec.ofNat 32 (i 2).val) xkv wkv s.q s.mx s.l)))
            ∗ owns (c : Thread nD τ) arg8 fullShare s.q
            ∗ owns (c : Thread nD τ) arg9 fullShare (k0_pay7 (k0_pay12 (BitVec.ofNat 32 (i 1).val) (BitVec.ofNat 32 (i 2).val) xkv wkv s.q s.mx))
            ∗ owns (c : Thread nD τ) arg10 fullShare (k0_pay5 (k0_pay15 (BitVec.ofNat 32 (i 1).val) (BitVec.ofNat 32 (i 2).val) xkv wkv s.q s.mx s.l))
            ∗ owns (c : Thread nD τ) arg11 fullShare (k0_pay6 (k0_pay10 xkv wkv) (k0_pay13 (BitVec.ofNat 32 (i 1).val) (BitVec.ofNat 32 (i 2).val) xkv wkv s.q s.mx) (k0_pay14 (BitVec.ofNat 32 (i 1).val) (BitVec.ofNat 32 (i 2).val) xkv wkv s.q s.mx) s.acc)) -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11) K := by
  simp only [cc0_kernel_eq_skeleton]; unfold cc0_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  obtain rfl := harg11.eq_unread hf11
  sl_exec (disch := first | exact h1 | exact h2 | exact h3)
  sl_step
  iapply Hk
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  isplitl [H8]
  · iexists _; isplitr
    swap; · iexact H8
    ipureintro; exact hf8
  isplitl [H9]
  · iexists _; isplitr
    swap; · iexact H9
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  isplitl [H10]
  · iexists _; isplitr
    swap; · iexact H10
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  iexists _; isplitr
  swap; · iexact H11
  ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))

set_option maxHeartbeats 8000000 in
/-- The last key tile, after the query tile: the quotient of the scratch as found is stored into the output buffer. -/
theorem run_store (c : Dev nD) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x64 .f32) (harg5 : arg5.IsWhole) (arg6 : Memref sig .tc .vmem S512x128 .f32) (harg6 : arg6.IsWhole)
    (arg7 : Memref sig .tc .vmem S1x512x64 .f32) (harg7 : arg7.IsWhole) (arg8 : Memref sig .tc .vmem S512x64 .f32) (harg8 : arg8.IsWhole)
    (arg9 : Memref sig .tc .vmem S512x1 .f32) (harg9 : arg9.IsWhole) (arg10 : Memref sig .tc .vmem S512x1 .f32) (harg10 : arg10.IsWhole)
    (arg11 : Memref sig .tc .vmem S512x64 .f32) (harg11 : arg11.IsWhole)
    (h1 : ¬ c1 i) (h2 : ¬ c2 i) (h3 : c3 i)
    (xq xkv : Vec F S1x512x512 .f32) (wq : Vec F S512x64 .f32) (wkv : Vec F S512x128 .f32) (o : Vec F S1x512x64 .f32) (s : Scr F)
    (E : Set ℕ) (K : PUnit → sProp 𝕄) :
    iprop(owns (c : Thread nD τ) arg3 fullShare xq
        ∗ owns (c : Thread nD τ) arg4 fullShare xkv
        ∗ owns (c : Thread nD τ) arg5 fullShare wq
        ∗ owns (c : Thread nD τ) arg6 fullShare wkv
        ∗ owns (c : Thread nD τ) arg7 fullShare o
        ∗ owns (c : Thread nD τ) arg8 fullShare s.q
        ∗ owns (c : Thread nD τ) arg9 fullShare s.mx
        ∗ owns (c : Thread nD τ) arg10 fullShare s.l
        ∗ owns (c : Thread nD τ) arg11 fullShare s.acc
        ∗ (iprop(owns (c : Thread nD τ) arg3 fullShare xq
            ∗ owns (c : Thread nD τ) arg4 fullShare xkv
            ∗ owns (c : Thread nD τ) arg5 fullShare wq
            ∗ owns (c : Thread nD τ) arg6 fullShare wkv
            ∗ owns (c : Thread nD τ) arg7 fullShare (k0_pay8 s.acc s.l)
            ∗ owns (c : Thread nD τ) arg8 fullShare s.q
            ∗ owns (c : Thread nD τ) arg9 fullShare s.mx
            ∗ owns (c : Thread nD τ) arg10 fullShare s.l
            ∗ owns (c : Thread nD τ) arg11 fullShare s.acc) -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11) K := by
  simp only [cc0_kernel_eq_skeleton]; unfold cc0_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  obtain rfl := harg11.eq_unread hf11
  sl_exec (disch := first | exact h1 | exact h2 | exact h3)
  sl_step
  iapply Hk
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  isplitl [H8]
  · iexists _; isplitr
    swap; · iexact H8
    ipureintro; exact hf8
  isplitl [H9]
  · iexists _; isplitr
    swap; · iexact H9
    ipureintro; exact hf9
  isplitl [H10]
  · iexists _; isplitr
    swap; · iexact H10
    ipureintro; exact hf10
  iexists _; isplitr
  swap; · iexact H11
  ipureintro; exact hf11

/-- THE BODY at a point with coordinates `i`, on whole memrefs: the input windows' buffers at `xq`, `xkv`, `wq`, `wkv`, the output
    window's at `o`, the four scratch buffers at `s`. It runs to the continuation holding the inputs as they were, the scratch at
    `step i … s`, the output at the quotient if this is the sweep's last point and as it was otherwise. The reset branch runs only
    with the fold branch (`h12`: the first key tile is never after the query tile) and never with the last (`h13`). -/
theorem body_run (c : Dev nD) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x64 .f32) (harg5 : arg5.IsWhole) (arg6 : Memref sig .tc .vmem S512x128 .f32) (harg6 : arg6.IsWhole)
    (arg7 : Memref sig .tc .vmem S1x512x64 .f32) (harg7 : arg7.IsWhole) (arg8 : Memref sig .tc .vmem S512x64 .f32) (harg8 : arg8.IsWhole)
    (arg9 : Memref sig .tc .vmem S512x1 .f32) (harg9 : arg9.IsWhole) (arg10 : Memref sig .tc .vmem S512x1 .f32) (harg10 : arg10.IsWhole)
    (arg11 : Memref sig .tc .vmem S512x64 .f32) (harg11 : arg11.IsWhole)
    (h12 : c1 i → c2 i) (h13 : c1 i → ¬ c3 i)
    (xq xkv : Vec F S1x512x512 .f32) (wq : Vec F S512x64 .f32) (wkv : Vec F S512x128 .f32) (o : Vec F S1x512x64 .f32) (s : Scr F)
    (E : Set ℕ) (K : PUnit → sProp 𝕄) :
    iprop(owns (c : Thread nD τ) arg3 fullShare xq
        ∗ owns (c : Thread nD τ) arg4 fullShare xkv
        ∗ owns (c : Thread nD τ) arg5 fullShare wq
        ∗ owns (c : Thread nD τ) arg6 fullShare wkv
        ∗ owns (c : Thread nD τ) arg7 fullShare o
        ∗ owns (c : Thread nD τ) arg8 fullShare s.q
        ∗ owns (c : Thread nD τ) arg9 fullShare s.mx
        ∗ owns (c : Thread nD τ) arg10 fullShare s.l
        ∗ owns (c : Thread nD τ) arg11 fullShare s.acc
        ∗ (iprop(owns (c : Thread nD τ) arg3 fullShare xq
            ∗ owns (c : Thread nD τ) arg4 fullShare xkv
            ∗ owns (c : Thread nD τ) arg5 fullShare wq
            ∗ owns (c : Thread nD τ) arg6 fullShare wkv
            ∗ owns (c : Thread nD τ) arg7 fullShare (outAt i o (step i xq xkv wq wkv s))
            ∗ owns (c : Thread nD τ) arg8 fullShare (step i xq xkv wq wkv s).q
            ∗ owns (c : Thread nD τ) arg9 fullShare (step i xq xkv wq wkv s).mx
            ∗ owns (c : Thread nD τ) arg10 fullShare (step i xq xkv wq wkv s).l
            ∗ owns (c : Thread nD τ) arg11 fullShare (step i xq xkv wq wkv s).acc) -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11) K := by
  by_cases h1 : c1 i
  · have h2 : c2 i := h12 h1
    have h3 : ¬ c3 i := h13 h1
    have es : step i xq xkv wq wkv s = fold (BitVec.ofNat 32 (i 1).val) (BitVec.ofNat 32 (i 2).val) xkv wkv (reset xq wq) := by
      unfold step; simp only [if_pos h1, if_pos h2]
    have eo : outAt i o (fold (BitVec.ofNat 32 (i 1).val) (BitVec.ofNat 32 (i 2).val) xkv wkv (reset xq wq)) = o := by unfold outAt; rw [if_neg h3]
    rw [es, eo]; simp only [fold, reset]
    exact run_reset_fold c i arg3 harg3 arg4 harg4 arg5 harg5 arg6 harg6 arg7 harg7 arg8 harg8 arg9 harg9 arg10 harg10 arg11 harg11 h1 h2 h3 xq xkv wq wkv o s E K
  · by_cases h2 : c2 i
    · have es : step i xq xkv wq wkv s = fold (BitVec.ofNat 32 (i 1).val) (BitVec.ofNat 32 (i 2).val) xkv wkv s := by
        unfold step; simp only [if_neg h1, if_pos h2]
      by_cases h3 : c3 i
      · have eo : outAt i o (fold (BitVec.ofNat 32 (i 1).val) (BitVec.ofNat 32 (i 2).val) xkv wkv s) = outOf (fold (BitVec.ofNat 32 (i 1).val) (BitVec.ofNat 32 (i 2).val) xkv wkv s) := by unfold outAt; rw [if_pos h3]
        rw [es, eo]; simp only [fold, outOf]
        exact run_fold_store c i arg3 harg3 arg4 harg4 arg5 harg5 arg6 harg6 arg7 harg7 arg8 harg8 arg9 harg9 arg10 harg10 arg11 harg11 h1 h2 h3 xq xkv wq wkv o s E K
      · have eo : outAt i o (fold (BitVec.ofNat 32 (i 1).val) (BitVec.ofNat 32 (i 2).val) xkv wkv s) = o := by unfold outAt; rw [if_neg h3]
        rw [es, eo]; simp only [fold]
        exact run_fold c i arg3 harg3 arg4 harg4 arg5 harg5 arg6 harg6 arg7 harg7 arg8 harg8 arg9 harg9 arg10 harg10 arg11 harg11 h1 h2 h3 xq xkv wq wkv o s E K
    · have es : step i xq xkv wq wkv s = s := by
        unfold step; simp only [if_neg h1, if_neg h2]
      by_cases h3 : c3 i
      · have eo : outAt i o s = outOf s := by unfold outAt; rw [if_pos h3]
        rw [es, eo]; simp only [outOf]
        exact run_store c i arg3 harg3 arg4 harg4 arg5 harg5 arg6 harg6 arg7 harg7 arg8 harg8 arg9 harg9 arg10 harg10 arg11 harg11 h1 h2 h3 xq xkv wq wkv o s E K
      · have eo : outAt i o s = o := by unfold outAt; rw [if_neg h3]
        rw [es, eo]
        exact run_skip c i arg3 harg3 arg4 harg4 arg5 harg5 arg6 harg6 arg7 harg7 arg8 harg8 arg9 harg9 arg10 harg10 arg11 harg11 h1 h2 h3 xq xkv wq wkv o s E K

end Cert.Kernel.Hand

end
-- ==== Proof.LibFrameShared.lean ====
/-
  A frame run for a pipelined region whose INPUT windows may share an array.

  A kernel handed one array through several input windows (the same tensor read at two different blocks per grid
  point) has windows whose arrays are not pairwise distinct, so the array's full share has to be dealt among the
  windows on it: the proof data name each window's share (`Dat.q`), and the certificate says how the distinct buffers
  behind the arrays, each whole at the full share, make the data's `arrays` at entry (`hsplit`). The region keeps the
  scoped buffers that are no staging buffer (the scratch operands) in its invariant: anything before the first point
  (`hin`), forgotten after the last (`hout`); the generator register is let go (such a kernel draws nothing).
  The conclusion is the library's `Pipeline.FramePost`: every window's array ends at `Dat.arrAt w N` — an input at
  its entry contents, an output at those overwritten by what the body left at each write-back — and every unscoped
  buffer that is no window's array ends at its contents at the region's entry.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- THE FRAME RUN of a region whose windows may SHARE ARRAYS, with a tracking invariant over the scratch the body
    carries between points: the staging cells pairwise distinct (`hinj`), the windows laid out as `WinFacts₀` says (the
    arrays need not be distinct), the body obligation at every point, nothing owed, @main up to the region (`hmain`),
    the arrays' buffers dealt among the windows at entry (`hsplit`), the invariant entered from the scoped rest (`hin`)
    and returned to it (`hout`). Every weakly fair execution terminates in a state satisfying `FramePost`. -/
theorem θ_run_frame_shared_track
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (Ix := Unit) (Name := ℕ) (U := UR sig nD τ) (Lvl := ℕ) (Val := Val) (cfg).spec c : sProp 𝕄) ⊢ (dats p c).Φ 0)
    (hout : ∀ c, (dats p c).Φ (Fin.last (cfg).N) ⊢ (scopedRest (Ix := Unit) (Name := ℕ) (U := UR sig nD τ) (Lvl := ℕ) (Val := Val) (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => (show _ ⊢ (scopedRest (Ix := Unit) (Name := ℕ) (U := UR sig nD τ) (Lvl := ℕ) (Val := Val) (cfg).spec c : sProp 𝕄) from by
      iintro ⟨-, HR⟩; iexact HR).trans (hin c))
    (hout := fun c => (hout c).trans (by
      iintro HR
      isplitr; · iempintro
      iexact HR))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.Pipeline

end
-- ==== Proof.KernelRun.lean ====
/-
  The frame run of the fused attention kernel. The region has five windows — the query tile and the key/value tile, both
  blocks of the ONE input array `x`; the query weights; the concatenated key and value weights, a host concatenation before
  the region; and the output tile — and four scratch buffers carried from point to point along the innermost grid axis.
  The body at a point is the pure step `step` on the scratch (reset at the first key tile, fold of a key tile at or before
  the query tile) and, at the last key tile, the store of the accumulator divided by the normalizer into the output tile.
  The scratch after point `n` is `scrAt n`, the fold of `step` along the grid; the region's invariant holds the four
  scratch buffers at anything before the first point and at `scrAt` afterwards. The array `x` is held half by each of its
  two windows.
-/
import proofs.«166854_j67577015435858_2_alg».proof.Proof.KernelCases
import proofs.«166854_j67577015435858_2_alg».proof.Proof.LibFrameShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host concatenation of the key and value weights. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes its own result only: the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.binary_writes, Finset.mem_singleton]
    exact StableHlo.devRef_ne_of_ne (by decide)))
/-- The concatenation writes its own result only: the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.binary_writes, Finset.mem_singleton]
    exact StableHlo.devRef_ne_of_ne (by decide)))
/-- The concatenation writes its own result only: the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.binary_writes, Finset.mem_singleton]
    exact StableHlo.devRef_ne_of_ne (by decide)))
/-- The concatenation writes its own result only: the region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.binary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid -/

theorem hc1 : ∀ t : Fin cfg0.N, c1 (grid0.coords t) ↔ t.val % 4 = 0 :=
  (by decide +kernel : ∀ t : Fin grid0.N, c1 (grid0.coords t) ↔ t.val % 4 = 0)
theorem hc3 : ∀ t : Fin cfg0.N, c3 (grid0.coords t) ↔ t.val % 4 = 3 :=
  (by decide +kernel : ∀ t : Fin grid0.N, c3 (grid0.coords t) ↔ t.val % 4 = 3)
/-- The first key tile is never after the query tile. -/
theorem hc12 : ∀ t : Fin cfg0.N, c1 (grid0.coords t) → c2 (grid0.coords t) :=
  (by decide +kernel : ∀ t : Fin grid0.N, c1 (grid0.coords t) → c2 (grid0.coords t))
theorem hc13 : ∀ t : Fin cfg0.N, c1 (grid0.coords t) → ¬ c3 (grid0.coords t) :=
  (by decide +kernel : ∀ t : Fin grid0.N, c1 (grid0.coords t) → ¬ c3 (grid0.coords t))

theorem liveAt_in : ∀ (w : Fin 4) (t : Fin cfg0.N), cfg0.idle (w.castSucc) (grid0.coords t) = false := by decide +kernel
theorem idleAt_out : ∀ t : Fin cfg0.N, ¬ c3 (grid0.coords t) → cfg0.idle 4 (grid0.coords t) = true := by decide +kernel
theorem noFlush_out : ∀ t : Fin cfg0.N, ¬ c3 (grid0.coords t) → (cfg0.win 4).flush t = false := by decide +kernel
theorem liveAt_out : ∀ t : Fin cfg0.N, c3 (grid0.coords t) → cfg0.idle 4 (grid0.coords t) = false := by decide +kernel

/-! ## The staging and scratch memrefs -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev scQ : Memref sig .tc .vmem S512x64 .f32 := Memref.whole cc0_scratch0
abbrev scM : Memref sig .tc .vmem S512x1 .f32 := Memref.whole cc0_scratch1
abbrev scL : Memref sig .tc .vmem S512x1 .f32 := Memref.whole cc0_scratch2
abbrev scA : Memref sig .tc .vmem S512x64 .f32 := Memref.whole cc0_scratch3

/-- The scoped buffers that are no staging buffer are the four scratch buffers, each owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scQ fullShare d) ∗ (∃ d, owns (c : Thread nD τ) scM fullShare d)
          ∗ (∃ d, owns (c : Thread nD τ) scL fullShare d) ∗ (∃ d, owns (c : Thread nD τ) scA fullShare d)) := by
  rw [scopedRest0_eq]; simp only [scQ, scM, scL, scA, owns_whole]; try rfl

/-! ## The scratch point by point -/

/-- Scratch contents nobody reads: the reset at the first point overwrites them. -/
def scr0 : Scr F := ⟨k0_pay3, k0_pay2, k0_pay2, k0_pay3⟩

/-- The scratch after the body at position `n` of the grid: `step` at the point's coordinates and input blocks, from the scratch
    the point before left. -/
def scrAt (c : Dev nD) : (n : ℕ) → n < cfg0.N → Scr F
  | 0, hn => step (grid0.coords ⟨0, hn⟩) (iblk m c 0 ⟨0, hn⟩) (iblk m c 1 ⟨0, hn⟩) (iblk m c 2 ⟨0, hn⟩) (iblk m c 3 ⟨0, hn⟩) scr0
  | n + 1, hn => step (grid0.coords ⟨n + 1, hn⟩) (iblk m c 0 ⟨n + 1, hn⟩) (iblk m c 1 ⟨n + 1, hn⟩) (iblk m c 2 ⟨n + 1, hn⟩) (iblk m c 3 ⟨n + 1, hn⟩)
      (scrAt c n (Nat.lt_of_succ_lt hn))

/-- A point that resets forgets the scratch it found. -/
theorem step_of_reset (i : grid0.Coords) (h : c1 i) (xq xkv : Vec F S1x512x512 .f32) (wq : Vec F S512x64 .f32) (wkv : Vec F S512x128 .f32) (s s' : Scr F) :
    step i xq xkv wq wkv s = step i xq xkv wq wkv s' := by
  unfold step; simp only [if_pos h]

theorem scrAt_zero (c : Dev nD) (t : Fin cfg0.N) (h : t.val = 0) (s : Scr F) :
    scrAt m c t.val t.isLt = step (grid0.coords t) (iblk m c 0 t) (iblk m c 1 t) (iblk m c 2 t) (iblk m c 3 t) s := by
  obtain ⟨n, hn⟩ := t
  cases n with
  | zero => exact step_of_reset _ ((hc1 ⟨0, hn⟩).mpr (Nat.zero_mod _)) _ _ _ _ _ _
  | succ n => exact absurd h (Nat.succ_ne_zero n)

theorem scrAt_pos (c : Dev nD) (t : Fin cfg0.N) (h : t.val ≠ 0) :
    scrAt m c t.val t.isLt = step (grid0.coords t) (iblk m c 0 t) (iblk m c 1 t) (iblk m c 2 t) (iblk m c 3 t)
      (scrAt m c (t.val - 1) (Nat.lt_of_le_of_lt (Nat.sub_le _ _) t.isLt)) := by
  obtain ⟨n, hn⟩ := t
  cases n with
  | zero => exact absurd rfl h
  | succ n => rfl

/-- The region invariant before position `n`: the four scratch buffers at anything before the first point, at what the point
    before left afterwards. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scQ fullShare (scrAt m c n hn).q ∗ owns (c : Thread nD τ) scM fullShare (scrAt m c n hn).mx
      ∗ owns (c : Thread nD τ) scL fullShare (scrAt m c n hn).l ∗ owns (c : Thread nD τ) scA fullShare (scrAt m c n hn).acc)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scQ fullShare (scrAt m c n hn).q ∗ owns (c : Thread nD τ) scM fullShare (scrAt m c n hn).mx
      ∗ owns (c : Thread nD τ) scL fullShare (scrAt m c n hn).l ∗ owns (c : Thread nD τ) scA fullShare (scrAt m c n hn).acc) := rfl

theorem PhiS_pos (c : Dev nD) (n : ℕ) (h : n ≤ cfg0.N) (hz : n ≠ 0) :
    PhiS m c n h = iprop(owns (c : Thread nD τ) scQ fullShare (scrAt m c (n - 1) (by omega)).q ∗ owns (c : Thread nD τ) scM fullShare (scrAt m c (n - 1) (by omega)).mx
      ∗ owns (c : Thread nD τ) scL fullShare (scrAt m c (n - 1) (by omega)).l ∗ owns (c : Thread nD τ) scA fullShare (scrAt m c (n - 1) (by omega)).acc) := by
  cases n with
  | zero => exact absurd rfl hz
  | succ n => rfl

/-! ## The proof data -/

/-- The proof data on core `c`: the arrays as the region finds them; after the body each input window's buffer at its block and the
    output window's at the quotient of the scratch the point leaves (consulted only at a sweep's last point, where it is stored and
    written back); the invariant `PhiS`; the array `x` held half by each of its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (scrAt m c t.val t.isLt)
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outOf (scrAt m c t.val t.isLt) := by dsimp only [dats]

theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d
theorem before_2 (c : Dev nD) (t : Fin cfg0.N) (d) : (dats m 0 c).before 2 t d = iblk m c 2 t :=
  before_in_2 m (dats m 0 c) (A_eq m c 2) (after_2 m c) t d
theorem before_3 (c : Dev nD) (t : Fin cfg0.N) (d) : (dats m 0 c).before 3 t d = iblk m c 3 t :=
  before_in_3 m (dats m 0 c) (A_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_in (c : Dev nD) (t : Fin cfg0.N) (w : Fin 4) :
    (dats m 0 c).leavesExact w.castSucc t = owns (c : Thread nD τ) ((cfg0.win w.castSucc).stage (cfg0.slots t w.castSucc)) fullShare ((dats m 0 c).after w.castSucc t) := by
  unfold Dat.leavesExact; rw [liveAt_in w t]

set_option maxHeartbeats 4000000 in
/-- The body at any point: the inputs' buffers hold their blocks; the scratch holds what the point before left (anything at the
    first point, which resets it); `body_run` applies, and leaves the scratch at `scrAt` of this point and the output buffer at the
    quotient where it is stored, untouched where the window is idle. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare (iblk m c 0 t) from (leaves_in m c t 0).trans (by rw [show (0 : Fin 4).castSucc = (0 : Fin 5) from rfl, after_0]),
    show (dats m 0 c).leavesExact 1 t = owns (c : Thread nD τ) (ms1 t) fullShare (iblk m c 1 t) from (leaves_in m c t 1).trans (by rw [show (1 : Fin 4).castSucc = (1 : Fin 5) from rfl, after_1]),
    show (dats m 0 c).leavesExact 2 t = owns (c : Thread nD τ) (ms2 t) fullShare (iblk m c 2 t) from (leaves_in m c t 2).trans (by rw [show (2 : Fin 4).castSucc = (2 : Fin 5) from rfl, after_2]),
    show (dats m 0 c).leavesExact 3 t = owns (c : Thread nD τ) (ms3 t) fullShare (iblk m c 3 t) from (leaves_in m c t 3).trans (by rw [show (3 : Fin 4).castSucc = (3 : Fin 5) from rfl, after_3])]
  by_cases hz : t.val = 0
  · have h1 : c1 (grid0.coords t) := (hc1 t).mpr (by rw [hz])
    have h3 : ¬ c3 (grid0.coords t) := hc13 t h1
    rw [Dat.leavesExact_idle (dats m 0 c) 4 t (idleAt_out t h3) (noFlush_out t h3)]
    rw [PhiS_castSucc m c t, PhiS_zero m c _ _ hz, scoped_eq]
    iintro ⟨⟨⟨%dq, HQ⟩, ⟨%dm, HM⟩, ⟨%dl, HL⟩, ⟨%da, HA⟩⟩, Ho, ⟨%d0, H0⟩, ⟨%d1, H1⟩, ⟨%d2, H2⟩, ⟨%d3, H3⟩, ⟨%d4, H4⟩⟩
    rw [scrAt_zero m c t hz ⟨dq, dm, dl, da⟩]
    iapply (body_run c (grid0.coords t) _ _ _ _ _ _ _ _ _ _ _ _ _ _ _ _ _ _ (hc12 t) (hc13 t) (iblk m c 0 t) (iblk m c 1 t) (iblk m c 2 t) (iblk m c 3 t)
      ((dats m 0 c).before 4 t d4) ⟨dq, dm, dl, da⟩ Set.univ _)
    isplitl [H0]; · iexact H0
    isplitl [H1]; · iexact H1
    isplitl [H2]; · iexact H2
    isplitl [H3]; · iexact H3
    isplitl [H4]; · iexact H4
    isplitl [HQ]; · iexact HQ
    isplitl [HM]; · iexact HM
    isplitl [HL]; · iexact HL
    isplitl [HA]; · iexact HA
    iintro ⟨H0, H1, H2, H3, H4, HQ, HM, HL, HA⟩
    rw [show outAt (grid0.coords t) ((dats m 0 c).before 4 t d4) (step (grid0.coords t) (iblk m c 0 t) (iblk m c 1 t) (iblk m c 2 t) (iblk m c 3 t) ⟨dq, dm, dl, da⟩)
        = (dats m 0 c).before 4 t d4 from by unfold outAt; rw [if_neg h3]]
    isplitl [HQ HM HL HA]
    · isplitl [HQ]; · iexact HQ
      isplitl [HM]; · iexact HM
      isplitl [HL]; · iexact HL
      iexact HA
    isplitl [Ho]; · iexact Ho
    isplitl [H0]; · iexact H0
    isplitl [H1]; · iexact H1
    isplitl [H2]; · iexact H2
    isplitl [H3]; · iexact H3
    iexists _; iexact H4
  · rw [PhiS_castSucc m c t, PhiS_pos m c _ _ hz, scrAt_pos m c t hz]
    by_cases h3 : c3 (grid0.coords t)
    · rw [show (dats m 0 c).leavesExact 4 t = owns (c : Thread nD τ) (ms4 t) fullShare ((dats m 0 c).after 4 t) from by
        unfold Dat.leavesExact; rw [liveAt_out t h3], after_4, scrAt_pos m c t hz]
      iintro ⟨⟨HQ, HM, HL, HA⟩, Ho, ⟨%d0, H0⟩, ⟨%d1, H1⟩, ⟨%d2, H2⟩, ⟨%d3, H3⟩, ⟨%d4, H4⟩⟩
      iapply (body_run c (grid0.coords t) _ _ _ _ _ _ _ _ _ _ _ _ _ _ _ _ _ _ (hc12 t) (hc13 t) (iblk m c 0 t) (iblk m c 1 t) (iblk m c 2 t) (iblk m c 3 t)
        ((dats m 0 c).before 4 t d4) (scrAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HQ]; · iexact HQ
      isplitl [HM]; · iexact HM
      isplitl [HL]; · iexact HL
      isplitl [HA]; · iexact HA
      iintro ⟨H0, H1, H2, H3, H4, HQ, HM, HL, HA⟩
      rw [show outAt (grid0.coords t) ((dats m 0 c).before 4 t d4) (step (grid0.coords t) (iblk m c 0 t) (iblk m c 1 t) (iblk m c 2 t) (iblk m c 3 t) (scrAt m c (t.val - 1) (Nat.lt_of_le_of_lt (Nat.sub_le _ _) t.isLt)))
          = outOf (step (grid0.coords t) (iblk m c 0 t) (iblk m c 1 t) (iblk m c 2 t) (iblk m c 3 t) (scrAt m c (t.val - 1) (Nat.lt_of_le_of_lt (Nat.sub_le _ _) t.isLt))) from by unfold outAt; rw [if_pos h3]]
      isplitl [HQ HM HL HA]
      · isplitl [HQ]; · iexact HQ
        isplitl [HM]; · iexact HM
        isplitl [HL]; · iexact HL
        iexact HA
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idleAt_out t h3) (noFlush_out t h3)]
      iintro ⟨⟨HQ, HM, HL, HA⟩, Ho, ⟨%d0, H0⟩, ⟨%d1, H1⟩, ⟨%d2, H2⟩, ⟨%d3, H3⟩, ⟨%d4, H4⟩⟩
      iapply (body_run c (grid0.coords t) _ _ _ _ _ _ _ _ _ _ _ _ _ _ _ _ _ _ (hc12 t) (hc13 t) (iblk m c 0 t) (iblk m c 1 t) (iblk m c 2 t) (iblk m c 3 t)
        ((dats m 0 c).before 4 t d4) (scrAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HQ]; · iexact HQ
      isplitl [HM]; · iexact HM
      isplitl [HL]; · iexact HL
      isplitl [HA]; · iexact HA
      iintro ⟨H0, H1, H2, H3, H4, HQ, HM, HL, HA⟩
      rw [show outAt (grid0.coords t) ((dats m 0 c).before 4 t d4) (step (grid0.coords t) (iblk m c 0 t) (iblk m c 1 t) (iblk m c 2 t) (iblk m c 3 t) (scrAt m c (t.val - 1) (Nat.lt_of_le_of_lt (Nat.sub_le _ _) t.isLt)))
          = (dats m 0 c).before 4 t d4 from by unfold outAt; rw [if_neg h3]]
      isplitl [HQ HM HL HA]
      · isplitl [HQ]; · iexact HQ
        isplitl [HM]; · iexact HM
        isplitl [HL]; · iexact HL
        iexact HA
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

/-! ## Entering and leaving the region -/

theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), scoped_eq]
  iintro ⟨HQ, HM, HL, HA⟩
  isplitl [HQ]; · iexists _; iexact HQ
  isplitl [HM]; · iexists _; iexact HM
  isplitl [HL]; · iexists _; iexact HL
  iexists _; iexact HA

/-- The distinct buffers behind the five windows' arrays are four. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_v0) ↦{fullShare} V m c main_v0) ∗ (((c : Thread nD τ).loc main_v1) ↦{fullShare} V m c main_v1)) := by
  unfold Pipeline.arrBufs
  exact BI.bigSep_eq_bigSepL_of_eq [main_arg0, main_arg1, main_v0, main_v1] (by decide) (by decide) _

/-- The buffers behind the windows' arrays, each whole at the full share, dealt among the windows: the array `x` split in two
    halves, one for each of its two windows; each other array to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]; unfold Dat.arrays
  rw [bigSep_W0]
  simp only [(arr_whole0 0).set_eq_univ, (arr_whole0 1).set_eq_univ, (arr_whole0 2).set_eq_univ, (arr_whole0 3).set_eq_univ, (arr_whole0 4).set_eq_univ]
  iintro ⟨H0, H1, H3, H4⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  isplitl [H3]; · iexact H3
  iexact H4

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_shared_track cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hin := hin m) (hout := hout m)

/-- THE FRAME: every weakly fair execution terminates without a fault, the four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Hand

end
-- ==== Proof.KernelIdealStep.lean ====
/-
  The body of the fused attention kernel at one grid point, as a pure function of what it finds: three branch conditions over the
  grid coordinates (first key tile; key tile at or before the query tile; last key tile) and, over the skeleton's payloads, the reset
  of the four scratch buffers, the fold of one key tile into them, and the quotient stored into the output tile.
-/
import proofs.«166854_j67577015435858_2_alg».proof.Proof.Gen.KernelIdeal.Launch
import proofs.«166854_j67577015435858_2_alg».proof.Proof.Gen.KernelIdeal.Skeleton
import proofs.«166854_j67577015435858_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's three branch conditions, from the grid coordinates -/

/-- The first key tile of a query tile's sweep (`ki = 0`): the running statistics are reset and the query projection is computed. -/
abbrev c1 (i : grid0.Coords) : Prop :=
  (Scalar.cmpi .ne (Scalar.extui (Scalar.cmpi .eq (BitVec.ofNat 32 (i 2).val) 0#32)) 0#32) = 1#1
/-- A key tile at or before the query tile (`ki ≤ qi`): the tile is folded into the running statistics. -/
abbrev c2 (i : grid0.Coords) : Prop :=
  (Scalar.cmpi .ne (Scalar.extui (Scalar.cmpi .sle (BitVec.ofNat 32 (i 2).val) (BitVec.ofNat 32 (i 1).val))) 0#32) = 1#1
/-- The last key tile of the sweep (`ki = 3`): the output block is the accumulator divided by the normalizer. -/
abbrev c3 (i : grid0.Coords) : Prop := k0_cond3 i = 1#1

/-! ## One grid point as a pure step on the four scratch buffers -/

/-- The scratch the kernel carries from point to point: the projected queries, the running row maximum, the running
    normalizer and the running weighted sum of values. -/
structure Scr (F : FTy → Type) [FloatOps F] where
  q : Vec F S512x64 .f32
  mx : Vec F S512x1 .f32
  l : Vec F S512x1 .f32
  acc : Vec F S512x64 .f32

/-- What the reset branch stores: the query projection of the query tile, the maximum at −∞, the normalizer and the sum at 0. -/
def reset (xq : Vec F S1x512x512 .f32) (wq : Vec F S512x64 .f32) : Scr F :=
  ⟨k0_pay4 xq wq, k0_pay1, k0_pay2, k0_pay3⟩

/-- What the fold branch stores from the scratch it finds: the new maximum, the rescaled normalizer plus the tile's row sums,
    the rescaled sum plus the tile's weighted values. -/
def fold (a1 a2 : BitVec 32) (xkv : Vec F S1x512x512 .f32) (wkv : Vec F S512x128 .f32) (s : Scr F) : Scr F :=
  ⟨s.q, k0_pay7 (k0_pay12 a1 a2 xkv wkv s.q s.mx), k0_pay5 (k0_pay15 a1 a2 xkv wkv s.q s.mx s.l),
    k0_pay6 (k0_pay10 xkv wkv) (k0_pay13 a1 a2 xkv wkv s.q s.mx) (k0_pay14 a1 a2 xkv wkv s.q s.mx) s.acc⟩

open Classical in
/-- The scratch after the body at a point with coordinates `i`, from the scratch before it and the point's input blocks. -/
def step (i : grid0.Coords) (xq xkv : Vec F S1x512x512 .f32) (wq : Vec F S512x64 .f32) (wkv : Vec F S512x128 .f32) (s : Scr F) : Scr F :=
  let s1 := if c1 i then reset xq wq else s
  if c2 i then fold (BitVec.ofNat 32 (i 1).val) (BitVec.ofNat 32 (i 2).val) xkv wkv s1 else s1

/-- What the last branch stores into the output block: the weighted sum divided by the normalizer, row by row. -/
def outOf (s : Scr F) : Vec F S1x512x64 .f32 := k0_pay8 s.acc s.l

/-- A read after a run of stores whose LAST one is a store of the whole buffer is that store's payload. -/
theorem read_writes_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

theorem hz2 : (![0, 0] : Fin 2 → Nat) = fun _ => 0 := by funext a; fin_cases a <;> rfl
theorem hz3 : (![0, 0, 0] : Fin 3 → Nat) = fun _ => 0 := by funext a; fin_cases a <;> rfl

theorem rww_64 {sg : RefSig} {κ : Kind} {sp : Space} (v : View sg κ sp S512x64 .f32) (f : v.ty.Contents (Elt F)) (inb) (w : S512x64.Idx → Elt F .f32) (L) :
    v.read (Elt F) (v.writes (Elt F) f ((⟨Rect.unit ![0, 0] S512x64.size inb, w⟩ : View.Piece (Elt F) S512x64 .f32) :: L)) = w :=
  read_writes_whole v f hz2 inb w L
theorem rww_1 {sg : RefSig} {κ : Kind} {sp : Space} (v : View sg κ sp S512x1 .f32) (f : v.ty.Contents (Elt F)) (inb) (w : S512x1.Idx → Elt F .f32) (L) :
    v.read (Elt F) (v.writes (Elt F) f ((⟨Rect.unit ![0, 0] S512x1.size inb, w⟩ : View.Piece (Elt F) S512x1 .f32) :: L)) = w :=
  read_writes_whole v f hz2 inb w L
theorem rww_o {sg : RefSig} {κ : Kind} {sp : Space} (v : View sg κ sp S1x512x64 .f32) (f : v.ty.Contents (Elt F)) (inb) (w : S1x512x64.Idx → Elt F .f32) (L) :
    v.read (Elt F) (v.writes (Elt F) f ((⟨Rect.unit ![0, 0, 0] S1x512x64.size inb, w⟩ : View.Piece (Elt F) S1x512x64 .f32) :: L)) = w :=
  read_writes_whole v f hz3 inb w L

open Classical in
/-- The output block's staging buffer after the body: the quotient at the sweep's last point, untouched elsewhere. -/
def outAt (i : grid0.Coords) (o : Vec F S1x512x64 .f32) (s' : Scr F) : Vec F S1x512x64 .f32 := if c3 i then outOf s' else o

end Cert.KernelIdeal.Hand

end
-- ==== Proof.KernelIdealCases.lean ====
/-
  The body's triple: from whole buffers at given contents it runs to the continuation holding the input tiles as they were, the
  four scratch buffers at the pure step of Proof/KernelIdealStep, and the output tile at the quotient at a sweep's last point (left
  alone elsewhere). One run per assignment of the branch conditions the grid meets, then one statement over all of them.
-/
import proofs.«166854_j67577015435858_2_alg».proof.Proof.KernelIdealStep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body, one run per control case

The grid meets five assignments of the three branch conditions; in each the skeleton runs through its loads and whole-buffer stores,
and what a stored buffer reads back is the last store's payload over the contents the loads found. -/

set_option maxHeartbeats 8000000 in
/-- The first key tile of a sweep: the scratch is reset, then the tile is folded in; the output buffer is left alone. -/
theorem run_reset_fold (c : Dev nD) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x64 .f32) (harg5 : arg5.IsWhole) (arg6 : Memref sig .tc .vmem S512x128 .f32) (harg6 : arg6.IsWhole)
    (arg7 : Memref sig .tc .vmem S1x512x64 .f32) (harg7 : arg7.IsWhole) (arg8 : Memref sig .tc .vmem S512x64 .f32) (harg8 : arg8.IsWhole)
    (arg9 : Memref sig .tc .vmem S512x1 .f32) (harg9 : arg9.IsWhole) (arg10 : Memref sig .tc .vmem S512x1 .f32) (harg10 : arg10.IsWhole)
    (arg11 : Memref sig .tc .vmem S512x64 .f32) (harg11 : arg11.IsWhole)
    (h1 : c1 i) (h2 : c2 i) (h3 : ¬ c3 i)
    (xq xkv : Vec F S1x512x512 .f32) (wq : Vec F S512x64 .f32) (wkv : Vec F S512x128 .f32) (o : Vec F S1x512x64 .f32) (s : Scr F)
    (E : Set ℕ) (K : PUnit → sProp 𝕄) :
    iprop(owns (c : Thread nD τ) arg3 fullShare xq
        ∗ owns (c : Thread nD τ) arg4 fullShare xkv
        ∗ owns (c : Thread nD τ) arg5 fullShare wq
        ∗ owns (c : Thread nD τ) arg6 fullShare wkv
        ∗ owns (c : Thread nD τ) arg7 fullShare o
        ∗ owns (c : Thread nD τ) arg8 fullShare s.q
        ∗ owns (c : Thread nD τ) arg9 fullShare s.mx
        ∗ owns (c : Thread nD τ) arg10 fullShare s.l
        ∗ owns (c : Thread nD τ) arg11 fullShare s.acc
        ∗ (iprop(owns (c : Thread nD τ) arg3 fullShare xq
            ∗ owns (c : Thread nD τ) arg4 fullShare xkv
            ∗ owns (c : Thread nD τ) arg5 fullShare wq
            ∗ owns (c : Thread nD τ) arg6 fullShare wkv
            ∗ owns (c : Thread nD τ) arg7 fullShare o
            ∗ owns (c : Thread nD τ) arg8 fullShare (k0_pay4 xq wq)
            ∗ owns (c : Thread nD τ) arg9 fullShare (k0_pay7 (k0_pay12 (BitVec.ofNat 32 (i 1).val) (BitVec.ofNat 32 (i 2).val) xkv wkv (k0_pay4 xq wq) k0_pay1))
            ∗ owns (c : Thread nD τ) arg10 fullShare (k0_pay5 (k0_pay15 (BitVec.ofNat 32 (i 1).val) (BitVec.ofNat 32 (i 2).val) xkv wkv (k0_pay4 xq wq) k0_pay1 k0_pay2))
            ∗ owns (c : Thread nD τ) arg11 fullShare (k0_pay6 (k0_pay10 xkv wkv) (k0_pay13 (BitVec.ofNat 32 (i 1).val) (BitVec.ofNat 32 (i 2).val) xkv wkv (k0_pay4 xq wq) k0_pay1) (k0_pay14 (BitVec.ofNat 32 (i 1).val) (BitVec.ofNat 32 (i 2).val) xkv wkv (k0_pay4 xq wq) k0_pay1) k0_pay3)) -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11) K := by
  simp only [cc0_kernel_eq_skeleton]; unfold cc0_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  obtain rfl := harg11.eq_unread hf11
  sl_exec (disch := first | exact h1 | exact h2 | exact h3)
  sl_step
  iapply Hk
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  isplitl [H9]
  · iexists _; isplitr
    swap; · iexact H9
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  isplitl [H10]
  · iexists _; isplitr
    swap; · iexact H10
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  iexists _; isplitr
  swap; · iexact H11
  ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))

set_option maxHeartbeats 8000000 in
/-- A later key tile at or before the query tile, not the last: the tile is folded in; the output buffer is left alone. -/
theorem run_fold (c : Dev nD) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x64 .f32) (harg5 : arg5.IsWhole) (arg6 : Memref sig .tc .vmem S512x128 .f32) (harg6 : arg6.IsWhole)
    (arg7 : Memref sig .tc .vmem S1x512x64 .f32) (harg7 : arg7.IsWhole) (arg8 : Memref sig .tc .vmem S512x64 .f32) (harg8 : arg8.IsWhole)
    (arg9 : Memref sig .tc .vmem S512x1 .f32) (harg9 : arg9.IsWhole) (arg10 : Memref sig .tc .vmem S512x1 .f32) (harg10 : arg10.IsWhole)
    (arg11 : Memref sig .tc .vmem S512x64 .f32) (harg11 : arg11.IsWhole)
    (h1 : ¬ c1 i) (h2 : c2 i) (h3 : ¬ c3 i)
    (xq xkv : Vec F S1x512x512 .f32) (wq : Vec F S512x64 .f32) (wkv : Vec F S512x128 .f32) (o : Vec F S1x512x64 .f32) (s : Scr F)
    (E : Set ℕ) (K : PUnit → sProp 𝕄) :
    iprop(owns (c : Thread nD τ) arg3 fullShare xq
        ∗ owns (c : Thread nD τ) arg4 fullShare xkv
        ∗ owns (c : Thread nD τ) arg5 fullShare wq
        ∗ owns (c : Thread nD τ) arg6 fullShare wkv
        ∗ owns (c : Thread nD τ) arg7 fullShare o
        ∗ owns (c : Thread nD τ) arg8 fullShare s.q
        ∗ owns (c : Thread nD τ) arg9 fullShare s.mx
        ∗ owns (c : Thread nD τ) arg10 fullShare s.l
        ∗ owns (c : Thread nD τ) arg11 fullShare s.acc
        ∗ (iprop(owns (c : Thread nD τ) arg3 fullShare xq
            ∗ owns (c : Thread nD τ) arg4 fullShare xkv
            ∗ owns (c : Thread nD τ) arg5 fullShare wq
            ∗ owns (c : Thread nD τ) arg6 fullShare wkv
            ∗ owns (c : Thread nD τ) arg7 fullShare o
            ∗ owns (c : Thread nD τ) arg8 fullShare s.q
            ∗ owns (c : Thread nD τ) arg9 fullShare (k0_pay7 (k0_pay12 (BitVec.ofNat 32 (i 1).val) (BitVec.ofNat 32 (i 2).val) xkv wkv s.q s.mx))
            ∗ owns (c : Thread nD τ) arg10 fullShare (k0_pay5 (k0_pay15 (BitVec.ofNat 32 (i 1).val) (BitVec.ofNat 32 (i 2).val) xkv wkv s.q s.mx s.l))
            ∗ owns (c : Thread nD τ) arg11 fullShare (k0_pay6 (k0_pay10 xkv wkv) (k0_pay13 (BitVec.ofNat 32 (i 1).val) (BitVec.ofNat 32 (i 2).val) xkv wkv s.q s.mx) (k0_pay14 (BitVec.ofNat 32 (i 1).val) (BitVec.ofNat 32 (i 2).val) xkv wkv s.q s.mx) s.acc)) -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11) K := by
  simp only [cc0_kernel_eq_skeleton]; unfold cc0_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  obtain rfl := harg11.eq_unread hf11
  sl_exec (disch := first | exact h1 | exact h2 | exact h3)
  sl_step
  iapply Hk
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact hf8
  isplitl [H9]
  · iexists _; isplitr
    swap; · iexact H9
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  isplitl [H10]
  · iexists _; isplitr
    swap; · iexact H10
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  iexists _; isplitr
  swap; · iexact H11
  ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))

set_option maxHeartbeats 8000000 in
/-- A key tile after the query tile, not the last: nothing is loaded or stored. -/
theorem run_skip (c : Dev nD) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x64 .f32) (harg5 : arg5.IsWhole) (arg6 : Memref sig .tc .vmem S512x128 .f32) (harg6 : arg6.IsWhole)
    (arg7 : Memref sig .tc .vmem S1x512x64 .f32) (harg7 : arg7.IsWhole) (arg8 : Memref sig .tc .vmem S512x64 .f32) (harg8 : arg8.IsWhole)
    (arg9 : Memref sig .tc .vmem S512x1 .f32) (harg9 : arg9.IsWhole) (arg10 : Memref sig .tc .vmem S512x1 .f32) (harg10 : arg10.IsWhole)
    (arg11 : Memref sig .tc .vmem S512x64 .f32) (harg11 : arg11.IsWhole)
    (h1 : ¬ c1 i) (h2 : ¬ c2 i) (h3 : ¬ c3 i)
    (xq xkv : Vec F S1x512x512 .f32) (wq : Vec F S512x64 .f32) (wkv : Vec F S512x128 .f32) (o : Vec F S1x512x64 .f32) (s : Scr F)
    (E : Set ℕ) (K : PUnit → sProp 𝕄) :
    iprop(owns (c : Thread nD τ) arg3 fullShare xq
        ∗ owns (c : Thread nD τ) arg4 fullShare xkv
        ∗ owns (c : Thread nD τ) arg5 fullShare wq
        ∗ owns (c : Thread nD τ) arg6 fullShare wkv
        ∗ owns (c : Thread nD τ) arg7 fullShare o
        ∗ owns (c : Thread nD τ) arg8 fullShare s.q
        ∗ owns (c : Thread nD τ) arg9 fullShare s.mx
        ∗ owns (c : Thread nD τ) arg10 fullShare s.l
        ∗ owns (c : Thread nD τ) arg11 fullShare s.acc
        ∗ (iprop(owns (c : Thread nD τ) arg3 fullShare xq
            ∗ owns (c : Thread nD τ) arg4 fullShare xkv
            ∗ owns (c : Thread nD τ) arg5 fullShare wq
            ∗ owns (c : Thread nD τ) arg6 fullShare wkv
            ∗ owns (c : Thread nD τ) arg7 fullShare o
            ∗ owns (c : Thread nD τ) arg8 fullShare s.q
            ∗ owns (c : Thread nD τ) arg9 fullShare s.mx
            ∗ owns (c : Thread nD τ) arg10 fullShare s.l
            ∗ owns (c : Thread nD τ) arg11 fullShare s.acc) -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11) K := by
  simp only [cc0_kernel_eq_skeleton]; unfold cc0_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  obtain rfl := harg11.eq_unread hf11
  sl_exec (disch := first | exact h1 | exact h2 | exact h3)
  sl_step
  iapply Hk
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact hf8
  isplitl [H9]
  · iexists _; isplitr
    swap; · iexact H9
    ipureintro; exact hf9
  isplitl [H10]
  · iexists _; isplitr
    swap; · iexact H10
    ipureintro; exact hf10
  iexists _; isplitr
  swap; · iexact H11
  ipureintro; exact hf11

set_option maxHeartbeats 8000000 in
/-- The last key tile, at the query tile: the tile is folded in, then the quotient is stored into the output buffer. -/
theorem run_fold_store (c : Dev nD) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x64 .f32) (harg5 : arg5.IsWhole) (arg6 : Memref sig .tc .vmem S512x128 .f32) (harg6 : arg6.IsWhole)
    (arg7 : Memref sig .tc .vmem S1x512x64 .f32) (harg7 : arg7.IsWhole) (arg8 : Memref sig .tc .vmem S512x64 .f32) (harg8 : arg8.IsWhole)
    (arg9 : Memref sig .tc .vmem S512x1 .f32) (harg9 : arg9.IsWhole) (arg10 : Memref sig .tc .vmem S512x1 .f32) (harg10 : arg10.IsWhole)
    (arg11 : Memref sig .tc .vmem S512x64 .f32) (harg11 : arg11.IsWhole)
    (h1 : ¬ c1 i) (h2 : c2 i) (h3 : c3 i)
    (xq xkv : Vec F S1x512x512 .f32) (wq : Vec F S512x64 .f32) (wkv : Vec F S512x128 .f32) (o : Vec F S1x512x64 .f32) (s : Scr F)
    (E : Set ℕ) (K : PUnit → sProp 𝕄) :
    iprop(owns (c : Thread nD τ) arg3 fullShare xq
        ∗ owns (c : Thread nD τ) arg4 fullShare xkv
        ∗ owns (c : Thread nD τ) arg5 fullShare wq
        ∗ owns (c : Thread nD τ) arg6 fullShare wkv
        ∗ owns (c : Thread nD τ) arg7 fullShare o
        ∗ owns (c : Thread nD τ) arg8 fullShare s.q
        ∗ owns (c : Thread nD τ) arg9 fullShare s.mx
        ∗ owns (c : Thread nD τ) arg10 fullShare s.l
        ∗ owns (c : Thread nD τ) arg11 fullShare s.acc
        ∗ (iprop(owns (c : Thread nD τ) arg3 fullShare xq
            ∗ owns (c : Thread nD τ) arg4 fullShare xkv
            ∗ owns (c : Thread nD τ) arg5 fullShare wq
            ∗ owns (c : Thread nD τ) arg6 fullShare wkv
            ∗ owns (c : Thread nD τ) arg7 fullShare (k0_pay8 (k0_pay6 (k0_pay10 xkv wkv) (k0_pay13 (BitVec.ofNat 32 (i 1).val) (BitVec.ofNat 32 (i 2).val) xkv wkv s.q s.mx) (k0_pay14 (BitVec.ofNat 32 (i 1).val) (BitVec.ofNat 32 (i 2).val) xkv wkv s.q s.mx) s.acc) (k0_pay5 (k0_pay15 (BitVec.ofNat 32 (i 1).val) (BitVec.ofNat 32 (i 2).val) xkv wkv s.q s.mx s.l)))
            ∗ owns (c : Thread nD τ) arg8 fullShare s.q
            ∗ owns (c : Thread nD τ) arg9 fullShare (k0_pay7 (k0_pay12 (BitVec.ofNat 32 (i 1).val) (BitVec.ofNat 32 (i 2).val) xkv wkv s.q s.mx))
            ∗ owns (c : Thread nD τ) arg10 fullShare (k0_pay5 (k0_pay15 (BitVec.ofNat 32 (i 1).val) (BitVec.ofNat 32 (i 2).val) xkv wkv s.q s.mx s.l))
            ∗ owns (c : Thread nD τ) arg11 fullShare (k0_pay6 (k0_pay10 xkv wkv) (k0_pay13 (BitVec.ofNat 32 (i 1).val) (BitVec.ofNat 32 (i 2).val) xkv wkv s.q s.mx) (k0_pay14 (BitVec.ofNat 32 (i 1).val) (BitVec.ofNat 32 (i 2).val) xkv wkv s.q s.mx) s.acc)) -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11) K := by
  simp only [cc0_kernel_eq_skeleton]; unfold cc0_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  obtain rfl := harg11.eq_unread hf11
  sl_exec (disch := first | exact h1 | exact h2 | exact h3)
  sl_step
  iapply Hk
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  isplitl [H8]
  · iexists _; isplitr
    swap; · iexact H8
    ipureintro; exact hf8
  isplitl [H9]
  · iexists _; isplitr
    swap; · iexact H9
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  isplitl [H10]
  · iexists _; isplitr
    swap; · iexact H10
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  iexists _; isplitr
  swap; · iexact H11
  ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))

set_option maxHeartbeats 8000000 in
/-- The last key tile, after the query tile: the quotient of the scratch as found is stored into the output buffer. -/
theorem run_store (c : Dev nD) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x64 .f32) (harg5 : arg5.IsWhole) (arg6 : Memref sig .tc .vmem S512x128 .f32) (harg6 : arg6.IsWhole)
    (arg7 : Memref sig .tc .vmem S1x512x64 .f32) (harg7 : arg7.IsWhole) (arg8 : Memref sig .tc .vmem S512x64 .f32) (harg8 : arg8.IsWhole)
    (arg9 : Memref sig .tc .vmem S512x1 .f32) (harg9 : arg9.IsWhole) (arg10 : Memref sig .tc .vmem S512x1 .f32) (harg10 : arg10.IsWhole)
    (arg11 : Memref sig .tc .vmem S512x64 .f32) (harg11 : arg11.IsWhole)
    (h1 : ¬ c1 i) (h2 : ¬ c2 i) (h3 : c3 i)
    (xq xkv : Vec F S1x512x512 .f32) (wq : Vec F S512x64 .f32) (wkv : Vec F S512x128 .f32) (o : Vec F S1x512x64 .f32) (s : Scr F)
    (E : Set ℕ) (K : PUnit → sProp 𝕄) :
    iprop(owns (c : Thread nD τ) arg3 fullShare xq
        ∗ owns (c : Thread nD τ) arg4 fullShare xkv
        ∗ owns (c : Thread nD τ) arg5 fullShare wq
        ∗ owns (c : Thread nD τ) arg6 fullShare wkv
        ∗ owns (c : Thread nD τ) arg7 fullShare o
        ∗ owns (c : Thread nD τ) arg8 fullShare s.q
        ∗ owns (c : Thread nD τ) arg9 fullShare s.mx
        ∗ owns (c : Thread nD τ) arg10 fullShare s.l
        ∗ owns (c : Thread nD τ) arg11 fullShare s.acc
        ∗ (iprop(owns (c : Thread nD τ) arg3 fullShare xq
            ∗ owns (c : Thread nD τ) arg4 fullShare xkv
            ∗ owns (c : Thread nD τ) arg5 fullShare wq
            ∗ owns (c : Thread nD τ) arg6 fullShare wkv
            ∗ owns (c : Thread nD τ) arg7 fullShare (k0_pay8 s.acc s.l)
            ∗ owns (c : Thread nD τ) arg8 fullShare s.q
            ∗ owns (c : Thread nD τ) arg9 fullShare s.mx
            ∗ owns (c : Thread nD τ) arg10 fullShare s.l
            ∗ owns (c : Thread nD τ) arg11 fullShare s.acc) -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11) K := by
  simp only [cc0_kernel_eq_skeleton]; unfold cc0_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  obtain rfl := harg11.eq_unread hf11
  sl_exec (disch := first | exact h1 | exact h2 | exact h3)
  sl_step
  iapply Hk
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; sl_unfold_run_names; (first | rw [rww_64] | rw [rww_1] | rw [rww_o]); (try simp only [View.readAt_eq_ld, Memref.IsWhole.read_unread, View.ld_unit_zero (S := S512x64) hz2, View.ld_unit_zero (S := S512x1) hz2, View.ld_unit_zero (S := S512x128) hz2, View.ld_unit_zero (S := S1x512x512) hz3, View.ld_unit_zero (S := S1x512x64) hz3, View.readCov_unit_zero _ (S := S512x64) hz2, View.readCov_unit_zero _ (S := S512x1) hz2]); (try (with_reducible rfl))
  isplitl [H8]
  · iexists _; isplitr
    swap; · iexact H8
    ipureintro; exact hf8
  isplitl [H9]
  · iexists _; isplitr
    swap; · iexact H9
    ipureintro; exact hf9
  isplitl [H10]
  · iexists _; isplitr
    swap; · iexact H10
    ipureintro; exact hf10
  iexists _; isplitr
  swap; · iexact H11
  ipureintro; exact hf11

/-- THE BODY at a point with coordinates `i`, on whole memrefs: the input windows' buffers at `xq`, `xkv`, `wq`, `wkv`, the output
    window's at `o`, the four scratch buffers at `s`. It runs to the continuation holding the inputs as they were, the scratch at
    `step i … s`, the output at the quotient if this is the sweep's last point and as it was otherwise. The reset branch runs only
    with the fold branch (`h12`: the first key tile is never after the query tile) and never with the last (`h13`). -/
theorem body_run (c : Dev nD) (i : grid0.Coords)
    (arg3 : Memref sig .tc .vmem S1x512x512 .f32) (harg3 : arg3.IsWhole) (arg4 : Memref sig .tc .vmem S1x512x512 .f32) (harg4 : arg4.IsWhole)
    (arg5 : Memref sig .tc .vmem S512x64 .f32) (harg5 : arg5.IsWhole) (arg6 : Memref sig .tc .vmem S512x128 .f32) (harg6 : arg6.IsWhole)
    (arg7 : Memref sig .tc .vmem S1x512x64 .f32) (harg7 : arg7.IsWhole) (arg8 : Memref sig .tc .vmem S512x64 .f32) (harg8 : arg8.IsWhole)
    (arg9 : Memref sig .tc .vmem S512x1 .f32) (harg9 : arg9.IsWhole) (arg10 : Memref sig .tc .vmem S512x1 .f32) (harg10 : arg10.IsWhole)
    (arg11 : Memref sig .tc .vmem S512x64 .f32) (harg11 : arg11.IsWhole)
    (h12 : c1 i → c2 i) (h13 : c1 i → ¬ c3 i)
    (xq xkv : Vec F S1x512x512 .f32) (wq : Vec F S512x64 .f32) (wkv : Vec F S512x128 .f32) (o : Vec F S1x512x64 .f32) (s : Scr F)
    (E : Set ℕ) (K : PUnit → sProp 𝕄) :
    iprop(owns (c : Thread nD τ) arg3 fullShare xq
        ∗ owns (c : Thread nD τ) arg4 fullShare xkv
        ∗ owns (c : Thread nD τ) arg5 fullShare wq
        ∗ owns (c : Thread nD τ) arg6 fullShare wkv
        ∗ owns (c : Thread nD τ) arg7 fullShare o
        ∗ owns (c : Thread nD τ) arg8 fullShare s.q
        ∗ owns (c : Thread nD τ) arg9 fullShare s.mx
        ∗ owns (c : Thread nD τ) arg10 fullShare s.l
        ∗ owns (c : Thread nD τ) arg11 fullShare s.acc
        ∗ (iprop(owns (c : Thread nD τ) arg3 fullShare xq
            ∗ owns (c : Thread nD τ) arg4 fullShare xkv
            ∗ owns (c : Thread nD τ) arg5 fullShare wq
            ∗ owns (c : Thread nD τ) arg6 fullShare wkv
            ∗ owns (c : Thread nD τ) arg7 fullShare (outAt i o (step i xq xkv wq wkv s))
            ∗ owns (c : Thread nD τ) arg8 fullShare (step i xq xkv wq wkv s).q
            ∗ owns (c : Thread nD τ) arg9 fullShare (step i xq xkv wq wkv s).mx
            ∗ owns (c : Thread nD τ) arg10 fullShare (step i xq xkv wq wkv s).l
            ∗ owns (c : Thread nD τ) arg11 fullShare (step i xq xkv wq wkv s).acc) -∗ K ⟨⟩))
      ⊢ wp frame (wpE (defs₀ (F := F)) Variants.none c none) E (cc0_kernel i arg3 harg3 arg4 harg4 arg5 harg5 arg6 harg6 arg7 harg7 arg8 harg8 arg9 harg9 arg10 harg10 arg11 harg11) K := by
  by_cases h1 : c1 i
  · have h2 : c2 i := h12 h1
    have h3 : ¬ c3 i := h13 h1
    have es : step i xq xkv wq wkv s = fold (BitVec.ofNat 32 (i 1).val) (BitVec.ofNat 32 (i 2).val) xkv wkv (reset xq wq) := by
      unfold step; simp only [if_pos h1, if_pos h2]
    have eo : outAt i o (fold (BitVec.ofNat 32 (i 1).val) (BitVec.ofNat 32 (i 2).val) xkv wkv (reset xq wq)) = o := by unfold outAt; rw [if_neg h3]
    rw [es, eo]; simp only [fold, reset]
    exact run_reset_fold c i arg3 harg3 arg4 harg4 arg5 harg5 arg6 harg6 arg7 harg7 arg8 harg8 arg9 harg9 arg10 harg10 arg11 harg11 h1 h2 h3 xq xkv wq wkv o s E K
  · by_cases h2 : c2 i
    · have es : step i xq xkv wq wkv s = fold (BitVec.ofNat 32 (i 1).val) (BitVec.ofNat 32 (i 2).val) xkv wkv s := by
        unfold step; simp only [if_neg h1, if_pos h2]
      by_cases h3 : c3 i
      · have eo : outAt i o (fold (BitVec.ofNat 32 (i 1).val) (BitVec.ofNat 32 (i 2).val) xkv wkv s) = outOf (fold (BitVec.ofNat 32 (i 1).val) (BitVec.ofNat 32 (i 2).val) xkv wkv s) := by unfold outAt; rw [if_pos h3]
        rw [es, eo]; simp only [fold, outOf]
        exact run_fold_store c i arg3 harg3 arg4 harg4 arg5 harg5 arg6 harg6 arg7 harg7 arg8 harg8 arg9 harg9 arg10 harg10 arg11 harg11 h1 h2 h3 xq xkv wq wkv o s E K
      · have eo : outAt i o (fold (BitVec.ofNat 32 (i 1).val) (BitVec.ofNat 32 (i 2).val) xkv wkv s) = o := by unfold outAt; rw [if_neg h3]
        rw [es, eo]; simp only [fold]
        exact run_fold c i arg3 harg3 arg4 harg4 arg5 harg5 arg6 harg6 arg7 harg7 arg8 harg8 arg9 harg9 arg10 harg10 arg11 harg11 h1 h2 h3 xq xkv wq wkv o s E K
    · have es : step i xq xkv wq wkv s = s := by
        unfold step; simp only [if_neg h1, if_neg h2]
      by_cases h3 : c3 i
      · have eo : outAt i o s = outOf s := by unfold outAt; rw [if_pos h3]
        rw [es, eo]; simp only [outOf]
        exact run_store c i arg3 harg3 arg4 harg4 arg5 harg5 arg6 harg6 arg7 harg7 arg8 harg8 arg9 harg9 arg10 harg10 arg11 harg11 h1 h2 h3 xq xkv wq wkv o s E K
      · have eo : outAt i o s = o := by unfold outAt; rw [if_neg h3]
        rw [es, eo]
        exact run_skip c i arg3 harg3 arg4 harg4 arg5 harg5 arg6 harg6 arg7 harg7 arg8 harg8 arg9 harg9 arg10 harg10 arg11 harg11 h1 h2 h3 xq xkv wq wkv o s E K

end Cert.KernelIdeal.Hand

end
-- ==== Proof.KernelIdealRun.lean ====
/-
  The frame run of the fused attention kernel. The region has five windows — the query tile and the key/value tile, both
  blocks of the ONE input array `x`; the query weights; the concatenated key and value weights, a host concatenation before
  the region; and the output tile — and four scratch buffers carried from point to point along the innermost grid axis.
  The body at a point is the pure step `step` on the scratch (reset at the first key tile, fold of a key tile at or before
  the query tile) and, at the last key tile, the store of the accumulator divided by the normalizer into the output tile.
  The scratch after point `n` is `scrAt n`, the fold of `step` along the grid; the region's invariant holds the four
  scratch buffers at anything before the first point and at `scrAt` afterwards. The array `x` is held half by each of its
  two windows.
-/
import proofs.«166854_j67577015435858_2_alg».proof.Proof.KernelIdealCases
import proofs.«166854_j67577015435858_2_alg».proof.Proof.LibFrameShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host concatenation of the key and value weights. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes its own result only: the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.binary_writes, Finset.mem_singleton]
    exact StableHlo.devRef_ne_of_ne (by decide)))
/-- The concatenation writes its own result only: the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.binary_writes, Finset.mem_singleton]
    exact StableHlo.devRef_ne_of_ne (by decide)))
/-- The concatenation writes its own result only: the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.binary_writes, Finset.mem_singleton]
    exact StableHlo.devRef_ne_of_ne (by decide)))
/-- The concatenation writes its own result only: the region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.binary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid -/

theorem hc1 : ∀ t : Fin cfg0.N, c1 (grid0.coords t) ↔ t.val % 4 = 0 :=
  (by decide +kernel : ∀ t : Fin grid0.N, c1 (grid0.coords t) ↔ t.val % 4 = 0)
theorem hc3 : ∀ t : Fin cfg0.N, c3 (grid0.coords t) ↔ t.val % 4 = 3 :=
  (by decide +kernel : ∀ t : Fin grid0.N, c3 (grid0.coords t) ↔ t.val % 4 = 3)
/-- The first key tile is never after the query tile. -/
theorem hc12 : ∀ t : Fin cfg0.N, c1 (grid0.coords t) → c2 (grid0.coords t) :=
  (by decide +kernel : ∀ t : Fin grid0.N, c1 (grid0.coords t) → c2 (grid0.coords t))
theorem hc13 : ∀ t : Fin cfg0.N, c1 (grid0.coords t) → ¬ c3 (grid0.coords t) :=
  (by decide +kernel : ∀ t : Fin grid0.N, c1 (grid0.coords t) → ¬ c3 (grid0.coords t))

theorem liveAt_in : ∀ (w : Fin 4) (t : Fin cfg0.N), cfg0.idle (w.castSucc) (grid0.coords t) = false := by decide +kernel
theorem idleAt_out : ∀ t : Fin cfg0.N, ¬ c3 (grid0.coords t) → cfg0.idle 4 (grid0.coords t) = true := by decide +kernel
theorem noFlush_out : ∀ t : Fin cfg0.N, ¬ c3 (grid0.coords t) → (cfg0.win 4).flush t = false := by decide +kernel
theorem liveAt_out : ∀ t : Fin cfg0.N, c3 (grid0.coords t) → cfg0.idle 4 (grid0.coords t) = false := by decide +kernel

/-! ## The staging and scratch memrefs -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev scQ : Memref sig .tc .vmem S512x64 .f32 := Memref.whole cc0_scratch0
abbrev scM : Memref sig .tc .vmem S512x1 .f32 := Memref.whole cc0_scratch1
abbrev scL : Memref sig .tc .vmem S512x1 .f32 := Memref.whole cc0_scratch2
abbrev scA : Memref sig .tc .vmem S512x64 .f32 := Memref.whole cc0_scratch3

/-- The scoped buffers that are no staging buffer are the four scratch buffers, each owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scQ fullShare d) ∗ (∃ d, owns (c : Thread nD τ) scM fullShare d)
          ∗ (∃ d, owns (c : Thread nD τ) scL fullShare d) ∗ (∃ d, owns (c : Thread nD τ) scA fullShare d)) := by
  rw [scopedRest0_eq]; simp only [scQ, scM, scL, scA, owns_whole]; try rfl

/-! ## The scratch point by point -/

/-- Scratch contents nobody reads: the reset at the first point overwrites them. -/
def scr0 : Scr F := ⟨k0_pay3, k0_pay2, k0_pay2, k0_pay3⟩

/-- The scratch after the body at position `n` of the grid: `step` at the point's coordinates and input blocks, from the scratch
    the point before left. -/
def scrAt (c : Dev nD) : (n : ℕ) → n < cfg0.N → Scr F
  | 0, hn => step (grid0.coords ⟨0, hn⟩) (iblk m c 0 ⟨0, hn⟩) (iblk m c 1 ⟨0, hn⟩) (iblk m c 2 ⟨0, hn⟩) (iblk m c 3 ⟨0, hn⟩) scr0
  | n + 1, hn => step (grid0.coords ⟨n + 1, hn⟩) (iblk m c 0 ⟨n + 1, hn⟩) (iblk m c 1 ⟨n + 1, hn⟩) (iblk m c 2 ⟨n + 1, hn⟩) (iblk m c 3 ⟨n + 1, hn⟩)
      (scrAt c n (Nat.lt_of_succ_lt hn))

/-- A point that resets forgets the scratch it found. -/
theorem step_of_reset (i : grid0.Coords) (h : c1 i) (xq xkv : Vec F S1x512x512 .f32) (wq : Vec F S512x64 .f32) (wkv : Vec F S512x128 .f32) (s s' : Scr F) :
    step i xq xkv wq wkv s = step i xq xkv wq wkv s' := by
  unfold step; simp only [if_pos h]

theorem scrAt_zero (c : Dev nD) (t : Fin cfg0.N) (h : t.val = 0) (s : Scr F) :
    scrAt m c t.val t.isLt = step (grid0.coords t) (iblk m c 0 t) (iblk m c 1 t) (iblk m c 2 t) (iblk m c 3 t) s := by
  obtain ⟨n, hn⟩ := t
  cases n with
  | zero => exact step_of_reset _ ((hc1 ⟨0, hn⟩).mpr (Nat.zero_mod _)) _ _ _ _ _ _
  | succ n => exact absurd h (Nat.succ_ne_zero n)

theorem scrAt_pos (c : Dev nD) (t : Fin cfg0.N) (h : t.val ≠ 0) :
    scrAt m c t.val t.isLt = step (grid0.coords t) (iblk m c 0 t) (iblk m c 1 t) (iblk m c 2 t) (iblk m c 3 t)
      (scrAt m c (t.val - 1) (Nat.lt_of_le_of_lt (Nat.sub_le _ _) t.isLt)) := by
  obtain ⟨n, hn⟩ := t
  cases n with
  | zero => exact absurd rfl h
  | succ n => rfl

/-- The region invariant before position `n`: the four scratch buffers at anything before the first point, at what the point
    before left afterwards. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scQ fullShare (scrAt m c n hn).q ∗ owns (c : Thread nD τ) scM fullShare (scrAt m c n hn).mx
      ∗ owns (c : Thread nD τ) scL fullShare (scrAt m c n hn).l ∗ owns (c : Thread nD τ) scA fullShare (scrAt m c n hn).acc)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scQ fullShare (scrAt m c n hn).q ∗ owns (c : Thread nD τ) scM fullShare (scrAt m c n hn).mx
      ∗ owns (c : Thread nD τ) scL fullShare (scrAt m c n hn).l ∗ owns (c : Thread nD τ) scA fullShare (scrAt m c n hn).acc) := rfl

theorem PhiS_pos (c : Dev nD) (n : ℕ) (h : n ≤ cfg0.N) (hz : n ≠ 0) :
    PhiS m c n h = iprop(owns (c : Thread nD τ) scQ fullShare (scrAt m c (n - 1) (by omega)).q ∗ owns (c : Thread nD τ) scM fullShare (scrAt m c (n - 1) (by omega)).mx
      ∗ owns (c : Thread nD τ) scL fullShare (scrAt m c (n - 1) (by omega)).l ∗ owns (c : Thread nD τ) scA fullShare (scrAt m c (n - 1) (by omega)).acc) := by
  cases n with
  | zero => exact absurd rfl hz
  | succ n => rfl

/-! ## The proof data -/

/-- The proof data on core `c`: the arrays as the region finds them; after the body each input window's buffer at its block and the
    output window's at the quotient of the scratch the point leaves (consulted only at a sweep's last point, where it is stored and
    written back); the invariant `PhiS`; the array `x` held half by each of its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (scrAt m c t.val t.isLt)
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outOf (scrAt m c t.val t.isLt) := by dsimp only [dats]

theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d
theorem before_2 (c : Dev nD) (t : Fin cfg0.N) (d) : (dats m 0 c).before 2 t d = iblk m c 2 t :=
  before_in_2 m (dats m 0 c) (A_eq m c 2) (after_2 m c) t d
theorem before_3 (c : Dev nD) (t : Fin cfg0.N) (d) : (dats m 0 c).before 3 t d = iblk m c 3 t :=
  before_in_3 m (dats m 0 c) (A_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_in (c : Dev nD) (t : Fin cfg0.N) (w : Fin 4) :
    (dats m 0 c).leavesExact w.castSucc t = owns (c : Thread nD τ) ((cfg0.win w.castSucc).stage (cfg0.slots t w.castSucc)) fullShare ((dats m 0 c).after w.castSucc t) := by
  unfold Dat.leavesExact; rw [liveAt_in w t]

set_option maxHeartbeats 4000000 in
/-- The body at any point: the inputs' buffers hold their blocks; the scratch holds what the point before left (anything at the
    first point, which resets it); `body_run` applies, and leaves the scratch at `scrAt` of this point and the output buffer at the
    quotient where it is stored, untouched where the window is idle. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare (iblk m c 0 t) from (leaves_in m c t 0).trans (by rw [show (0 : Fin 4).castSucc = (0 : Fin 5) from rfl, after_0]),
    show (dats m 0 c).leavesExact 1 t = owns (c : Thread nD τ) (ms1 t) fullShare (iblk m c 1 t) from (leaves_in m c t 1).trans (by rw [show (1 : Fin 4).castSucc = (1 : Fin 5) from rfl, after_1]),
    show (dats m 0 c).leavesExact 2 t = owns (c : Thread nD τ) (ms2 t) fullShare (iblk m c 2 t) from (leaves_in m c t 2).trans (by rw [show (2 : Fin 4).castSucc = (2 : Fin 5) from rfl, after_2]),
    show (dats m 0 c).leavesExact 3 t = owns (c : Thread nD τ) (ms3 t) fullShare (iblk m c 3 t) from (leaves_in m c t 3).trans (by rw [show (3 : Fin 4).castSucc = (3 : Fin 5) from rfl, after_3])]
  by_cases hz : t.val = 0
  · have h1 : c1 (grid0.coords t) := (hc1 t).mpr (by rw [hz])
    have h3 : ¬ c3 (grid0.coords t) := hc13 t h1
    rw [Dat.leavesExact_idle (dats m 0 c) 4 t (idleAt_out t h3) (noFlush_out t h3)]
    rw [PhiS_castSucc m c t, PhiS_zero m c _ _ hz, scoped_eq]
    iintro ⟨⟨⟨%dq, HQ⟩, ⟨%dm, HM⟩, ⟨%dl, HL⟩, ⟨%da, HA⟩⟩, Ho, ⟨%d0, H0⟩, ⟨%d1, H1⟩, ⟨%d2, H2⟩, ⟨%d3, H3⟩, ⟨%d4, H4⟩⟩
    rw [scrAt_zero m c t hz ⟨dq, dm, dl, da⟩]
    iapply (body_run c (grid0.coords t) _ _ _ _ _ _ _ _ _ _ _ _ _ _ _ _ _ _ (hc12 t) (hc13 t) (iblk m c 0 t) (iblk m c 1 t) (iblk m c 2 t) (iblk m c 3 t)
      ((dats m 0 c).before 4 t d4) ⟨dq, dm, dl, da⟩ Set.univ _)
    isplitl [H0]; · iexact H0
    isplitl [H1]; · iexact H1
    isplitl [H2]; · iexact H2
    isplitl [H3]; · iexact H3
    isplitl [H4]; · iexact H4
    isplitl [HQ]; · iexact HQ
    isplitl [HM]; · iexact HM
    isplitl [HL]; · iexact HL
    isplitl [HA]; · iexact HA
    iintro ⟨H0, H1, H2, H3, H4, HQ, HM, HL, HA⟩
    rw [show outAt (grid0.coords t) ((dats m 0 c).before 4 t d4) (step (grid0.coords t) (iblk m c 0 t) (iblk m c 1 t) (iblk m c 2 t) (iblk m c 3 t) ⟨dq, dm, dl, da⟩)
        = (dats m 0 c).before 4 t d4 from by unfold outAt; rw [if_neg h3]]
    isplitl [HQ HM HL HA]
    · isplitl [HQ]; · iexact HQ
      isplitl [HM]; · iexact HM
      isplitl [HL]; · iexact HL
      iexact HA
    isplitl [Ho]; · iexact Ho
    isplitl [H0]; · iexact H0
    isplitl [H1]; · iexact H1
    isplitl [H2]; · iexact H2
    isplitl [H3]; · iexact H3
    iexists _; iexact H4
  · rw [PhiS_castSucc m c t, PhiS_pos m c _ _ hz, scrAt_pos m c t hz]
    by_cases h3 : c3 (grid0.coords t)
    · rw [show (dats m 0 c).leavesExact 4 t = owns (c : Thread nD τ) (ms4 t) fullShare ((dats m 0 c).after 4 t) from by
        unfold Dat.leavesExact; rw [liveAt_out t h3], after_4, scrAt_pos m c t hz]
      iintro ⟨⟨HQ, HM, HL, HA⟩, Ho, ⟨%d0, H0⟩, ⟨%d1, H1⟩, ⟨%d2, H2⟩, ⟨%d3, H3⟩, ⟨%d4, H4⟩⟩
      iapply (body_run c (grid0.coords t) _ _ _ _ _ _ _ _ _ _ _ _ _ _ _ _ _ _ (hc12 t) (hc13 t) (iblk m c 0 t) (iblk m c 1 t) (iblk m c 2 t) (iblk m c 3 t)
        ((dats m 0 c).before 4 t d4) (scrAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HQ]; · iexact HQ
      isplitl [HM]; · iexact HM
      isplitl [HL]; · iexact HL
      isplitl [HA]; · iexact HA
      iintro ⟨H0, H1, H2, H3, H4, HQ, HM, HL, HA⟩
      rw [show outAt (grid0.coords t) ((dats m 0 c).before 4 t d4) (step (grid0.coords t) (iblk m c 0 t) (iblk m c 1 t) (iblk m c 2 t) (iblk m c 3 t) (scrAt m c (t.val - 1) (Nat.lt_of_le_of_lt (Nat.sub_le _ _) t.isLt)))
          = outOf (step (grid0.coords t) (iblk m c 0 t) (iblk m c 1 t) (iblk m c 2 t) (iblk m c 3 t) (scrAt m c (t.val - 1) (Nat.lt_of_le_of_lt (Nat.sub_le _ _) t.isLt))) from by unfold outAt; rw [if_pos h3]]
      isplitl [HQ HM HL HA]
      · isplitl [HQ]; · iexact HQ
        isplitl [HM]; · iexact HM
        isplitl [HL]; · iexact HL
        iexact HA
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idleAt_out t h3) (noFlush_out t h3)]
      iintro ⟨⟨HQ, HM, HL, HA⟩, Ho, ⟨%d0, H0⟩, ⟨%d1, H1⟩, ⟨%d2, H2⟩, ⟨%d3, H3⟩, ⟨%d4, H4⟩⟩
      iapply (body_run c (grid0.coords t) _ _ _ _ _ _ _ _ _ _ _ _ _ _ _ _ _ _ (hc12 t) (hc13 t) (iblk m c 0 t) (iblk m c 1 t) (iblk m c 2 t) (iblk m c 3 t)
        ((dats m 0 c).before 4 t d4) (scrAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HQ]; · iexact HQ
      isplitl [HM]; · iexact HM
      isplitl [HL]; · iexact HL
      isplitl [HA]; · iexact HA
      iintro ⟨H0, H1, H2, H3, H4, HQ, HM, HL, HA⟩
      rw [show outAt (grid0.coords t) ((dats m 0 c).before 4 t d4) (step (grid0.coords t) (iblk m c 0 t) (iblk m c 1 t) (iblk m c 2 t) (iblk m c 3 t) (scrAt m c (t.val - 1) (Nat.lt_of_le_of_lt (Nat.sub_le _ _) t.isLt)))
          = (dats m 0 c).before 4 t d4 from by unfold outAt; rw [if_neg h3]]
      isplitl [HQ HM HL HA]
      · isplitl [HQ]; · iexact HQ
        isplitl [HM]; · iexact HM
        isplitl [HL]; · iexact HL
        iexact HA
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

/-! ## Entering and leaving the region -/

theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), scoped_eq]
  iintro ⟨HQ, HM, HL, HA⟩
  isplitl [HQ]; · iexists _; iexact HQ
  isplitl [HM]; · iexists _; iexact HM
  isplitl [HL]; · iexists _; iexact HL
  iexists _; iexact HA

/-- The distinct buffers behind the five windows' arrays are four. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_v0) ↦{fullShare} V m c main_v0) ∗ (((c : Thread nD τ).loc main_v1) ↦{fullShare} V m c main_v1)) := by
  unfold Pipeline.arrBufs
  exact BI.bigSep_eq_bigSepL_of_eq [main_arg0, main_arg1, main_v0, main_v1] (by decide) (by decide) _

/-- The buffers behind the windows' arrays, each whole at the full share, dealt among the windows: the array `x` split in two
    halves, one for each of its two windows; each other array to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]; unfold Dat.arrays
  rw [bigSep_W0]
  simp only [(arr_whole0 0).set_eq_univ, (arr_whole0 1).set_eq_univ, (arr_whole0 2).set_eq_univ, (arr_whole0 3).set_eq_univ, (arr_whole0 4).set_eq_univ]
  iintro ⟨H0, H1, H3, H4⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  isplitl [H3]; · iexact H3
  iexact H4

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_shared_track cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hin := hin m) (hout := hout m)

/-- THE FRAME: every weakly fair execution terminates without a fault, the four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Hand

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLayout3.lean ====
/-
  Layout operations on rank-3 arrays read at an index written by coordinates.

  Merging the two leading axes of an [a, b, c] array into one of extent a·b (and splitting it back) keeps entry
  (p, q, e) at row p·b + q; inserting a unit middle axis keeps (p, e) at (p, 0, e); broadcasting along that unit
  axis reads (p, 0, e) at every (p, q, e); a unit-stride slice along the last axis from offset o reads the source
  at last coordinate o + j.
-/
import Idealize.ShloMosaic.Lib.Pipeline.Value
import Idealize.ShloMosaic.Lib.ValueIdx

namespace Cert.LibLayout3

open Idealize.ShloMosaic Idealize.ShloMosaic.ValueIdx

variable {α : Type}

/-- An [a, b, c] array cast to an [m, c] matrix (m = a·b) reads, at row r = p·b + q, the array at (p, q, ·). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (e : Fin c) (r : Fin m)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- An [m, c] matrix (m = a·b) cast to an [a, b, c] array reads, at (p, q, ·), the matrix at row r = p·b + q. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_two, Shape.rowMajor_val_three]
    show r.val * c + e.val = (p.val * b + q.val) * c + e.val
    rw [hr])

/-- An [a, c] matrix cast to [a, 1, c] reads, at (p, u, e), the matrix at (p, e). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_two, Shape.rowMajor_val_three]
    show p.val * c + e.val = (p.val * 1 + u.val) * c + e.val
    rw [hu, Nat.mul_one, Nat.add_zero])

/-- An [a, 1, c] array broadcast along its unit axis to [a, b, c] reads, at (p, q, e), the operand at (p, 0, e). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- A rank-3 array cut along its last axis from o reads, at (a, b, j), the source at (a, b, k) with k = o + j. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibLayout3
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibRowFold.lean ====
import Idealize.ShloMosaic.PureOps.Ideal.Laws
import Idealize.ShloMosaic.Lib.ValueIdx
import Idealize.ShloMosaic.PureOps.Reduce

open scoped BigOperators

namespace Cert.Lib.RowFold
open Idealize.ShloMosaic Idealize.ShloMosaic.ValueIdx

/-- Over a rank-2 array reduced along its columns, the source index over row `p` with column coordinate
    `k` inserted is the index `(p, k)`. -/
theorem lift_ix1 {R C : Nat} (h : (⟨2, ![R, C]⟩ : Shape).Reduces [1] ⟨1, ![R]⟩) (p : Fin R) (k : Fin C) :
    h.lift (ix1 p) k = ix2 p k := by
  funext a
  match a with
  | ⟨0, _⟩ => rfl
  | ⟨1, _⟩ => rfl

/-- At the extended reals, a minimum-reduction over the columns of a rank-2 array, read at row `p`, is the
    fold of `min` from the accumulator's value over the column coordinates `k` of the entries `(p, k)`. -/
theorem multiReduction_minimumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.minimumf.neutral .f32 hφ) (p : Fin R) :
    multiReduction .minimumf [1] ⟨1, ![R]⟩ x acc h hφ hacc (ix1 p)
      = (Finset.univ : Finset (Fin C)).fold min (Ideal.ofBits .f32 acc) (fun k => x (ix2 p k)) := by
  rw [multiReduction_minimumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a maximum-reduction over the columns of a rank-2 array, read at row `p`, is the
    fold of `max` from the accumulator's value over the column coordinates `k` of the entries `(p, k)`. -/
theorem multiReduction_maximumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.maximumf.neutral .f32 hφ) (p : Fin R) :
    multiReduction .maximumf [1] ⟨1, ![R]⟩ x acc h hφ hacc (ix1 p)
      = (Finset.univ : Finset (Fin C)).fold max (Ideal.ofBits .f32 acc) (fun k => x (ix2 p k)) := by
  rw [multiReduction_maximumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a sum-reduction over the columns of a rank-2 array, read at row `p`, is the sum
    over the column coordinates `k` of the entries `(p, k)`. -/
theorem multiReduction_add_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.add.neutral .f32 hφ) (p : Fin R) :
    multiReduction .add [1] ⟨1, ![R]⟩ x acc h hφ hacc (ix1 p) = ∑ k : Fin C, x (ix2 p k) := by
  refine (Ideal.multiReduction_add_single x acc h hφ hacc (ix1 p)).trans ?_
  exact Finset.sum_congr rfl fun k _ => congrArg x (lift_ix1 h p k)

/-- The host's reduction with the minimum as its body over the columns of a rank-2 array of extended reals,
    read at row `p`: the fold of `min` from the initial value over the column coordinates `k` of the entries
    `(p, k)`. -/
theorem hostReduce_minimumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.minimumf (F := Ideal) (φ := .f32)) x init h' hu (ix1 p)
      = (Finset.univ : Finset (Fin C)).fold min (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's reduction with the maximum as its body over the columns of a rank-2 array of extended reals,
    read at row `p`: the fold of `max` from the initial value over the column coordinates `k` of the entries
    `(p, k)`. -/
theorem hostReduce_maximumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.maximumf (F := Ideal) (φ := .f32)) x init h' hu (ix1 p)
      = (Finset.univ : Finset (Fin C)).fold max (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's float sum over the columns of a rank-2 array, at the extended reals and read at row `p`: the
    initial value plus the sum over the column coordinates `k` of the entries `(p, k)`. -/
theorem hostReduceAdd_row {R C : Nat} {u : Shape} (x : FVec Ideal ⟨2, ![R, C]⟩ .f32)
    (init : FVec Ideal u .f32) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduceAdd x init h' hu (ix1 p) = init (Shape.Idx.first hu) + ∑ k : Fin C, x (ix2 p k) := by
  show Ideal.hostReduceAdd h' x (init (Shape.Idx.first hu)) (ix1 p) = _
  rw [Ideal.hostReduceAdd_single h' h]
  exact congrArg (init (Shape.Idx.first hu) + ·)
    (Finset.sum_congr rfl fun k _ => congrArg x (lift_ix1 h p k))

end Cert.Lib.RowFold
-- ==== Proof.KernelIdealPay.lean ====
/-
  The body's arithmetic read at an index, at the extended reals: the three projections as sums over the model dimension, the
  masked and scaled scores of a query row against the key rows of a tile, the running maximum, the rescaling factor, the
  exponentials, the normalizer and the weighted sum of a row, and the quotient. A change of float format is the identity here;
  a matrix product into the zero accumulator is the plain sum of products.
-/
import proofs.«166854_j67577015435858_2_alg».proof.Proof.KernelIdealStep
import proofs.«166854_j67577015435858_2_alg».proof.Proof.LibPlainContract
import proofs.«166854_j67577015435858_2_alg».proof.Proof.LibLayout3
import proofs.«166854_j67577015435858_2_alg».proof.Proof.LibKeepdims
import proofs.«166854_j67577015435858_2_alg».proof.Proof.LibRowFold
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Cert.KernelIdeal Cert.KernelIdeal.Gen
open Idealize.ShloMosaic Idealize.ShloMosaic.ValueIdx

/-! ## The body's arithmetic read at an index, at the extended reals -/

/-- The query projection: row `r` of the tile against column `h` of the weights. -/
theorem pay4_apply (xq : Vec Ideal S1x512x512 .f32) (wq : Vec Ideal S512x64 .f32) (r : Fin 512) (h : Fin 64) :
    k0_pay4 (F := Ideal) xq wq (ix2 r h) = ∑ d : Fin 512, xq (ix3 (0 : Fin 1) r d) * wq (ix2 d h) := by
  unfold k0_pay4
  refine (congrFun (shapeCast_self _ _) _).trans ?_
  refine (Cert.LibPlainContract.matmul_plain_apply 512 512 64 none _ _ r h).trans ?_
  refine Finset.sum_congr rfl fun d _ => ?_
  refine congrArg (· * wq (ix2 d h)) ?_
  exact Cert.LibLayout3.shapeCast_abc_mc_apply (a := 1) (b := 512) (c := 512) (m := 512) xq _ 0 r d r (by simp)

/-- The fused key/value projection: row `c` of the tile against column `e` of the concatenated weights. -/
theorem pay9_apply (xkv : Vec Ideal S1x512x512 .f32) (wkv : Vec Ideal S512x128 .f32) (c : Fin 512) (e : Fin 128) :
    k0_pay9 (F := Ideal) xkv wkv (ix2 c e) = ∑ d : Fin 512, xkv (ix3 (0 : Fin 1) c d) * wkv (ix2 d e) := by
  unfold k0_pay9
  refine (Cert.LibPlainContract.matmul_plain_apply 512 512 128 none _ _ c e).trans ?_
  refine Finset.sum_congr rfl fun d _ => ?_
  have e1 : shapeCast S512x512 xkv shapeCasts_S1x512x512_S512x512 (ix2 c d) = xkv (ix3 (0 : Fin 1) c d) :=
    Cert.LibLayout3.shapeCast_abc_mc_apply (a := 1) (b := 512) (c := 512) (m := 512) xkv _ 0 c d c (by simp)
  have e2 : shapeCast S512x128 wkv shapeCasts_S512x128_S512x128 (ix2 d e) = wkv (ix2 d e) := congrFun (shapeCast_self _ _) _
  show shapeCast S512x512 xkv shapeCasts_S1x512x512_S512x512 (ix2 c d) * shapeCast S512x128 wkv shapeCasts_S512x128_S512x128 (ix2 d e) = _
  rw [e1, e2]

/-- The value rows: the right half of the fused projection. -/
theorem pay10_apply (xkv : Vec Ideal S1x512x512 .f32) (wkv : Vec Ideal S512x128 .f32) (c : Fin 512) (h : Fin 64) :
    k0_pay10 (F := Ideal) xkv wkv (ix2 c h) = k0_pay9 (F := Ideal) xkv wkv (ix2 c (⟨64 + h.val, by omega⟩ : Fin 128)) := by
  unfold k0_pay10
  refine extractStridedSlice_apply _ _ _ _ _ fun a => ?_
  match a with
  | ⟨0, _⟩ => simp
  | ⟨1, _⟩ => rfl

/-- The output block: the weighted sum divided by the normalizer, row by row. -/
theorem pay8_apply (acc : Vec Ideal S512x64 .f32) (l : Vec Ideal S512x1 .f32) (r : Fin 512) (h : Fin 64) :
    k0_pay8 (F := Ideal) acc l (ix3 (0 : Fin 1) r h) = Ideal.div (acc (ix2 r h)) (l (ix2 r (0 : Fin 1))) := by
  unfold k0_pay8
  refine (Cert.LibLayout3.shapeCast_mc_abc_apply (a := 1) (b := 512) (c := 64) (m := 512) _ _ 0 r h r (by simp)).trans ?_
  refine congrArg (Ideal.div (acc (ix2 r h))) ?_
  exact Cert.Lib.Keepdims.broadcastTo_a1_ab_apply l _ r h

/-- The causal mask bit of entry (r, c) of the tile pair (query tile `a1`, key tile `a2`): the query position is at or after the key position. -/
def mbit (a1 a2 : BitVec 32) (r c : Fin 512) : BitVec 1 :=
  IntOp.cmpi .sge (IntOp.addi (Scalar.muli a1 512#32) (BitVec.ofNat 32 r.val)) (IntOp.addi (Scalar.muli a2 512#32) (BitVec.ofNat 32 c.val))

/-- The key rows: the left half of the fused projection. -/
def keyAt (xkv : Vec Ideal S1x512x512 .f32) (wkv : Vec Ideal S512x128 .f32) (c : Fin 512) (h : Fin 64) : EReal :=
  k0_pay9 (F := Ideal) xkv wkv (ix2 c (⟨h.val, by omega⟩ : Fin 128))

/-- The masked scores of the tile: the query row against the key row, scaled by 1/8, or −∞ where the key is after the query. -/
theorem pay11_apply (a1 a2 : BitVec 32) (xkv : Vec Ideal S1x512x512 .f32) (wkv : Vec Ideal S512x128 .f32) (q : Vec Ideal S512x64 .f32)
    (r c : Fin 512) :
    k0_pay11 (F := Ideal) a1 a2 xkv wkv q (ix2 r c)
      = Scalar.select (mbit a1 a2 r c) ((∑ h : Fin 64, q (ix2 r h) * keyAt xkv wkv c h) * Ideal.ofBits .f32 0x3E000000#32) ⊥ := by
  unfold k0_pay11
  refine (select_apply _ _ _ _).trans ?_
  refine congr (congr (congrArg Scalar.select ?_) ?_) ?_
  · -- the mask bit
    show IntOp.cmpi .sge (IntOp.addi _ (iota .tc S512x512 32 [0] iota_S512x512_d0_w32 (ix2 r c)))
        (IntOp.addi _ (iota .tc S512x512 32 [1] iota_S512x512_d1_w32 (ix2 r c))) = _
    rw [iota_single_apply, iota_single_apply]; rfl
  · -- the scaled product
    show (matmul dot_S512x64_S64x512_S512x512_1_0_0_1_n_n none _ _ _ (ix2 r c)) * Ideal.ofBits .f32 0x3E000000#32 = _
    refine congrArg (· * Ideal.ofBits .f32 0x3E000000#32) ?_
    refine (Cert.LibPlainContract.matmul_plain_apply 512 64 512 none _ _ r c).trans ?_
    refine Finset.sum_congr rfl fun h _ => ?_
    refine congrArg (q (ix2 r h) * ·) ?_
    refine (transpose_apply _ _ _ (ix2 h c) (ix2 c h) fun b => ?_).trans ?_
    · match b with
      | ⟨0, _⟩ => rfl
      | ⟨1, _⟩ => rfl
    · show extractStridedSlice S512x64 ![0, 0] (k0_pay9 (F := Ideal) xkv wkv) slices_S512x128_o0_0_S512x64 (ix2 c h)
          = k0_pay9 (F := Ideal) xkv wkv (ix2 c (⟨h.val, by omega⟩ : Fin 128))
      refine extractStridedSlice_apply _ _ _ _ _ fun a => ?_
      match a with
      | ⟨0, _⟩ => simp
      | ⟨1, _⟩ => simp
  · exact IdealRules.named_const.ideal_named_scalar _ _ _ _ rfl

theorem ofBits_neg_inf : Ideal.ofBits .f32 0xFF800000#32 = ⊥ := by simp [Ideal.ofBits, Ideal.ieee]

/-- The reset values: the maximum at −∞, the normalizer and the weighted sum at 0. -/
theorem pay1_apply (i : S512x1.Idx) : k0_pay1 (F := Ideal) i = ⊥ := by
  unfold k0_pay1
  refine (congrFun (shapeCast_self _ _) _).trans ?_
  exact ofBits_neg_inf
theorem pay2_apply (i : S512x1.Idx) : k0_pay2 (F := Ideal) i = 0 := by
  unfold k0_pay2
  refine (congrFun (shapeCast_self _ _) _).trans ?_
  exact Ideal.ofBits_zero_f32
theorem pay3_apply (i : S512x64.Idx) : k0_pay3 (F := Ideal) i = 0 := by
  unfold k0_pay3
  refine (congrFun (shapeCast_self _ _) _).trans ?_
  exact Ideal.ofBits_zero_f32

theorem pay5_eq (v : FVec Ideal S512x1 .f32) : k0_pay5 (F := Ideal) v = v := by unfold k0_pay5; exact shapeCast_self _ _
theorem pay7_eq (v : FVec Ideal S512x1 .f32) : k0_pay7 (F := Ideal) v = v := by unfold k0_pay7; exact shapeCast_self _ _

/-- The new running maximum of row `r`: the old one against the largest masked score of the row in this tile. -/
theorem pay12_apply (a1 a2 : BitVec 32) (xkv : Vec Ideal S1x512x512 .f32) (wkv : Vec Ideal S512x128 .f32) (q : Vec Ideal S512x64 .f32)
    (mx : Vec Ideal S512x1 .f32) (r : Fin 512) :
    k0_pay12 (F := Ideal) a1 a2 xkv wkv q mx (ix2 r (0 : Fin 1))
      = max (mx (ix2 r (0 : Fin 1))) ((Finset.univ : Finset (Fin 512)).fold max ⊥ fun c => k0_pay11 (F := Ideal) a1 a2 xkv wkv q (ix2 r c)) := by
  unfold k0_pay12
  refine (maximumf_apply _ _ _).trans ?_
  refine congrArg (max (mx (ix2 r (0 : Fin 1)))) ?_
  refine (Cert.Lib.Keepdims.shapeCast_a_a1_apply _ _ r 0).trans ?_
  refine (Cert.Lib.RowFold.multiReduction_maximumf_row _ _ _ _ _ r).trans ?_
  rw [ofBits_neg_inf]

/-- The rescaling factor of row `r`: the exponential of the change of maximum. -/
theorem pay13_apply (a1 a2 : BitVec 32) (xkv : Vec Ideal S1x512x512 .f32) (wkv : Vec Ideal S512x128 .f32) (q : Vec Ideal S512x64 .f32)
    (mx : Vec Ideal S512x1 .f32) (r : Fin 512) :
    k0_pay13 (F := Ideal) a1 a2 xkv wkv q mx (ix2 r (0 : Fin 1))
      = Ideal.exp (mx (ix2 r (0 : Fin 1)) - k0_pay12 (F := Ideal) a1 a2 xkv wkv q mx (ix2 r (0 : Fin 1))) := by
  unfold k0_pay13; rfl

/-- The exponentials of the tile's scores relative to the new maximum. -/
theorem pay14_apply (a1 a2 : BitVec 32) (xkv : Vec Ideal S1x512x512 .f32) (wkv : Vec Ideal S512x128 .f32) (q : Vec Ideal S512x64 .f32)
    (mx : Vec Ideal S512x1 .f32) (r c : Fin 512) :
    k0_pay14 (F := Ideal) a1 a2 xkv wkv q mx (ix2 r c)
      = Ideal.exp (k0_pay11 (F := Ideal) a1 a2 xkv wkv q (ix2 r c) - k0_pay12 (F := Ideal) a1 a2 xkv wkv q mx (ix2 r (0 : Fin 1))) := by
  unfold k0_pay14
  show Ideal.exp (_ - broadcastTo S512x512 _ broadcasts_S512x1_S512x512 (ix2 r c)) = _
  rw [Cert.Lib.Keepdims.broadcastTo_a1_ab_apply]

/-- The new normalizer of row `r`: the old one rescaled plus the tile's exponentials. -/
theorem pay15_apply (a1 a2 : BitVec 32) (xkv : Vec Ideal S1x512x512 .f32) (wkv : Vec Ideal S512x128 .f32) (q : Vec Ideal S512x64 .f32)
    (mx l : Vec Ideal S512x1 .f32) (r : Fin 512) :
    k0_pay15 (F := Ideal) a1 a2 xkv wkv q mx l (ix2 r (0 : Fin 1))
      = k0_pay13 (F := Ideal) a1 a2 xkv wkv q mx (ix2 r (0 : Fin 1)) * l (ix2 r (0 : Fin 1))
        + ∑ c : Fin 512, k0_pay14 (F := Ideal) a1 a2 xkv wkv q mx (ix2 r c) := by
  have e : shapeCast S512x1 (multiReduction .add [1] S512 (k0_pay14 (F := Ideal) a1 a2 xkv wkv q mx) 0x00000000#32 reduces_S512x512_S512 (.inl rfl) rfl)
        shapeCasts_S512_S512x1 (ix2 r (0 : Fin 1)) = ∑ c : Fin 512, k0_pay14 (F := Ideal) a1 a2 xkv wkv q mx (ix2 r c) :=
    (Cert.Lib.Keepdims.shapeCast_a_a1_apply _ _ r 0).trans (Cert.Lib.RowFold.multiReduction_add_row _ _ _ _ _ r)
  unfold k0_pay15
  show k0_pay13 (F := Ideal) a1 a2 xkv wkv q mx (ix2 r (0 : Fin 1)) * l (ix2 r (0 : Fin 1))
      + shapeCast S512x1 (multiReduction .add [1] S512 (k0_pay14 (F := Ideal) a1 a2 xkv wkv q mx) 0x00000000#32 reduces_S512x512_S512 (.inl rfl) rfl)
        shapeCasts_S512_S512x1 (ix2 r (0 : Fin 1)) = _
  rw [e]

/-- The new weighted sum at (r, h): the old one rescaled plus the tile's exponentials against the value rows. -/
theorem pay6_apply (v : FVec Ideal S512x64 .f32) (a : FVec Ideal S512x1 .f32) (p : FVec Ideal S512x512 .f32) (acc : Vec Ideal S512x64 .f32)
    (r : Fin 512) (h : Fin 64) :
    k0_pay6 (F := Ideal) v a p acc (ix2 r h)
      = a (ix2 r (0 : Fin 1)) * acc (ix2 r h) + ∑ c : Fin 512, p (ix2 r c) * v (ix2 c h) := by
  have e1 : broadcastTo S512x64 a broadcasts_S512x1_S512x64 (ix2 r h) = a (ix2 r (0 : Fin 1)) :=
    Cert.Lib.Keepdims.broadcastTo_a1_ab_apply a _ r h
  have e2 : matmul dot_S512x512_S512x64_S512x64_1_0_0_1_n_n none (truncf .bf16 p bitsLt_bf16_f32) (truncf .bf16 v bitsLt_bf16_f32)
        (constant S512x64 .f32 0x00000000#32) (ix2 r h) = ∑ c : Fin 512, p (ix2 r c) * v (ix2 c h) :=
    Cert.LibPlainContract.matmul_plain_apply 512 512 64 none _ _ r h
  unfold k0_pay6
  refine (congrFun (shapeCast_self _ _) _).trans ?_
  show broadcastTo S512x64 a broadcasts_S512x1_S512x64 (ix2 r h) * acc (ix2 r h)
      + matmul dot_S512x512_S512x64_S512x64_1_0_0_1_n_n none (truncf .bf16 p bitsLt_bf16_f32) (truncf .bf16 v bitsLt_bf16_f32)
        (constant S512x64 .f32 0x00000000#32) (ix2 r h) = _
  rw [e1, e2]

end Cert.KernelIdeal.Pay

end
-- ==== Proof.LibOnlineSoftmax.lean ====
/-
  The online softmax, one tile at a time, at the exact extended reals.

  A row of attention scores is visited tile by tile. Beside each tile the visitor keeps three numbers: the largest score seen
  so far, the sum of the exponentials of the scores seen so far RELATIVE to that maximum, and the same sum weighted by a value
  attached to each score. Visiting a new tile replaces the maximum by the larger of it and the tile's own, multiplies the two
  sums by the exponential of the (nonpositive) change of maximum, and adds the tile's own terms relative to the new maximum.
  The statements below say that the three numbers are, at every moment, those of the plain definition over everything seen:
  `sup`, `Σ exp (s − sup)`, `Σ exp (s − sup) · v`; that masked scores (−∞) contribute nothing, wherever they stand; and that
  the weighted sum divided by the plain sum is the softmax-weighted sum of the values. A score is a real number or −∞; a value
  is a real number; the operations are the exact ones: `Ideal.exp` (with `exp (−∞) = 0`), `Ideal.div`, and the sum, product,
  difference and maximum of extended reals (where `−∞ − (−∞) = −∞` and `0 · x = 0`).
-/
import Idealize.ShloMosaic.PureOps.Ideal

noncomputable section

namespace Idealize.ShloMosaic.OnlineSoftmax

open Idealize.ShloMosaic

/-- A score: a real number, or −∞ (a masked position). -/
def IsScore (x : EReal) : Prop := x = ⊥ ∨ ∃ r : ℝ, x = (r : EReal)

/-- A real number. -/
def IsReal (x : EReal) : Prop := ∃ r : ℝ, x = (r : EReal)

theorem IsReal.isScore {x : EReal} (h : IsReal x) : IsScore x := .inr h

/-- The coercion of a finite sum of reals is the sum of the coercions. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- `exp (x − b)` for a score `x` and a real `b`, as a real number: `0` at a masked score. -/
def ex (x : EReal) (b : ℝ) : ℝ := if x = ⊥ then 0 else Real.exp (x.toReal - b)

theorem ex_nonneg (x : EReal) (b : ℝ) : 0 ≤ ex x b := by
  unfold ex; split_ifs
  · exact le_rfl
  · exact (Real.exp_pos _).le

theorem ex_bot (b : ℝ) : ex ⊥ b = 0 := by unfold ex; rw [if_pos rfl]

theorem ex_coe (c b : ℝ) : ex (c : EReal) b = Real.exp (c - b) := by
  unfold ex; rw [if_neg (EReal.coe_ne_bot c), EReal.toReal_coe]

/-- The exponential of a score less a real is the real number `ex`. -/
theorem exp_sub_coe {x : EReal} (hx : IsScore x) (b : ℝ) : Ideal.exp (x - (b : EReal)) = ((ex x b : ℝ) : EReal) := by
  rcases hx with rfl | ⟨c, rfl⟩
  · rw [ex_bot, sub_eq_add_neg, EReal.bot_add, Ideal.exp_bot]; norm_cast
  · rw [ex_coe, ← EReal.coe_sub, Ideal.exp_coe]

/-- Against a maximum that is still −∞ every score seen is −∞, and its exponential relative to that maximum is `0`. -/
theorem exp_bot_sub_bot : Ideal.exp ((⊥ : EReal) - ⊥) = 0 := by
  rw [sub_eq_add_neg, EReal.bot_add, Ideal.exp_bot]

/-- THE RESCALING of one term: a score `x` at most the old maximum `m` (a score itself), its exponential relative to `m` times
    the exponential of the change to a new REAL maximum `b`, is its exponential relative to `b`. -/
theorem ex_rescale {x m : EReal} (hx : IsScore x) (hm : IsScore m) (hle : x ≤ m) (b : ℝ) :
    Ideal.exp (m - (b : EReal)) * Ideal.exp (x - m) = Ideal.exp (x - (b : EReal)) := by
  rcases hm with rfl | ⟨a, rfl⟩
  · obtain rfl : x = ⊥ := le_bot_iff.mp hle
    rw [exp_bot_sub_bot, mul_zero, sub_eq_add_neg, EReal.bot_add, Ideal.exp_bot]
  · rw [exp_sub_coe hx a, exp_sub_coe hx b, exp_sub_coe (.inr ⟨a, rfl⟩) b, ← EReal.coe_mul]
    congr 1
    rcases hx with rfl | ⟨c, rfl⟩
    · rw [ex_bot, ex_bot, mul_zero]
    · rw [ex_coe, ex_coe, ex_coe, ← Real.exp_add]; congr 1; ring

variable {κ : Type*}

/-- THE RESCALING of a weighted sum: real weights `w k`, scores `x k` at most the old maximum `m`. -/
theorem sum_rescale {m : EReal} (hm : IsScore m) (b : ℝ) (S : Finset κ) (x w : κ → EReal)
    (hx : ∀ k ∈ S, IsScore (x k)) (hle : ∀ k ∈ S, x k ≤ m) (hw : ∀ k ∈ S, IsReal (w k)) :
    Ideal.exp (m - (b : EReal)) * ∑ k ∈ S, Ideal.exp (x k - m) * w k = ∑ k ∈ S, Ideal.exp (x k - (b : EReal)) * w k := by
  classical
  rcases hm with rfl | ⟨a, rfl⟩
  · have h0 : Ideal.exp ((⊥ : EReal) - (b : EReal)) = 0 := by rw [sub_eq_add_neg, EReal.bot_add, Ideal.exp_bot]
    rw [h0, zero_mul]
    refine (Finset.sum_eq_zero fun k hk => ?_).symm
    obtain rfl' : x k = ⊥ := le_bot_iff.mp (hle k hk)
    rw [rfl', h0, zero_mul]
  · -- everything is a real number: distribute there
    have hterm : ∀ k ∈ S, Ideal.exp (x k - (a : EReal)) * w k = (((ex (x k) a) * (w k).toReal : ℝ) : EReal) := fun k hk => by
      obtain ⟨r, hr⟩ := hw k hk
      rw [exp_sub_coe (hx k hk) a, hr, EReal.toReal_coe, EReal.coe_mul]
    have hterm' : ∀ k ∈ S, Ideal.exp (x k - (b : EReal)) * w k = (((ex (x k) b) * (w k).toReal : ℝ) : EReal) := fun k hk => by
      obtain ⟨r, hr⟩ := hw k hk
      rw [exp_sub_coe (hx k hk) b, hr, EReal.toReal_coe, EReal.coe_mul]
    rw [Finset.sum_congr rfl hterm, Finset.sum_congr rfl hterm', coe_sum, coe_sum, exp_sub_coe (.inr ⟨a, rfl⟩) b, ← EReal.coe_mul,
      Finset.mul_sum]
    congr 1
    refine Finset.sum_congr rfl fun k hk => ?_
    rw [← mul_assoc]; congr 1
    rcases hx k hk with h | ⟨c, h⟩
    · rw [h, ex_bot, ex_bot, mul_zero]
    · rw [h, ex_coe, ex_coe, ex_coe, ← Real.exp_add]; congr 1; ring

/-! ## The three statistics of a set of positions -/

/-- The largest score over the positions `S` (−∞ over none). -/
def top (S : Finset κ) (s : κ → EReal) : EReal := S.sup s
/-- The sum of the exponentials of the scores relative to the largest. -/
def norm (S : Finset κ) (s : κ → EReal) : EReal := ∑ k ∈ S, Ideal.exp (s k - top S s)
/-- The same sum, each term weighted by the position's value. -/
def wsum (S : Finset κ) (s v : κ → EReal) : EReal := ∑ k ∈ S, Ideal.exp (s k - top S s) * v k

theorem top_empty (s : κ → EReal) : top (∅ : Finset κ) s = ⊥ := Finset.sup_empty
theorem norm_empty (s : κ → EReal) : norm (∅ : Finset κ) s = 0 := Finset.sum_empty
theorem wsum_empty (s v : κ → EReal) : wsum (∅ : Finset κ) s v = 0 := Finset.sum_empty

theorem top_union [DecidableEq κ] (S T : Finset κ) (s : κ → EReal) : top (S ∪ T) s = max (top S s) (top T s) :=
  Finset.sup_union

/-- The largest of a set of scores is a score. -/
theorem top_isScore (S : Finset κ) (s : κ → EReal) (hs : ∀ k ∈ S, IsScore (s k)) : IsScore (top S s) := by
  classical
  rcases S.eq_empty_or_nonempty with rfl | hne
  · exact .inl (top_empty s)
  · obtain ⟨i, hi, e⟩ := Finset.exists_mem_eq_sup S hne s
    unfold top; rw [e]; exact hs i hi

/-- ONE STEP OF THE ONLINE SOFTMAX. `S` the positions seen, `T` the new tile (disjoint from them), its largest score a real
    number (some position of the tile is unmasked): the new maximum is the maximum over everything; the old weighted sum
    rescaled plus the tile's own terms is the weighted sum over everything. -/
theorem wsum_step [DecidableEq κ] (S T : Finset κ) (hd : Disjoint S T) (s v : κ → EReal)
    (hs : ∀ k ∈ S ∪ T, IsScore (s k)) (hv : ∀ k ∈ S ∪ T, IsReal (v k)) (hT : IsReal (top T s)) :
    Ideal.exp (top S s - max (top S s) (top T s)) * wsum S s v + ∑ k ∈ T, Ideal.exp (s k - max (top S s) (top T s)) * v k
      = wsum (S ∪ T) s v := by
  have hS : IsScore (top S s) := top_isScore S s fun k hk => hs k (Finset.mem_union_left _ hk)
  obtain ⟨b, hb⟩ : IsReal (max (top S s) (top T s)) := by
    obtain ⟨t, ht⟩ := hT
    rcases hS with h | ⟨a, h⟩
    · exact ⟨t, by rw [h, ht]; exact max_eq_right bot_le⟩
    · exact ⟨max a t, by rw [h, ht]; exact EReal.coe_strictMono.monotone.map_max.symm⟩
  unfold wsum
  rw [top_union, Finset.sum_union hd, hb,
    sum_rescale hS b S s v (fun k hk => hs k (Finset.mem_union_left _ hk)) (fun k hk => Finset.le_sup hk)
      (fun k hk => hv k (Finset.mem_union_left _ hk))]

/-- The same for the plain sum (every value `1`). -/
theorem norm_step [DecidableEq κ] (S T : Finset κ) (hd : Disjoint S T) (s : κ → EReal)
    (hs : ∀ k ∈ S ∪ T, IsScore (s k)) (hT : IsReal (top T s)) :
    Ideal.exp (top S s - max (top S s) (top T s)) * norm S s + ∑ k ∈ T, Ideal.exp (s k - max (top S s) (top T s))
      = norm (S ∪ T) s := by
  have h := wsum_step S T hd s (fun _ => 1) hs (fun _ _ => ⟨1, by norm_cast⟩) hT
  simpa only [wsum, norm, mul_one] using h

/-- MASKED POSITIONS CONTRIBUTE NOTHING: adding to the positions seen a set `T` of masked ones (score −∞), the maximum over
    the seen a real number, changes none of the three statistics. -/
theorem top_union_masked [DecidableEq κ] (S T : Finset κ) (s : κ → EReal) (hT : ∀ k ∈ T, s k = ⊥) :
    top (S ∪ T) s = top S s := by
  rw [top_union]
  have : top T s = ⊥ := by
    unfold top; exact le_bot_iff.mp (Finset.sup_le fun k hk => (hT k hk).le)
  rw [this]; exact max_eq_left bot_le

theorem wsum_union_masked [DecidableEq κ] (S T : Finset κ) (hd : Disjoint S T) (s v : κ → EReal) (hT : ∀ k ∈ T, s k = ⊥)
    (hS : IsReal (top S s)) : wsum (S ∪ T) s v = wsum S s v := by
  unfold wsum
  rw [top_union_masked S T s hT, Finset.sum_union hd]
  obtain ⟨b, hb⟩ := hS
  have : ∑ k ∈ T, Ideal.exp (s k - top S s) * v k = 0 :=
    Finset.sum_eq_zero fun k hk => by rw [hT k hk, hb, sub_eq_add_neg, EReal.bot_add, Ideal.exp_bot, zero_mul]
  rw [this, add_zero]

theorem norm_union_masked [DecidableEq κ] (S T : Finset κ) (hd : Disjoint S T) (s : κ → EReal) (hT : ∀ k ∈ T, s k = ⊥)
    (hS : IsReal (top S s)) : norm (S ∪ T) s = norm S s := by
  have h := wsum_union_masked S T hd s (fun _ => 1) hT hS
  simpa only [wsum, norm, mul_one] using h

/-! ## Real numbers are closed under the operations of a projection -/

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (S : Finset ι) (g : ι → EReal) (h : ∀ k ∈ S, IsReal (g k)) : IsReal (∑ k ∈ S, g k) := by
  classical
  induction S using Finset.induction_on with
  | empty => exact ⟨0, by simp⟩
  | insert a S ha ih =>
    rw [Finset.sum_insert ha]
    obtain ⟨x, hx⟩ := h a (Finset.mem_insert_self a S)
    obtain ⟨y, hy⟩ := ih fun k hk => h k (Finset.mem_insert_of_mem hk)
    exact ⟨x + y, by rw [hx, hy, EReal.coe_add]⟩

/-- The largest of a set of scores one of which is a real number is a real number. -/
theorem top_isReal_of_mem (S : Finset κ) (s : κ → EReal) (hs : ∀ k ∈ S, IsScore (s k)) {k : κ} (hk : k ∈ S) (hr : IsReal (s k)) :
    IsReal (top S s) := by
  rcases top_isScore S s hs with h | h
  · obtain ⟨r, hr⟩ := hr
    have : s k ≤ top S s := Finset.le_sup hk
    rw [h, hr] at this
    exact absurd (le_bot_iff.mp this) (EReal.coe_ne_bot r)
  · exact h

/-! ## The quotient -/

/-- The normalizer of a set of scores whose largest is a real number is a positive real number: the largest score contributes `1`. -/
theorem norm_pos (S : Finset κ) (s : κ → EReal) (hs : ∀ k ∈ S, IsScore (s k)) (htop : IsReal (top S s)) :
    ∃ N : ℝ, 0 < N ∧ norm S s = (N : EReal) ∧ ∀ b : ℝ, top S s = (b : EReal) → N = ∑ k ∈ S, ex (s k) b := by
  classical
  obtain ⟨b, hb⟩ := htop
  have hne : S.Nonempty := by
    rcases S.eq_empty_or_nonempty with rfl | h
    · rw [top_empty] at hb; exact absurd hb.symm (EReal.coe_ne_bot b)
    · exact h
  obtain ⟨k0, hk0, e0⟩ := Finset.exists_mem_eq_sup S hne s
  have hk0' : s k0 = (b : EReal) := by rw [← hb]; exact e0.symm
  refine ⟨∑ k ∈ S, ex (s k) b, ?_, ?_, fun b' hb' => ?_⟩
  · refine lt_of_lt_of_le ?_ (Finset.single_le_sum (fun k _ => ex_nonneg (s k) b) hk0)
    rw [hk0', ex_coe, sub_self, Real.exp_zero]; exact one_pos
  · unfold norm; rw [hb, ← coe_sum]
    exact Finset.sum_congr rfl fun k hk => exp_sub_coe (hs k hk) b
  · have : b' = b := by rw [hb] at hb'; exact (EReal.coe_eq_coe_iff.mp hb').symm
    rw [this]

/-- THE SOFTMAX-WEIGHTED SUM IS THE QUOTIENT: each exponential divided by the normalizer, times its value, summed, is the weighted
    sum divided by the normalizer — for real values and scores whose largest is a real number. -/
theorem sum_div_norm (S : Finset κ) (s v : κ → EReal) (hs : ∀ k ∈ S, IsScore (s k)) (hv : ∀ k ∈ S, IsReal (v k))
    (htop : IsReal (top S s)) :
    ∑ k ∈ S, Ideal.div (Ideal.exp (s k - top S s)) (norm S s) * v k = Ideal.div (wsum S s v) (norm S s) := by
  classical
  obtain ⟨N, hN, eN, -⟩ := norm_pos S s hs htop
  obtain ⟨b, hb⟩ := htop
  have hterm : ∀ k ∈ S, Ideal.div (Ideal.exp (s k - top S s)) (norm S s) * v k = ((ex (s k) b * (1 / N) * (v k).toReal : ℝ) : EReal) := fun k hk => by
    obtain ⟨r, hr⟩ := hv k hk
    rw [eN, Ideal.div_coe hN.ne', hb, exp_sub_coe (hs k hk) b, hr, EReal.toReal_coe, EReal.coe_mul, EReal.coe_mul]
  have hw : wsum S s v = ((∑ k ∈ S, ex (s k) b * (v k).toReal : ℝ) : EReal) := by
    unfold wsum; rw [← coe_sum, hb]
    refine Finset.sum_congr rfl fun k hk => ?_
    obtain ⟨r, hr⟩ := hv k hk
    rw [exp_sub_coe (hs k hk) b, hr, EReal.toReal_coe, EReal.coe_mul]
  rw [Finset.sum_congr rfl hterm, coe_sum, hw, eN, Ideal.div_coe hN.ne', ← EReal.coe_mul]
  congr 1
  rw [Finset.sum_mul]
  exact Finset.sum_congr rfl fun k _ => by ring

end Idealize.ShloMosaic.OnlineSoftmax

end
-- ==== Proof.KernelIdealSweep.lean ====
/-
  Folding one key tile into the scratch is one step of the online softmax of every query row over the keys of that tile: if the
  scratch holds, row by row, the maximum, the normalizer and the weighted sum of the keys seen, it holds them afterwards for the
  keys seen and the tile's.
-/
import proofs.«166854_j67577015435858_2_alg».proof.Proof.KernelIdealPay
import proofs.«166854_j67577015435858_2_alg».proof.Proof.LibOnlineSoftmax

set_option maxRecDepth 16384

noncomputable section

namespace Cert.KernelIdeal.Sweep

open Cert.KernelIdeal Cert.KernelIdeal.Gen Cert.KernelIdeal.Hand Cert.KernelIdeal.Pay
open Idealize.ShloMosaic Idealize.ShloMosaic.ValueIdx Idealize.ShloMosaic.OnlineSoftmax

/-! ## One query tile's sweep over the key tiles, row by row

A key is a pair (key tile, row of the tile). For a fixed query tile `qi`, projected queries `q` and the key/value blocks `xk j` of
the four key tiles, row `r` of the query tile has a masked score against every key and every key has a value row. Folding key
tile `j` into the scratch is one step of the online softmax of every row over the keys of that tile. -/

/-- The keys: (key tile, row within the tile). -/
abbrev Key := Fin 4 × Fin 512

/-- The keys of tile `j`. -/
def tile (j : Fin 4) : Finset Key := Finset.univ.map ⟨fun c : Fin 512 => (j, c), fun _ _ h => (Prod.mk.inj h).2⟩

theorem mem_tile {j : Fin 4} {k : Key} : k ∈ tile j ↔ k.1 = j := by
  unfold tile
  constructor
  · intro h; obtain ⟨c, -, rfl⟩ := Finset.mem_map.mp h; rfl
  · intro h; subst h; exact Finset.mem_map.mpr ⟨k.2, Finset.mem_univ _, rfl⟩

/-- The keys of the tiles before tile `n`. -/
def seen : ℕ → Finset Key
  | 0 => ∅
  | n + 1 => seen n ∪ (if h : n < 4 then tile ⟨n, h⟩ else ∅)

theorem mem_seen {n : ℕ} {k : Key} : k ∈ seen n ↔ k.1.val < n := by
  induction n with
  | zero => simp [seen]
  | succ n ih =>
    unfold seen
    rw [Finset.mem_union, ih]
    by_cases h : n < 4
    · rw [dif_pos h, mem_tile]
      constructor
      · rintro (h' | h')
        · omega
        · rw [h']; simp
      · intro h'
        by_cases e : k.1.val = n
        · exact .inr (Fin.ext e)
        · exact .inl (by omega)
    · rw [dif_neg h]
      have := k.1.isLt
      constructor
      · rintro (h' | h')
        · omega
        · exact absurd h' (Finset.notMem_empty _)
      · intro _; exact .inl (by omega)

theorem seen_disjoint (j : Fin 4) : Disjoint (seen j.val) (tile j) :=
  Finset.disjoint_left.mpr fun k hk ht => by
    rw [mem_seen] at hk; rw [mem_tile] at ht; rw [ht] at hk; exact absurd hk (lt_irrefl _)

theorem seen_succ (j : Fin 4) : seen (j.val + 1) = seen j.val ∪ tile j := by
  show seen j.val ∪ (if h : j.val < 4 then tile ⟨j.val, h⟩ else ∅) = _
  rw [dif_pos j.isLt]

variable (qi : Fin 4) (xk : Fin 4 → Vec Ideal S1x512x512 .f32) (wkv : Vec Ideal S512x128 .f32) (q : Vec Ideal S512x64 .f32)

/-- The masked score of row `r` of the query tile against a key. -/
def sc (r : Fin 512) (k : Key) : EReal :=
  k0_pay11 (F := Ideal) (BitVec.ofNat 32 qi.val) (BitVec.ofNat 32 k.1.val) (xk k.1) wkv q (ix2 r k.2)
/-- Column `h` of a key's value row. -/
def vv (h : Fin 64) (k : Key) : EReal := k0_pay10 (F := Ideal) (xk k.1) wkv (ix2 k.2 h)

/-- The scratch holds, row by row, the online-softmax statistics of the keys `S`. -/
structure Holds (S : Finset Key) (s : Scr Ideal) : Prop where
  q_eq : s.q = q
  mx_eq : ∀ r, s.mx (ix2 r (0 : Fin 1)) = top S (sc qi xk wkv q r)
  l_eq : ∀ r, s.l (ix2 r (0 : Fin 1)) = norm S (sc qi xk wkv q r)
  acc_eq : ∀ r h, s.acc (ix2 r h) = wsum S (sc qi xk wkv q r) (vv xk wkv h)

theorem top_tile (j : Fin 4) (f : Key → EReal) : top (tile j) f = (Finset.univ : Finset (Fin 512)).fold max ⊥ fun c => f (j, c) := by
  unfold top tile; rw [Finset.sup_map]; rfl

theorem sum_tile (j : Fin 4) (f : Key → EReal) : ∑ k ∈ tile j, f k = ∑ c : Fin 512, f (j, c) := by
  unfold tile; rw [Finset.sum_map]; rfl

/-- FOLDING KEY TILE `j` into a scratch that holds the statistics of the keys `S` (disjoint from the tile) gives a scratch
    that holds those of `S ∪ tile j` — when every score is a real number or −∞, every value a real number, and some score
    of each row in the tile is real. -/
theorem holds_fold (S : Finset Key) (j : Fin 4) (hd : Disjoint S (tile j)) (s : Scr Ideal)
    (hS : Holds qi xk wkv q S s)
    (hsc : ∀ r k, IsScore (sc qi xk wkv q r k)) (hvv : ∀ h k, IsReal (vv xk wkv h k))
    (htop : ∀ r, IsReal (top (tile j) (sc qi xk wkv q r))) :
    Holds qi xk wkv q (S ∪ tile j) (fold (BitVec.ofNat 32 qi.val) (BitVec.ofNat 32 j.val) (xk j) wkv s) := by
  have hmx : ∀ r, k0_pay12 (F := Ideal) (BitVec.ofNat 32 qi.val) (BitVec.ofNat 32 j.val) (xk j) wkv s.q s.mx (ix2 r (0 : Fin 1))
      = max (top S (sc qi xk wkv q r)) (top (tile j) (sc qi xk wkv q r)) := fun r => by
    rw [pay12_apply, hS.mx_eq r, top_tile, hS.q_eq]; rfl
  have hp14 : ∀ r c, k0_pay14 (F := Ideal) (BitVec.ofNat 32 qi.val) (BitVec.ofNat 32 j.val) (xk j) wkv s.q s.mx (ix2 r c)
      = Ideal.exp (sc qi xk wkv q r (j, c) - max (top S (sc qi xk wkv q r)) (top (tile j) (sc qi xk wkv q r))) := fun r c => by
    rw [pay14_apply, hmx, hS.q_eq]; rfl
  refine ⟨hS.q_eq, fun r => ?_, fun r => ?_, fun r h => ?_⟩
  · simp only [fold]
    rw [pay7_eq, hmx, top_union]
  · simp only [fold]
    rw [pay5_eq, pay15_apply, pay13_apply, hmx, hS.mx_eq r, hS.l_eq r,
      ← norm_step S (tile j) hd (sc qi xk wkv q r) (fun k _ => hsc r k) (htop r), sum_tile,
      Finset.sum_congr rfl fun c _ => hp14 r c]
  · simp only [fold]
    rw [pay6_apply, pay13_apply, hmx, hS.mx_eq r, hS.acc_eq r h,
      ← wsum_step S (tile j) hd (sc qi xk wkv q r) (vv xk wkv h) (fun k _ => hsc r k) (fun k _ => hvv h k) (htop r), sum_tile,
      Finset.sum_congr rfl fun c _ => congrArg (· * k0_pay10 (F := Ideal) (xk j) wkv (ix2 c h)) (hp14 r c)]
    rfl

/-- THE RESET leaves a scratch that holds the statistics of no key: the maximum −∞, both sums 0. -/
theorem holds_reset (xq : Vec Ideal S1x512x512 .f32) (wq : Vec Ideal S512x64 .f32) (hq : k0_pay4 (F := Ideal) xq wq = q) :
    Holds qi xk wkv q ∅ (reset xq wq) :=
  ⟨hq, fun r => by simp only [reset]; rw [pay1_apply, top_empty], fun r => by simp only [reset]; rw [pay2_apply, norm_empty],
    fun r h => by simp only [reset]; rw [pay3_apply, wsum_empty]⟩

end Cert.KernelIdeal.Sweep

end
-- ==== Proof.KernelIdealFinal.lean ====
/-
  Along the grid: the blocks the windows stage are parts of the argument arrays; the scratch after every point holds the
  online-softmax statistics of the keys its sweep has seen (by induction on the point: a sweep's first point resets and folds key
  tile 0, a later point folds its key tile if that is at or before the query tile and leaves the scratch alone otherwise); a sweep's
  last point writes back the quotient, so the output array ends, block by block, at one function of the argument arrays.
-/
import proofs.«166854_j67577015435858_2_alg».proof.Proof.KernelIdealRun
import proofs.«166854_j67577015435858_2_alg».proof.Proof.KernelIdealSweep

set_option maxRecDepth 16384

noncomputable section

namespace Cert.KernelIdeal.Final

open Cert.KernelIdeal Cert.KernelIdeal.Gen Cert.KernelIdeal.Hand Cert.KernelIdeal.Pay Cert.KernelIdeal.Sweep
open Idealize.ShloMosaic Idealize.ShloMosaic.TcCoe Idealize.ShloMosaic.ValueIdx Idealize.ShloMosaic.OnlineSoftmax
open Idealize.SL.Sem
open Idealize.ShloMosaic.Pipeline (Dat Cfg Window)

variable (m : (ℓ : Loc nD τ sig) → Buf (Elt Ideal) ℓ) (ρ : Dev nD → PrngReg) (c : Dev nD)

/-! ## The grid's points and the windows' blocks as parts of the arrays -/

/-- The batch entry, the query tile and the key tile of a grid point. -/
def bOf (t : Fin cfg0.N) : Fin 16 := ⟨t.val / 16, by have := t.isLt; have : cfg0.N = 256 := N_0; omega⟩
def qiOf (t : Fin cfg0.N) : Fin 4 := ⟨t.val / 4 % 4, Nat.mod_lt _ (by decide)⟩
def jOf (t : Fin cfg0.N) : Fin 4 := ⟨t.val % 4, Nat.mod_lt _ (by decide)⟩

theorem coords_eq : ∀ t : Fin cfg0.N, (grid0.coords t 0).val = t.val / 16 ∧ (grid0.coords t 1).val = t.val / 4 % 4 ∧ (grid0.coords t 2).val = t.val % 4 :=
  (by decide +kernel : ∀ t : Fin grid0.N, (grid0.coords t 0).val = t.val / 16 ∧ (grid0.coords t 1).val = t.val / 4 % 4 ∧ (grid0.coords t 2).val = t.val % 4)

theorem hc2 : ∀ t : Fin cfg0.N, c2 (grid0.coords t) ↔ t.val % 4 ≤ t.val / 4 % 4 :=
  (by decide +kernel : ∀ t : Fin grid0.N, c2 (grid0.coords t) ↔ t.val % 4 ≤ t.val / 4 % 4)

theorem idx0 : ∀ t : Fin cfg0.N, win0_0.index t 0 = t.val / 16 ∧ win0_0.index t 1 = t.val / 4 % 4 ∧ win0_0.index t 2 = 0 :=
  (by decide +kernel : ∀ t : Fin grid0.N, win0_0.index t 0 = t.val / 16 ∧ win0_0.index t 1 = t.val / 4 % 4 ∧ win0_0.index t 2 = 0)
theorem idx1 : ∀ t : Fin cfg0.N, win0_1.index t 0 = t.val / 16 ∧ win0_1.index t 1 = min (t.val % 4) (t.val / 4 % 4) ∧ win0_1.index t 2 = 0 :=
  (by decide +kernel : ∀ t : Fin grid0.N, win0_1.index t 0 = t.val / 16 ∧ win0_1.index t 1 = min (t.val % 4) (t.val / 4 % 4) ∧ win0_1.index t 2 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val / 16 ∧ win0_4.index t 1 = t.val / 4 % 4 ∧ win0_4.index t 2 = 0 :=
  (by decide +kernel : ∀ t : Fin grid0.N, win0_4.index t 0 = t.val / 16 ∧ win0_4.index t 1 = t.val / 4 % 4 ∧ win0_4.index t 2 = 0)

/-- Tile `n` of batch entry `b` of the input array, as a block. -/
def xTile (b : Fin 16) (n : Fin 4) : Vec Ideal S1x512x512 .f32 := fun y =>
  V m c main_arg0 (ix3 b (⟨n.val * 512 + (y 1).val, by have h : (y 1).val < 512 := (y 1).isLt; have := n.isLt; omega⟩ : Fin 2048) (y 2))

theorem iblk0_eq (t : Fin cfg0.N) : iblk m c 0 t = xTile m c (bOf t) (qiOf t) := by
  funext y
  unfold iblk xTile
  show V m c main_arg0 (((cfg0.win 0).blk t).view.emb y) = _
  refine congrArg (V m c main_arg0) (funext fun a => Fin.ext ?_)
  obtain ⟨h0, h1, h2⟩ := idx0 t
  match a with
  | ⟨0, _⟩ =>
    show win0_0.index t 0 * 1 + 1 * (y 0).val = t.val / 16
    have h : (y 0).val < 1 := (y 0).isLt
    omega
  | ⟨1, _⟩ =>
    show win0_0.index t 1 * 512 + 1 * (y 1).val = t.val / 4 % 4 * 512 + (y 1).val
    omega
  | ⟨2, _⟩ =>
    show win0_0.index t 2 * 512 + 1 * (y 2).val = (y 2).val
    omega

theorem iblk1_eq (t : Fin cfg0.N) : iblk m c 1 t = xTile m c (bOf t) ⟨min (jOf t).val (qiOf t).val, by have := (jOf t).isLt; omega⟩ := by
  funext y
  unfold iblk xTile
  show V m c main_arg0 (((cfg0.win 1).blk t).view.emb y) = _
  refine congrArg (V m c main_arg0) (funext fun a => Fin.ext ?_)
  obtain ⟨h0, h1, h2⟩ := idx1 t
  match a with
  | ⟨0, _⟩ =>
    show win0_1.index t 0 * 1 + 1 * (y 0).val = t.val / 16
    have h : (y 0).val < 1 := (y 0).isLt
    omega
  | ⟨1, _⟩ =>
    show win0_1.index t 1 * 512 + 1 * (y 1).val = min (t.val % 4) (t.val / 4 % 4) * 512 + (y 1).val
    omega
  | ⟨2, _⟩ =>
    show win0_1.index t 2 * 512 + 1 * (y 2).val = (y 2).val
    omega

theorem iblk2_eq (t : Fin cfg0.N) : iblk m c 2 t = V m c main_arg1 := by
  funext y
  unfold iblk
  show V m c main_arg1 (((cfg0.win 2).blk t).view.emb y) = _
  refine congrArg (V m c main_arg1) (funext fun a => Fin.ext ?_)
  obtain ⟨h0, h1⟩ := idx2 t
  match a with
  | ⟨0, _⟩ =>
    show win0_2.index t 0 * 512 + 1 * (y 0).val = (y 0).val
    omega
  | ⟨1, _⟩ =>
    show win0_2.index t 1 * 64 + 1 * (y 1).val = (y 1).val
    omega

theorem iblk3_eq (t : Fin cfg0.N) : iblk m c 3 t = V m c main_v0 := by
  funext y
  unfold iblk
  show V m c main_v0 (((cfg0.win 3).blk t).view.emb y) = _
  refine congrArg (V m c main_v0) (funext fun a => Fin.ext ?_)
  obtain ⟨h0, h1⟩ := idx3 t
  match a with
  | ⟨0, _⟩ =>
    show win0_3.index t 0 * 512 + 1 * (y 0).val = (y 0).val
    omega
  | ⟨1, _⟩ =>
    show win0_3.index t 1 * 128 + 1 * (y 1).val = (y 1).val
    omega

/-! ## The scratch after every point holds the statistics of the keys seen so far -/

/-- The projected queries of query tile `qi` of batch entry `b`. -/
def qOfTile (b : Fin 16) (qi : Fin 4) : Vec Ideal S512x64 .f32 := k0_pay4 (F := Ideal) (xTile m c b qi) (V m c main_arg1)

/-- What the scores and the values have to be for the steps to be those of the online softmax: every masked score a real number or
    −∞, every value a real number, and in every key tile at or before the query tile some score of each row real. -/
structure Tame (b : Fin 16) (qi : Fin 4) : Prop where
  score : ∀ r k, IsScore (sc qi (xTile m c b) (V m c main_v0) (qOfTile m c b qi) r k)
  value : ∀ h k, IsReal (vv (xTile m c b) (V m c main_v0) h k)
  some_real : ∀ (j : Fin 4), j.val ≤ qi.val → ∀ r, IsReal (top (tile j) (sc qi (xTile m c b) (V m c main_v0) (qOfTile m c b qi) r))

/-- The first key tile of a sweep: the scratch found is forgotten; the reset scratch is folded with key tile 0. -/
theorem step_start (t : Fin cfg0.N) (h0 : t.val % 4 = 0) (s : Scr Ideal) :
    step (grid0.coords t) (iblk m c 0 t) (iblk m c 1 t) (iblk m c 2 t) (iblk m c 3 t) s
      = fold (BitVec.ofNat 32 (qiOf t).val) (BitVec.ofNat 32 (0 : Fin 4).val) (xTile m c (bOf t) 0) (V m c main_v0)
          (reset (xTile m c (bOf t) (qiOf t)) (V m c main_arg1)) := by
  have h1 : c1 (grid0.coords t) := (hc1 t).mpr h0
  have h2 : c2 (grid0.coords t) := hc12 t h1
  obtain ⟨-, e1, e2⟩ := coords_eq t
  unfold step; simp only [if_pos h1, if_pos h2]
  rw [iblk0_eq, iblk1_eq, iblk2_eq, iblk3_eq, e1, e2, h0]
  have ej : (⟨min (jOf t).val (qiOf t).val, by have := (jOf t).isLt; omega⟩ : Fin 4) = 0 :=
    Fin.ext (by show min (t.val % 4) _ = 0; rw [h0]; exact Nat.zero_min _)
  rw [ej]; rfl

/-- A later key tile at or before the query tile: the scratch found is folded with that key tile. -/
theorem step_fold (t : Fin cfg0.N) (h0 : t.val % 4 ≠ 0) (hle : t.val % 4 ≤ t.val / 4 % 4) (s : Scr Ideal) :
    step (grid0.coords t) (iblk m c 0 t) (iblk m c 1 t) (iblk m c 2 t) (iblk m c 3 t) s
      = fold (BitVec.ofNat 32 (qiOf t).val) (BitVec.ofNat 32 (jOf t).val) (xTile m c (bOf t) (jOf t)) (V m c main_v0) s := by
  have h1 : ¬ c1 (grid0.coords t) := fun h => h0 ((hc1 t).mp h)
  have h2 : c2 (grid0.coords t) := (hc2 t).mpr hle
  obtain ⟨-, e1, e2⟩ := coords_eq t
  unfold step; simp only [if_neg h1, if_pos h2]
  rw [iblk1_eq, iblk3_eq, e1, e2]
  have ej : (⟨min (jOf t).val (qiOf t).val, by have := (jOf t).isLt; omega⟩ : Fin 4) = jOf t :=
    Fin.ext (by show min (t.val % 4) (t.val / 4 % 4) = t.val % 4; exact Nat.min_eq_left hle)
  rw [ej]; rfl

/-- A key tile after the query tile: the scratch is left as found. -/
theorem step_skip (t : Fin cfg0.N) (h0 : t.val % 4 ≠ 0) (hgt : ¬ t.val % 4 ≤ t.val / 4 % 4) (s : Scr Ideal) :
    step (grid0.coords t) (iblk m c 0 t) (iblk m c 1 t) (iblk m c 2 t) (iblk m c 3 t) s = s := by
  have h1 : ¬ c1 (grid0.coords t) := fun h => h0 ((hc1 t).mp h)
  have h2 : ¬ c2 (grid0.coords t) := fun h => hgt ((hc2 t).mp h)
  unfold step; simp only [if_neg h1, if_neg h2]

theorem holds_start (htame : ∀ b qi, Tame m c b qi) (t : Fin cfg0.N) (h0 : t.val % 4 = 0) (s : Scr Ideal) :
    Holds (qiOf t) (xTile m c (bOf t)) (V m c main_v0) (qOfTile m c (bOf t) (qiOf t)) (seen (min (jOf t).val (qiOf t).val + 1))
      (step (grid0.coords t) (iblk m c 0 t) (iblk m c 1 t) (iblk m c 2 t) (iblk m c 3 t) s) := by
  rw [step_start m c t h0]
  have h := holds_fold (qiOf t) (xTile m c (bOf t)) (V m c main_v0) (qOfTile m c (bOf t) (qiOf t)) ∅ 0
    (Finset.disjoint_empty_left _) _ (holds_reset _ _ _ _ _ _ rfl) (htame (bOf t) (qiOf t)).score (htame (bOf t) (qiOf t)).value
    ((htame (bOf t) (qiOf t)).some_real 0 (Nat.zero_le _))
  have es : seen (min (jOf t).val (qiOf t).val + 1) = ∅ ∪ tile 0 := by
    have : min (jOf t).val (qiOf t).val = 0 := by show min (t.val % 4) _ = 0; rw [h0]; exact Nat.zero_min _
    rw [this]; exact seen_succ 0
  rw [es]; exact h

theorem holds_at (htame : ∀ b qi, Tame m c b qi) : ∀ (n : ℕ) (hn : n < cfg0.N),
    Holds (qiOf ⟨n, hn⟩) (xTile m c (bOf ⟨n, hn⟩)) (V m c main_v0) (qOfTile m c (bOf ⟨n, hn⟩) (qiOf ⟨n, hn⟩))
      (seen (min (jOf ⟨n, hn⟩).val (qiOf ⟨n, hn⟩).val + 1)) (scrAt m c n hn) := by
  intro n
  induction n with
  | zero =>
    intro hn
    exact holds_start m c htame ⟨0, hn⟩ (Nat.zero_mod _) _
  | succ n ih =>
    intro hn
    have hn' : n < cfg0.N := Nat.lt_of_succ_lt hn
    show Holds _ _ _ _ _ (step (grid0.coords ⟨n + 1, hn⟩) (iblk m c 0 ⟨n + 1, hn⟩) (iblk m c 1 ⟨n + 1, hn⟩) (iblk m c 2 ⟨n + 1, hn⟩) (iblk m c 3 ⟨n + 1, hn⟩)
      (scrAt m c n hn'))
    by_cases h0 : (n + 1) % 4 = 0
    · exact holds_start m c htame ⟨n + 1, hn⟩ h0 _
    · have hdiv : (n + 1) / 4 = n / 4 := by omega
      have eb : bOf (⟨n + 1, hn⟩ : Fin cfg0.N) = bOf ⟨n, hn'⟩ := Fin.ext (by show (n + 1) / 16 = n / 16; omega)
      have eq : qiOf (⟨n + 1, hn⟩ : Fin cfg0.N) = qiOf ⟨n, hn'⟩ := Fin.ext (by show (n + 1) / 4 % 4 = n / 4 % 4; rw [hdiv])
      have ejv : (jOf (⟨n + 1, hn⟩ : Fin cfg0.N)).val = (jOf ⟨n, hn'⟩).val + 1 := by show (n + 1) % 4 = n % 4 + 1; omega
      have IH := ih hn'
      by_cases hle : (n + 1) % 4 ≤ (n + 1) / 4 % 4
      · rw [step_fold m c ⟨n + 1, hn⟩ h0 hle]
        have hmin : min (jOf ⟨n, hn'⟩).val (qiOf ⟨n, hn'⟩).val + 1 = (jOf (⟨n + 1, hn⟩ : Fin cfg0.N)).val := by
          have : (jOf ⟨n, hn'⟩).val ≤ (qiOf ⟨n, hn'⟩).val := by
            show n % 4 ≤ n / 4 % 4
            have : (n + 1) % 4 ≤ n / 4 % 4 := by rw [← hdiv]; exact hle
            omega
          rw [Nat.min_eq_left this, ejv]
        rw [hmin] at IH
        have hmin' : min (jOf (⟨n + 1, hn⟩ : Fin cfg0.N)).val (qiOf (⟨n + 1, hn⟩ : Fin cfg0.N)).val + 1 = (jOf (⟨n + 1, hn⟩ : Fin cfg0.N)).val + 1 := by
          show min ((n + 1) % 4) ((n + 1) / 4 % 4) + 1 = (n + 1) % 4 + 1
          rw [Nat.min_eq_left hle]
        rw [hmin', seen_succ, eb, eq]
        rw [eb, eq] at *
        exact holds_fold _ _ _ _ _ _ (seen_disjoint _) _ IH (htame (bOf ⟨n, hn'⟩) (qiOf ⟨n, hn'⟩)).score (htame (bOf ⟨n, hn'⟩) (qiOf ⟨n, hn'⟩)).value
          ((htame (bOf ⟨n, hn'⟩) (qiOf ⟨n, hn'⟩)).some_real _ (by show (n + 1) % 4 ≤ n / 4 % 4; rw [← hdiv]; exact hle))
      · rw [step_skip m c ⟨n + 1, hn⟩ h0 hle]
        have hmin : min (jOf (⟨n + 1, hn⟩ : Fin cfg0.N)).val (qiOf (⟨n + 1, hn⟩ : Fin cfg0.N)).val = min (jOf ⟨n, hn'⟩).val (qiOf ⟨n, hn'⟩).val := by
          show min ((n + 1) % 4) ((n + 1) / 4 % 4) = min (n % 4) (n / 4 % 4)
          rw [hdiv] at hle ⊢; omega
        rw [hmin, eb, eq]; exact IH

/-! ## The output array after the run -/

/-- What the output array ends holding at (b, t, h): the weighted sum of the values over the keys seen by the query tile of row
    `t`, divided by their normalizer. -/
def Gker : S16x2048x64.Idx → EReal := fun i =>
  Ideal.div
    (wsum (seen ((i 1).val / 512 + 1))
      (sc ⟨(i 1).val / 512, by have h : (i 1).val < 2048 := (i 1).isLt; omega⟩ (xTile m c (i 0)) (V m c main_v0)
        (qOfTile m c (i 0) ⟨(i 1).val / 512, by have h : (i 1).val < 2048 := (i 1).isLt; omega⟩) ⟨(i 1).val % 512, Nat.mod_lt _ (by decide)⟩)
      (vv (xTile m c (i 0)) (V m c main_v0) (i 2)))
    (norm (seen ((i 1).val / 512 + 1))
      (sc ⟨(i 1).val / 512, by have h : (i 1).val < 2048 := (i 1).isLt; omega⟩ (xTile m c (i 0)) (V m c main_v0)
        (qOfTile m c (i 0) ⟨(i 1).val / 512, by have h : (i 1).val < 2048 := (i 1).isLt; omega⟩) ⟨(i 1).val % 512, Nat.mod_lt _ (by decide)⟩))

theorem Gker_at (b : Fin 16) (qi : Fin 4) (r : Fin 512) (h : Fin 64) :
    Gker m c (ix3 b (⟨qi.val * 512 + r.val, by have := qi.isLt; have := r.isLt; omega⟩ : Fin 2048) h)
      = Ideal.div (wsum (seen (qi.val + 1)) (sc qi (xTile m c b) (V m c main_v0) (qOfTile m c b qi) r) (vv (xTile m c b) (V m c main_v0) h))
          (norm (seen (qi.val + 1)) (sc qi (xTile m c b) (V m c main_v0) (qOfTile m c b qi) r)) := by
  have e1 : (qi.val * 512 + r.val) / 512 = qi.val := by have := r.isLt; omega
  have e2 : (qi.val * 512 + r.val) % 512 = r.val := by have := r.isLt; omega
  have eq : (⟨(qi.val * 512 + r.val) / 512, by have := qi.isLt; have := r.isLt; omega⟩ : Fin 4) = qi := Fin.ext e1
  have er : (⟨(qi.val * 512 + r.val) % 512, Nat.mod_lt _ (by decide)⟩ : Fin 512) = r := Fin.ext e2
  show Ideal.div (wsum (seen ((qi.val * 512 + r.val) / 512 + 1)) (sc ⟨(qi.val * 512 + r.val) / 512, _⟩ (xTile m c b) (V m c main_v0)
      (qOfTile m c b ⟨(qi.val * 512 + r.val) / 512, _⟩) ⟨(qi.val * 512 + r.val) % 512, _⟩) (vv (xTile m c b) (V m c main_v0) h))
    (norm (seen ((qi.val * 512 + r.val) / 512 + 1)) (sc ⟨(qi.val * 512 + r.val) / 512, _⟩ (xTile m c b) (V m c main_v0)
      (qOfTile m c b ⟨(qi.val * 512 + r.val) / 512, _⟩) ⟨(qi.val * 512 + r.val) % 512, _⟩)) = _
  rw [eq, er, e1]

/-- WHAT A SWEEP'S LAST POINT WRITES BACK is its block of `Gker`. -/
theorem flushed_eq (htame : ∀ b qi, Tame m c b qi) (t : Fin cfg0.N) (hf : (cfg0.win 4).flush t = true) :
    (dats m 0 c).flushed 4 t = ((cfg0.win 4).blk t).view.read (Elt Ideal) (Gker m c) := by
  have h3 : t.val % 4 = 3 := (flush0_4 t).mp hf
  show (cfg0.win 4).cut (grid0.coords t) ((dats m 0 c).after 4 t) = _
  rw [after_4]
  funext y
  have H := holds_at m c htame t.val t.isLt
  have hmin : min (jOf t).val (qiOf t).val = (qiOf t).val := by
    show min (t.val % 4) (t.val / 4 % 4) = t.val / 4 % 4
    rw [h3]; have : t.val / 4 % 4 < 4 := Nat.mod_lt _ (by decide); omega
  rw [hmin] at H
  obtain ⟨g0, g1, g2⟩ := idx4 t
  have hy0 : (y 0).val < 1 := (y 0).isLt
  have hy1 : (y 1).val < 512 := (y 1).isLt
  have hy2 : (y 2).val < 64 := (y 2).isLt
  have hemb : ((cfg0.win 4).blk t).view.emb y
      = ix3 (bOf t) (⟨(qiOf t).val * 512 + (⟨(y 1).val, hy1⟩ : Fin 512).val, by have := (qiOf t).isLt; omega⟩ : Fin 2048) (⟨(y 2).val, hy2⟩ : Fin 64) := by
    funext a; apply Fin.ext
    match a with
    | ⟨0, _⟩ => show win0_4.index t 0 * 1 + 1 * (y 0).val = t.val / 16; omega
    | ⟨1, _⟩ => show win0_4.index t 1 * 512 + 1 * (y 1).val = t.val / 4 % 4 * 512 + (y 1).val; omega
    | ⟨2, _⟩ => show win0_4.index t 2 * 64 + 1 * (y 2).val = (y 2).val; omega
  show outOf (scrAt m c t.val t.isLt) y = Gker m c (((cfg0.win 4).blk t).view.emb y)
  rw [hemb, Gker_at]
  have ey : y = ix3 (0 : Fin 1) (⟨(y 1).val, hy1⟩ : Fin 512) (⟨(y 2).val, hy2⟩ : Fin 64) := by
    funext a
    match a with
    | ⟨0, _⟩ => exact Fin.ext (by show (y 0).val = 0; omega)
    | ⟨1, _⟩ => rfl
    | ⟨2, _⟩ => rfl
  rw [show outOf (scrAt m c t.val t.isLt) y = k0_pay8 (F := Ideal) (scrAt m c t.val t.isLt).acc (scrAt m c t.val t.isLt).l
      (ix3 (0 : Fin 1) (⟨(y 1).val, hy1⟩ : Fin 512) (⟨(y 2).val, hy2⟩ : Fin 64)) from congrArg _ ey,
    pay8_apply, H.acc_eq, H.l_eq]

theorem mem_blk4 (t : Fin cfg0.N) (i : S16x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v1).slice (win0_4.rect t)).set ↔ _
  rw [View.set_slice_whole, Rect.mem_set_unit]
  exact Iff.rfl

theorem cover (i : S16x2048x64.Idx) : ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 64 := (i 2).isLt
  have hN : grid0.N = 256 := N_0
  obtain ⟨t, ht⟩ : ∃ t : Fin cfg0.N, t.val = (i 0).val * 16 + (i 1).val / 512 * 4 + 3 := ⟨⟨_, by show _ < grid0.N; omega⟩, rfl⟩
  refine ⟨t, (flush0_4 t).mpr (by omega), ?_⟩
  rw [mem_blk4]
  obtain ⟨g0, g1, g2⟩ := idx4 t
  intro a
  match a with
  | ⟨0, _⟩ => show win0_4.index t 0 * 1 ≤ (i 0).val ∧ (i 0).val < win0_4.index t 0 * 1 + 1; omega
  | ⟨1, _⟩ => show win0_4.index t 1 * 512 ≤ (i 1).val ∧ (i 1).val < win0_4.index t 1 * 512 + 512; omega
  | ⟨2, _⟩ => show win0_4.index t 2 * 64 ≤ (i 2).val ∧ (i 2).val < win0_4.index t 2 * 64 + 64; omega

/-- THE OUTPUT ARRAY after the run. -/
theorem final (htame : ∀ b qi, Tame m c b qi) : (dats m 0 c).arrAt 4 cfg0.N = Gker m c :=
  (dats m 0 c).arrAt_eq_of_cover 4 (Gker m c) (fun t hf => flushed_eq m c htame t hf) (cover)

/-- The run re-posted: the result array at `Gker`, the arguments unchanged. -/
theorem run_value (htame : ∀ c b qi, Tame m c b qi) :
    θ_run defs (onTc (τ := τ) (main (F := Ideal))) ⟨m, fun _ => 0, ρ⟩ (fun r => ∀ c : Dev nD,
      r.2.mem ((c.tc : Thread nD τ).loc main_v1) = Gker m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final m c (htame c)),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Final

end
-- ==== Proof.KernelIdealMask.lean ====
/-
  The causal mask bit of a pair of tiles, decided.

  A query position is its tile's number times the tile height 512 plus its row inside the tile, and a key
  position likewise. With at most four tiles each way both positions are below 2048, so computed in 32-bit
  words nothing wraps and the signed comparison of the two words is the comparison of the two naturals: the
  bit is 1 exactly when the key position is not after the query position.
-/
import proofs.«166854_j67577015435858_2_alg».proof.Proof.KernelIdealPay
import Idealize.ShloMosaic.Lib.Affine

namespace Cert.KernelIdeal.Mask

open Idealize.ShloMosaic Idealize.ShloMosaic.ValueIdx

/-- A natural below 2048, written as a 32-bit word and read back signed, is itself. -/
theorem toInt_ofNat_small (n : Nat) (hn : n < 2048) : (BitVec.ofNat 32 n).toInt = (n : Int) := by
  have hm : n % 2 ^ 32 = n := Nat.mod_eq_of_lt (by omega)
  rw [BitVec.toInt_eq_toNat_cond, BitVec.toNat_ofNat, hm, if_pos (by omega)]

/-- Tile number `a` below 4 times 512 plus a row below 512, computed in 32-bit words, is the word of the
    natural `a * 512 + r`: neither the product nor the sum wraps. -/
theorem pos_word (a : Fin 4) (r : Fin 512) :
    IntOp.addi (Scalar.muli (BitVec.ofNat 32 a.val) 512#32) (BitVec.ofNat 32 r.val)
      = BitVec.ofNat 32 (a.val * 512 + r.val) := by
  apply BitVec.eq_of_toNat_eq
  show (BitVec.ofNat 32 a.val * 512#32 + BitVec.ofNat 32 r.val).toNat = _
  simp only [BitVec.toNat_add, BitVec.toNat_mul, BitVec.toNat_ofNat, Nat.reducePow, Nat.reduceMod]
  have := a.isLt
  have := r.isLt
  omega

/-- The mask bit of entry (r, c) of the pair (query tile `qi`, key tile `j`) is 1 exactly when the key
    position `j * 512 + c` is not after the query position `qi * 512 + r`. -/
theorem mbit_iff (qi j : Fin 4) (r c : Fin 512) :
    Cert.KernelIdeal.Pay.mbit (BitVec.ofNat 32 qi.val) (BitVec.ofNat 32 j.val) r c = 1#1
      ↔ j.val * 512 + c.val ≤ qi.val * 512 + r.val := by
  unfold Cert.KernelIdeal.Pay.mbit
  rw [pos_word qi r, pos_word j c, IntOp.cmpi_sge,
    toInt_ofNat_small _ (by have := j.isLt; have := c.isLt; omega),
    toInt_ofNat_small _ (by have := qi.isLt; have := r.isLt; omega)]
  exact Int.ofNat_le

/-- Where the key position is after the query position the mask bit is 0. -/
theorem mbit_not (qi j : Fin 4) (r c : Fin 512) :
    ¬ (j.val * 512 + c.val ≤ qi.val * 512 + r.val)
      → Cert.KernelIdeal.Pay.mbit (BitVec.ofNat 32 qi.val) (BitVec.ofNat 32 j.val) r c = 0#1 :=
  fun hn => eq_zero_of_ne_one fun h1 => hn ((mbit_iff qi j r c).mp h1)

end Cert.KernelIdeal.Mask
-- ==== Proof.RefValue.lean ====
/-
  The reference side of the value claim, read index by index at the ideal float values.

  The reference is causal self-attention: three projections of the input by weight matrices, the scaled
  scores of each query row against each key row, every key after the query row replaced by minus infinity,
  a softmax over the keys, and the weighted sum of the value projections. This module states that result
  as one closed-form function `Gref` of the four argument arrays, written coordinate by coordinate, and
  proves that the composed term of the reference's run is that function.
-/
import proofs.«166854_j67577015435858_2_alg».proof.Proof.Gen.ReferenceIdeal.Read
import Idealize.ShloMosaic.Lib.Affine

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The specification -/

/-- One projection: row `t` of batch `b` of the input against column `h` of a weight matrix. -/
def proj (x : S16x2048x512.Idx → EReal) (w : S512x64.Idx → EReal) (b : Fin 16) (t : Fin 2048) (h : Fin 64) : EReal :=
  ∑ d : Fin 512, x (ix3 b t d) * w (ix2 d h)

/-- The masked score of query row `t` against key row `k`: the scaled inner product of the two projected
    rows when the key is not after the query, minus infinity otherwise. -/
def score (x : S16x2048x512.Idx → EReal) (wq wk : S512x64.Idx → EReal) (b : Fin 16) (t k : Fin 2048) : EReal :=
  if k.val ≤ t.val then (∑ h : Fin 64, proj x wq b t h * proj x wk b k h) * Ideal.ofBits .f32 0x3E000000#32 else ⊥

/-- The largest masked score of query row `t` over all keys. -/
def top (x : S16x2048x512.Idx → EReal) (wq wk : S512x64.Idx → EReal) (b : Fin 16) (t : Fin 2048) : EReal :=
  Finset.univ.sup fun k : Fin 2048 => score x wq wk b t k

/-- The attention output at batch `b`, query row `t`, head column `h`: the softmax weights of row `t`
    over the keys, each times the value projection of its key row, summed. -/
def out (x : S16x2048x512.Idx → EReal) (wq wk wv : S512x64.Idx → EReal) (b : Fin 16) (t : Fin 2048) (h : Fin 64) : EReal :=
  ∑ k : Fin 2048, Ideal.div (Ideal.exp (score x wq wk b t k - top x wq wk b t))
      (∑ k' : Fin 2048, Ideal.exp (score x wq wk b t k' - top x wq wk b t)) * proj x wv b k h

/-- The whole result array: `out` at the coordinates of the index. -/
def Gref (x : S16x2048x512.Idx → EReal) (wq wk wv : S512x64.Idx → EReal) : S16x2048x64.Idx → EReal :=
  fun i => out x wq wk wv (i 0) (i 1) (i 2)

theorem Gref_ix3 (x : S16x2048x512.Idx → EReal) (wq wk wv : S512x64.Idx → EReal) (b : Fin 16) (t : Fin 2048) (h : Fin 64) :
    Gref x wq wk wv (ix3 b t h) = out x wq wk wv b t h := rfl

/-! ## Words and literals -/

/-- The word of minus infinity denotes the bottom extended real. -/
theorem ofBits_neg_inf : Ideal.ofBits .f32 0xFF800000#32 = (⊥ : EReal) := by simp [Ideal.ofBits, Ideal.ieee]

/-- A coordinate below 2048, written as a 32-bit word and read back signed, is itself. -/
theorem toInt_ofNat_lt (n : Nat) (hn : n < 2048) : (BitVec.ofNat 32 n).toInt = (n : Int) := by
  have hm : n % 2 ^ 32 = n := Nat.mod_eq_of_lt (by omega)
  rw [BitVec.toInt_eq_toNat_cond, BitVec.toNat_ofNat, hm, if_pos (by omega)]

/-! ## The index functions of the stages at coordinates -/

theorem lidx_v0 (b : Fin 16) (t : Fin 2048) (h : Fin 64) (d : Fin 512) : lidx_main_v0 (ix3 b t h) d = ix3 b t d :=
  funext fun a => Fin.ext (by match a with | ⟨0, _⟩ => rfl | ⟨1, _⟩ => rfl | ⟨2, _⟩ => rfl)
theorem ridx_v0 (b : Fin 16) (t : Fin 2048) (h : Fin 64) (d : Fin 512) : ridx_main_v0 (ix3 b t h) d = ix2 d h :=
  funext fun a => Fin.ext (by match a with | ⟨0, _⟩ => rfl | ⟨1, _⟩ => rfl)
theorem lidx_v1 (b : Fin 16) (t : Fin 2048) (h : Fin 64) (d : Fin 512) : lidx_main_v1 (ix3 b t h) d = ix3 b t d :=
  funext fun a => Fin.ext (by match a with | ⟨0, _⟩ => rfl | ⟨1, _⟩ => rfl | ⟨2, _⟩ => rfl)
theorem ridx_v1 (b : Fin 16) (t : Fin 2048) (h : Fin 64) (d : Fin 512) : ridx_main_v1 (ix3 b t h) d = ix2 d h :=
  funext fun a => Fin.ext (by match a with | ⟨0, _⟩ => rfl | ⟨1, _⟩ => rfl)
theorem lidx_v2 (b : Fin 16) (t : Fin 2048) (h : Fin 64) (d : Fin 512) : lidx_main_v2 (ix3 b t h) d = ix3 b t d :=
  funext fun a => Fin.ext (by match a with | ⟨0, _⟩ => rfl | ⟨1, _⟩ => rfl | ⟨2, _⟩ => rfl)
theorem ridx_v2 (b : Fin 16) (t : Fin 2048) (h : Fin 64) (d : Fin 512) : ridx_main_v2 (ix3 b t h) d = ix2 d h :=
  funext fun a => Fin.ext (by match a with | ⟨0, _⟩ => rfl | ⟨1, _⟩ => rfl)
theorem lidx_v3 (b : Fin 16) (t k : Fin 2048) (h : Fin 64) : lidx_main_v3 (ix3 b t k) h = ix3 b t h :=
  funext fun a => Fin.ext (by match a with | ⟨0, _⟩ => rfl | ⟨1, _⟩ => rfl | ⟨2, _⟩ => rfl)
theorem ridx_v3 (b : Fin 16) (t k : Fin 2048) (h : Fin 64) : ridx_main_v3 (ix3 b t k) h = ix3 b k h :=
  funext fun a => Fin.ext (by match a with | ⟨0, _⟩ => rfl | ⟨1, _⟩ => rfl | ⟨2, _⟩ => rfl)
theorem idx_mask (b : Fin 16) (t k : Fin 2048) : idx_main_v8 (idx_main_call1_v1 (ix3 b t k)) = ix2 t k :=
  funext fun a => Fin.ext (by match a with | ⟨0, _⟩ => rfl | ⟨1, _⟩ => rfl)
theorem idx_row (b : Fin 16) (t k : Fin 2048) : idx_main_v13 (idx_main_v14 (ix3 b t k)) = ix2 b t :=
  funext fun a => Fin.ext (by match a with | ⟨0, _⟩ => rfl | ⟨1, _⟩ => rfl)
theorem idx_row' (b : Fin 16) (t k : Fin 2048) : idx_main_v18 (idx_main_v19 (ix3 b t k)) = ix2 b t :=
  funext fun a => Fin.ext (by match a with | ⟨0, _⟩ => rfl | ⟨1, _⟩ => rfl)
theorem idx_v17 (b : Fin 16) (t k : Fin 2048) : idx_main_v17 (ix2 b t) k = ix3 b t k :=
  funext fun a => Fin.ext (by match a with | ⟨0, _⟩ => rfl | ⟨1, _⟩ => rfl | ⟨2, _⟩ => rfl)
theorem lidx_v21 (b : Fin 16) (t k : Fin 2048) (h : Fin 64) : lidx_main_v21 (ix3 b t h) k = ix3 b t k :=
  funext fun a => Fin.ext (by match a with | ⟨0, _⟩ => rfl | ⟨1, _⟩ => rfl | ⟨2, _⟩ => rfl)
theorem ridx_v21 (b : Fin 16) (t k : Fin 2048) (h : Fin 64) : ridx_main_v21 (ix3 b t h) k = ix3 b k h :=
  funext fun a => Fin.ext (by match a with | ⟨0, _⟩ => rfl | ⟨1, _⟩ => rfl | ⟨2, _⟩ => rfl)

/-! ## The projections -/

theorem v0_at (x : S16x2048x512.Idx → EReal) (w : S512x64.Idx → EReal) (b : Fin 16) (t : Fin 2048) (h : Fin 64) :
    val_main_v0 (F := Ideal) x w (ix3 b t h) = proj x w b t h := by
  rw [val_main_v0_apply]
  exact Finset.sum_congr rfl fun d _ => by rw [lidx_v0, ridx_v0]
theorem v1_at (x : S16x2048x512.Idx → EReal) (w : S512x64.Idx → EReal) (b : Fin 16) (t : Fin 2048) (h : Fin 64) :
    val_main_v1 (F := Ideal) x w (ix3 b t h) = proj x w b t h := by
  rw [val_main_v1_apply]
  exact Finset.sum_congr rfl fun d _ => by rw [lidx_v1, ridx_v1]
theorem v2_at (x : S16x2048x512.Idx → EReal) (w : S512x64.Idx → EReal) (b : Fin 16) (t : Fin 2048) (h : Fin 64) :
    val_main_v2 (F := Ideal) x w (ix3 b t h) = proj x w b t h := by
  rw [val_main_v2_apply]
  exact Finset.sum_congr rfl fun d _ => by rw [lidx_v2, ridx_v2]

/-! ## The lower-triangular mask -/

/-- The mask at row `t`, column `k` is the bit of "the column is not after the row". -/
theorem tril_at (t k : Fin 2048) :
    val_main_v7 (F := Ideal) (ix2 t k) = if k.val ≤ t.val then 1#1 else 0#1 := by
  rw [val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  have e : IntOp.cmpi .sge (IntOp.addi (BitVec.ofNat 32 t.val) 0#32) (BitVec.ofNat 32 k.val) = 1#1 ↔ k.val ≤ t.val := by
    rw [IntOp.cmpi_sge, show IntOp.addi (BitVec.ofNat 32 t.val) 0#32 = BitVec.ofNat 32 t.val from BitVec.add_zero _,
      toInt_ofNat_lt _ k.isLt, toInt_ofNat_lt _ t.isLt]
    exact Int.ofNat_le
  exact if_congr e rfl rfl

/-! ## The masked scores -/

theorem v9_at (x : S16x2048x512.Idx → EReal) (wq wk : S512x64.Idx → EReal) (b : Fin 16) (t k : Fin 2048) :
    val_main_v9 (F := Ideal) x wq wk (ix3 b t k) = score x wq wk b t k := by
  rw [val_main_v9_apply, val_main_call1_v1_apply, val_main_v8_apply, idx_mask, tril_at, val_main_v5_apply,
    val_main_v3_apply, val_main_v4_apply, val_main_cst_apply, val_main_call1_v2_apply, val_main_call1_v0_apply,
    val_main_cst_0_apply, Ideal.mulf_def, Ideal.ofBits_def, Ideal.ofBits_def, ofBits_neg_inf]
  unfold score
  by_cases hk : k.val ≤ t.val
  · rw [if_pos hk, if_pos hk, select_one]
    exact congrArg (· * Ideal.ofBits .f32 0x3E000000#32)
      (Finset.sum_congr rfl fun h _ => by rw [lidx_v3, ridx_v3, v0_at, v1_at])
  · rw [if_neg hk, if_neg hk, select_zero]

/-! ## The row maximum -/

/-- A reduced index (batch `b`, row `t`) with key `k` put back on the reduced axis is (b, t, k). -/
theorem lift_row (hr : S16x2048x2048.Reduces [2] S16x2048) (b : Fin 16) (t : Fin 2048) (k : Fin (S16x2048x2048.size 2)) :
    hr.lift (ix2 b t) k = ix3 b t (⟨k.val, k.isLt⟩ : Fin 2048) := by
  funext a; apply Fin.ext
  fin_cases a <;> rfl

/-- The maximum-reduce over the keys, from minus infinity, at (b, t): the fold of `max` over the row's masked scores. -/
theorem v10_at (x : S16x2048x512.Idx → EReal) (wq wk : S512x64.Idx → EReal) (b : Fin 16) (t : Fin 2048) :
    val_main_v10 (F := Ideal) x wq wk (ix2 b t)
      = (Finset.univ : Finset (Fin 2048)).fold max (⊥ : EReal) (fun k => score x wq wk b t k) := by
  unfold val_main_v10
  have hy : ∀ k : Fin 2048, val_main_v9 (F := Ideal) x wq wk (ix3 b t k) = score x wq wk b t k := fun k => v9_at x wq wk b t k
  generalize val_main_v9 (F := Ideal) x wq wk = y at hy ⊢
  have hr : S16x2048x2048.Reduces [2] S16x2048 := by decide
  rw [Host.reduce_eq_fold_single (α := EReal) (FloatOps.maximumf (F := Ideal) (φ := .f32)) y (val_main_cst_1 (F := Ideal))
    reducesTo_S16x2048x2048_S16x2048_d2 hr h_S_ (ix2 b t)]
  have hf : (y ∘ hr.lift (ix2 b t)) = fun k : Fin 2048 => score x wq wk b t k :=
    funext fun k => (congrArg y (lift_row hr b t k)).trans (hy k)
  have hi : val_main_cst_1 (F := Ideal) (Shape.Idx.first h_S_) = (⊥ : EReal) := by
    rw [val_main_cst_1_apply, Ideal.ofBits_def, ofBits_neg_inf]
  rw [hi]
  exact congrArg (fun f => Finset.fold max (⊥ : EReal) f (Finset.univ : Finset (Fin 2048))) hf

/-- The row maximum as the reference computes it (one more maximum with minus infinity) is `top`. -/
theorem v12_at (x : S16x2048x512.Idx → EReal) (wq wk : S512x64.Idx → EReal) (b : Fin 16) (t : Fin 2048) :
    val_main_v12 (F := Ideal) x wq wk (ix2 b t) = top x wq wk b t := by
  rw [val_main_v12_apply, val_main_v11_apply, val_main_cst_2_apply, v10_at, Ideal.maximumf_def, Ideal.ofBits_def,
    ofBits_neg_inf, max_bot_left]
  rfl

theorem v14_at (x : S16x2048x512.Idx → EReal) (wq wk : S512x64.Idx → EReal) (b : Fin 16) (t k : Fin 2048) :
    val_main_v14 (F := Ideal) x wq wk (ix3 b t k) = top x wq wk b t := by
  rw [val_main_v14_apply, val_main_v13_apply, idx_row, v12_at]

/-! ## The exponentials, their row sum, the weights -/

theorem v16_at (x : S16x2048x512.Idx → EReal) (wq wk : S512x64.Idx → EReal) (b : Fin 16) (t k : Fin 2048) :
    val_main_v16 (F := Ideal) x wq wk (ix3 b t k) = Ideal.exp (score x wq wk b t k - top x wq wk b t) := by
  rw [val_main_v16_apply, val_main_v15_apply, v9_at, v14_at, Ideal.hostUnary_exp_def, Ideal.subf_def]

theorem v17_at (x : S16x2048x512.Idx → EReal) (wq wk : S512x64.Idx → EReal) (b : Fin 16) (t : Fin 2048) :
    val_main_v17 (F := Ideal) x wq wk (ix2 b t)
      = ∑ k : Fin 2048, Ideal.exp (score x wq wk b t k - top x wq wk b t) := by
  rw [val_main_v17_apply, val_main_cst_3_apply, Ideal.ofBits_def, Ideal.ofBits_zero_f32, zero_add]
  exact Finset.sum_congr rfl fun k _ => by rw [idx_v17, v16_at]

theorem v19_at (x : S16x2048x512.Idx → EReal) (wq wk : S512x64.Idx → EReal) (b : Fin 16) (t k : Fin 2048) :
    val_main_v19 (F := Ideal) x wq wk (ix3 b t k)
      = ∑ k' : Fin 2048, Ideal.exp (score x wq wk b t k' - top x wq wk b t) := by
  rw [val_main_v19_apply, val_main_v18_apply, idx_row', v17_at]

theorem v20_at (x : S16x2048x512.Idx → EReal) (wq wk : S512x64.Idx → EReal) (b : Fin 16) (t k : Fin 2048) :
    val_main_v20 (F := Ideal) x wq wk (ix3 b t k)
      = Ideal.div (Ideal.exp (score x wq wk b t k - top x wq wk b t))
          (∑ k' : Fin 2048, Ideal.exp (score x wq wk b t k' - top x wq wk b t)) := by
  rw [val_main_v20_apply, v16_at, v19_at, Ideal.hostDivf_def]

/-! ## The reference is `Gref` -/

/-- The last stage, as a function of the four arrays, is `Gref` of them. -/
theorem v21_eq_Gref (x : S16x2048x512.Idx → EReal) (wq wk wv : S512x64.Idx → EReal) :
    val_main_v21 (F := Ideal) x wq wk wv = Gref x wq wk wv := by
  funext i
  obtain ⟨b, t, h, rfl⟩ : ∃ (b : Fin 16) (t : Fin 2048) (h : Fin 64), i = ix3 b t h := ⟨i 0, i 1, i 2, eq_ix3 i⟩
  rw [val_main_v21_apply, Gref_ix3]
  exact Finset.sum_congr rfl fun k _ => by rw [lidx_v21, ridx_v21, v20_at, v2_at]

/-- The composed term of the reference's run is `Gref` of the four arguments' launch contents. -/
theorem ref_eq (m : (ℓ : Loc nD τ sig) → Buf (Elt Ideal) ℓ) (c : Dev nD) :
    Cert.ReferenceIdeal.Value.res_main_v21 (F := Ideal) m c
      = Gref (m ((c.tc : Thread nD τ).loc main_arg0)) (m ((c.tc : Thread nD τ).loc main_arg1))
          (m ((c.tc : Thread nD τ).loc main_arg2)) (m ((c.tc : Thread nD τ).loc main_arg3)) := by
  rw [val_main_v21_eq]
  exact v21_eq_Gref _ _ _ _

end Cert.ReferenceIdeal.RefValue

end
-- ==== Proof.KernelIdealBridge.lean ====
/-
  The kernel's result is the reference's. In terms of the four argument arrays the kernel's projected queries, keys and values are
  the reference's projections (the fused key/value weights are the two weight matrices side by side), its masked score of a row
  against a key is the reference's masked score of the two positions, and with finite inputs every score is a real number or −∞ and
  every value a real number. The keys after the query tile are masked and contribute nothing; the softmax-weighted sum of the
  values is the weighted sum divided by the normalizer; positions of the sequence and (tile, row) pairs correspond.
-/
import proofs.«166854_j67577015435858_2_alg».proof.Proof.KernelIdealFinal
import proofs.«166854_j67577015435858_2_alg».proof.Proof.KernelIdealMask
import proofs.«166854_j67577015435858_2_alg».proof.Proof.RefValue
import Idealize.ShloMosaic.Lib.StableHlo.Run

set_option maxRecDepth 16384

noncomputable section

namespace Cert.KernelIdeal.Bridge

open Cert.KernelIdeal Cert.KernelIdeal.Gen Cert.KernelIdeal.Hand Cert.KernelIdeal.Pay Cert.KernelIdeal.Sweep Cert.KernelIdeal.Final
open Idealize.ShloMosaic Idealize.ShloMosaic.TcCoe Idealize.ShloMosaic.ValueIdx Idealize.ShloMosaic.OnlineSoftmax
open Idealize.SL.Sem Idealize.ShloMosaic.StableHlo
open Cert.ReferenceIdeal.RefValue (proj score out Gref Gref_ix3)

variable (m : (ℓ : Loc nD τ sig) → Buf (Elt Ideal) ℓ) (c : Dev nD)

/-! ## The kernel's blocks and the fused weights in terms of the four arguments -/

/-- The four arguments as arrays of extended reals. -/
abbrev aX : S16x2048x512.Idx → EReal := m ((c.tc : Thread nD τ).loc main_arg0)
abbrev aWQ : S512x64.Idx → EReal := m ((c.tc : Thread nD τ).loc main_arg1)
abbrev aWK : S512x64.Idx → EReal := m ((c.tc : Thread nD τ).loc main_arg2)
abbrev aWV : S512x64.Idx → EReal := m ((c.tc : Thread nD τ).loc main_arg3)

/-- The position of a key in the sequence. -/
def pos (j : Fin 4) (r : Fin 512) : Fin 2048 := ⟨j.val * 512 + r.val, by have := j.isLt; have := r.isLt; omega⟩

/-- The fused weights are the key weights beside the value weights. -/
theorem wkv_eq : (V m c main_v0 : S512x128.Idx → EReal)
    = concatenate S512x128 1 [⟨S512x64, (aWK m c)⟩, ⟨S512x64, (aWV m c)⟩] concatenates_S512x64_S512x64_S512x128_d1 := by
  dsimp only [V, hostOps0]; after_results

theorem wkv_left (d : Fin 512) (h : Fin 64) : V m c main_v0 (ix2 d (⟨h.val, by omega⟩ : Fin 128)) = (aWK m c) (ix2 d h) := by
  rw [wkv_eq]
  refine concatenate_pair_apply_left (t := S512x128) (s₁ := S512x64) (s₂ := S512x64) (1 : Fin 2) _ _ _ _ rfl (ix2 d h) fun b => ?_
  match b with
  | ⟨0, _⟩ => rfl
  | ⟨1, _⟩ => rfl

theorem wkv_right (d : Fin 512) (h : Fin 64) : V m c main_v0 (ix2 d (⟨64 + h.val, by omega⟩ : Fin 128)) = (aWV m c) (ix2 d h) := by
  rw [wkv_eq]
  refine concatenate_pair_apply_right (t := S512x128) (s₁ := S512x64) (s₂ := S512x64) (1 : Fin 2) _ _ _ _ rfl rfl (ix2 d h) (fun b hb => ?_) ?_
  · match b with
    | ⟨0, _⟩ => rfl
    | ⟨1, _⟩ => exact absurd rfl hb
  · show h.val + 64 = 64 + h.val; omega

theorem xTile_at (b : Fin 16) (n : Fin 4) (r : Fin 512) (d : Fin 512) : xTile m c b n (ix3 (0 : Fin 1) r d) = (aX m c) (ix3 b (pos n r) d) := by
  unfold xTile; rw [V_main_arg0]; rfl

/-- The projected queries, keys and values are the projections of the rows of the input. -/
theorem q_at (b : Fin 16) (qi : Fin 4) (r : Fin 512) (h : Fin 64) : qOfTile m c b qi (ix2 r h) = proj (aX m c) (aWQ m c) b (pos qi r) h := by
  unfold qOfTile; rw [pay4_apply]; unfold proj
  refine Finset.sum_congr rfl fun d _ => ?_
  rw [xTile_at, V_main_arg1]

theorem key_at (b : Fin 16) (j : Fin 4) (cc : Fin 512) (h : Fin 64) : keyAt (xTile m c b j) (V m c main_v0) cc h = proj (aX m c) (aWK m c) b (pos j cc) h := by
  unfold keyAt; rw [pay9_apply]; unfold proj
  refine Finset.sum_congr rfl fun d _ => ?_
  rw [xTile_at, wkv_left]

theorem val_at (b : Fin 16) (h : Fin 64) (k : Key) : vv (xTile m c b) (V m c main_v0) h k = proj (aX m c) (aWV m c) b (pos k.1 k.2) h := by
  unfold vv; rw [pay10_apply, pay9_apply]; unfold proj
  refine Finset.sum_congr rfl fun d _ => ?_
  rw [xTile_at, wkv_right]

/-- The kernel's masked score of a row against a key is the reference's masked score of the two positions. -/
theorem sc_at (b : Fin 16) (qi : Fin 4) (r : Fin 512) (k : Key) :
    sc qi (xTile m c b) (V m c main_v0) (qOfTile m c b qi) r k = score (aX m c) (aWQ m c) (aWK m c) b (pos qi r) (pos k.1 k.2) := by
  unfold sc; rw [pay11_apply]; unfold score
  have hsum : (∑ h : Fin 64, qOfTile m c b qi (ix2 r h) * keyAt (xTile m c b k.1) (V m c main_v0) k.2 h)
      = ∑ h : Fin 64, proj (aX m c) (aWQ m c) b (pos qi r) h * proj (aX m c) (aWK m c) b (pos k.1 k.2) h :=
    Finset.sum_congr rfl fun h _ => by rw [q_at, key_at]
  by_cases hle : (pos k.1 k.2).val ≤ (pos qi r).val
  · rw [if_pos hle, (Cert.KernelIdeal.Mask.mbit_iff qi k.1 r k.2).mpr hle, select_one, hsum]
  · rw [if_neg hle, Cert.KernelIdeal.Mask.mbit_not qi k.1 r k.2 hle, select_zero]

/-- Keys and positions of the sequence correspond. -/
def keyEquiv : Key ≃ Fin 2048 where
  toFun k := pos k.1 k.2
  invFun n := (⟨n.val / 512, by have := n.isLt; omega⟩, ⟨n.val % 512, Nat.mod_lt _ (by decide)⟩)
  left_inv k := by
    obtain ⟨j, r⟩ := k
    have := r.isLt
    refine Prod.ext (Fin.ext ?_) (Fin.ext ?_)
    · show (j.val * 512 + r.val) / 512 = j.val; omega
    · show (j.val * 512 + r.val) % 512 = r.val; omega
  right_inv n := Fin.ext (by show n.val / 512 * 512 + n.val % 512 = n.val; omega)

theorem sup_keys (g : Fin 2048 → EReal) : (Finset.univ.sup fun n : Fin 2048 => g n) = Finset.univ.sup fun k : Key => g (pos k.1 k.2) := by
  refine le_antisymm (Finset.sup_le fun n _ => ?_) (Finset.sup_le fun k _ => Finset.le_sup (f := g) (Finset.mem_univ _))
  have h := Finset.le_sup (f := fun k : Key => g (pos k.1 k.2)) (Finset.mem_univ (keyEquiv.symm n))
  have e : pos (keyEquiv.symm n).1 (keyEquiv.symm n).2 = n := keyEquiv.apply_symm_apply n
  rw [e] at h; exact h

theorem sum_keys (g : Fin 2048 → EReal) : ∑ n : Fin 2048, g n = ∑ k : Key, g (pos k.1 k.2) :=
  (Equiv.sum_comp keyEquiv g).symm

/-! ## Finite inputs make the steps those of the online softmax -/

theorem scale_real : IsReal (Ideal.ofBits .f32 0x3E000000#32) :=
  ⟨1 / 8, by simp [Ideal.ofBits, Ideal.ieee, -EReal.coe_mul]; norm_num⟩

section
variable (hx : ∀ i, IsReal ((aX m c) i)) (hq : ∀ i, IsReal ((aWQ m c) i)) (hk : ∀ i, IsReal ((aWK m c) i)) (hv : ∀ i, IsReal ((aWV m c) i))
include hx

theorem proj_real (w : S512x64.Idx → EReal) (hw : ∀ i, IsReal (w i)) (b : Fin 16) (t : Fin 2048) (h : Fin 64) : IsReal (proj (aX m c) w b t h) :=
  IsReal.sum _ _ fun d _ => (hx _).mul (hw _)

include hq hk

theorem score_real (b : Fin 16) (t k : Fin 2048) (hle : k.val ≤ t.val) : IsReal (score (aX m c) (aWQ m c) (aWK m c) b t k) := by
  unfold score; rw [if_pos hle]
  exact (IsReal.sum _ _ fun h _ => (proj_real m c hx (aWQ m c) hq b t h).mul (proj_real m c hx (aWK m c) hk b k h)).mul scale_real

theorem score_isScore (b : Fin 16) (t k : Fin 2048) : IsScore (score (aX m c) (aWQ m c) (aWK m c) b t k) := by
  by_cases hle : k.val ≤ t.val
  · exact (score_real m c hx hq hk b t k hle).isScore
  · unfold score; rw [if_neg hle]; exact .inl rfl

include hv

theorem tame (b : Fin 16) (qi : Fin 4) : Tame m c b qi where
  score r k := by rw [sc_at]; exact score_isScore m c hx hq hk b _ _
  value h k := by rw [val_at]; exact proj_real m c hx (aWV m c) hv b _ h
  some_real j hj r := by
    refine top_isReal_of_mem (tile j) _ (fun k _ => by rw [sc_at]; exact score_isScore m c hx hq hk b _ _) (k := (j, (0 : Fin 512)))
      (mem_tile.mpr rfl) ?_
    rw [sc_at]
    exact score_real m c hx hq hk b _ _ (by show j.val * 512 + (0 : Fin 512).val ≤ qi.val * 512 + r.val; simp; omega)

/-! ## The kernel's array is the reference's -/

theorem Gker_eq_Gref : Gker m c = Gref (aX m c) (aWQ m c) (aWK m c) (aWV m c) := by
  funext i
  obtain ⟨b, T, h, rfl⟩ : ∃ (b : Fin 16) (T : Fin 2048) (h : Fin 64), i = ix3 b T h := ⟨i 0, i 1, i 2, eq_ix3 i⟩
  obtain ⟨qi, r, rfl⟩ : ∃ (qi : Fin 4) (r : Fin 512), T = pos qi r :=
    ⟨⟨T.val / 512, by have := T.isLt; omega⟩, ⟨T.val % 512, Nat.mod_lt _ (by decide)⟩, Fin.ext (by show T.val = T.val / 512 * 512 + T.val % 512; omega)⟩
  rw [Gref_ix3, show Gker m c (ix3 b (pos qi r) h) = _ from Gker_at m c b qi r h]
  -- the scores and the values of the keys, in the reference's terms
  have hs : sc qi (xTile m c b) (V m c main_v0) (qOfTile m c b qi) r = fun k : Key => score (aX m c) (aWQ m c) (aWK m c) b (pos qi r) (pos k.1 k.2) :=
    funext fun k => sc_at m c b qi r k
  have hvv : vv (xTile m c b) (V m c main_v0) h = fun k : Key => proj (aX m c) (aWV m c) b (pos k.1 k.2) h := funext fun k => val_at m c b h k
  rw [hs, hvv]
  set s : Key → EReal := fun k => score (aX m c) (aWQ m c) (aWK m c) b (pos qi r) (pos k.1 k.2) with hsdef
  set v : Key → EReal := fun k => proj (aX m c) (aWV m c) b (pos k.1 k.2) h with hvdef
  have hsS : ∀ k, IsScore (s k) := fun k => score_isScore m c hx hq hk b _ _
  have hvR : ∀ k, IsReal (v k) := fun k => proj_real m c hx (aWV m c) hv b _ h
  -- the keys after the query tile are masked
  have hmask : ∀ k ∈ Finset.univ \ seen (qi.val + 1), s k = ⊥ := fun k hk => by
    have hk' : ¬ k.1.val < qi.val + 1 := fun h' => (Finset.mem_sdiff.mp hk).2 (mem_seen.mpr h')
    show score (aX m c) (aWQ m c) (aWK m c) b (pos qi r) (pos k.1 k.2) = ⊥
    unfold score; rw [if_neg]
    show ¬ (k.1.val * 512 + k.2.val ≤ qi.val * 512 + r.val)
    have := r.isLt; omega
  have hdis : Disjoint (seen (qi.val + 1)) (Finset.univ \ seen (qi.val + 1)) := Finset.disjoint_sdiff
  have huni : seen (qi.val + 1) ∪ (Finset.univ \ seen (qi.val + 1)) = Finset.univ := Finset.union_sdiff_of_subset (Finset.subset_univ _)
  have htopS : IsReal (top (seen (qi.val + 1)) s) :=
    top_isReal_of_mem _ s (fun k _ => hsS k) (k := ((0 : Fin 4), (0 : Fin 512))) (mem_seen.mpr (by show (0 : Fin 4).val < qi.val + 1; simp))
      (score_real m c hx hq hk b _ _ (by show (0 : Fin 4).val * 512 + (0 : Fin 512).val ≤ _; simp))
  have e1 : top Finset.univ s = top (seen (qi.val + 1)) s := by rw [← huni]; exact top_union_masked _ _ s hmask
  have e2 : wsum Finset.univ s v = wsum (seen (qi.val + 1)) s v := by rw [← huni]; exact wsum_union_masked _ _ hdis s v hmask htopS
  have e3 : norm Finset.univ s = norm (seen (qi.val + 1)) s := by rw [← huni]; exact norm_union_masked _ _ hdis s hmask htopS
  rw [← e2, ← e3, ← sum_div_norm Finset.univ s v (fun k _ => hsS k) (fun k _ => hvR k) (by rw [e1]; exact htopS)]
  -- the reference's sums over positions are sums over keys
  unfold out
  have etop : Cert.ReferenceIdeal.RefValue.top (aX m c) (aWQ m c) (aWK m c) b (pos qi r) = top Finset.univ s := by
    unfold Cert.ReferenceIdeal.RefValue.top; exact sup_keys _
  rw [sum_keys, etop]
  refine Finset.sum_congr rfl fun k _ => ?_
  rw [sum_keys]
  rfl

end

end Cert.KernelIdeal.Bridge

end
-- ==== Proof.KernelIdealFinite.lean ====
/-
  From the precondition to "every entry of every argument is a real number".

  The precondition says that a predicate of the four argument arrays is the bit 1. The predicate is the
  conjunction, over the four arrays, of "every entry's absolute value is below plus infinity". Read back:
  the conjunction gives its four parts; a conjunction over all entries of an array that is 1 gives each
  entry's bit; an entry whose absolute value max x (-x) is below the top extended real is neither the top
  nor the bottom one, so it is the image of a real.
-/
import proofs.«166854_j67577015435858_2_alg».proof.Defs
import proofs.«166854_j67577015435858_2_alg».proof.Proof.Gen.Pre_finite_inputs
import Idealize.ShloMosaic.Lib.ReduceAll
import Idealize.ShloMosaic.Lib.ValueIdx

namespace Cert.KernelIdeal.Finite

open Idealize.ShloMosaic Idealize.SL.Sem

/-- The scalar shape has one index. -/
instance : Subsingleton Cert.Pre_finite_inputs.S_.Idx := ⟨fun a b => funext fun d => d.elim0⟩

/-- A one-bit word made from a truth value is 1 exactly when the value is true. -/
theorem ofBool_eq_one {b : Bool} : BitVec.ofBool b = 1#1 ↔ b = true := by cases b <;> decide

/-- The word of plus infinity denotes the top extended real. -/
theorem ofBits_pos_inf : Ideal.ofBits .f32 0x7F800000#32 = (⊤ : EReal) := by simp [Ideal.ofBits, Ideal.ieee]

/-- An extended real whose absolute value `max x (-x)` compares below plus infinity is a real. -/
theorem real_of_abs_lt (x : EReal)
    (e : Ideal.cmp .olt (max x (-x)) (Ideal.ofBits .f32 0x7F800000#32) = 1#1) : ∃ r : ℝ, x = (r : EReal) := by
  rw [ofBits_pos_inf] at e
  simp only [Ideal.cmp] at e
  have hlt : max x (-x) < (⊤ : EReal) := of_decide_eq_true (ofBool_eq_one.1 e)
  induction x using EReal.rec with
  | bot => simp at hlt
  | top => simp at hlt
  | coe r => exact ⟨r, rfl⟩

/-- The predicate at the bit 1 makes every entry of each of the four arrays a real. -/
theorem fn_all (x0 : FVec Ideal Cert.Pre_finite_inputs.S16x2048x512 .f32)
    (x1 x2 x3 : FVec Ideal Cert.Pre_finite_inputs.S512x64 .f32)
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt (x0 i) (Host.reduce_andi_all _ _ _ _ _ e0 i),
    fun i => real_of_abs_lt (x1 i) (Host.reduce_andi_all _ _ _ _ _ e1 i),
    fun i => real_of_abs_lt (x2 i) (Host.reduce_andi_all _ _ _ _ _ e2 i),
    fun i => real_of_abs_lt (x3 i) (Host.reduce_andi_all _ _ _ _ _ e3 i)⟩

variable (m : (ℓ : Loc Cert.KernelIdeal.nD Cert.KernelIdeal.τ Cert.KernelIdeal.sig) → Buf (Elt Ideal) ℓ)

/-- Under the precondition every entry of the input array is a real, on every device. -/
theorem finite_arg0 (hpre : Cert.Pre_KernelIdeal (hPre_finite_inputs := Cert.Pre_finite_inputs.Gen.facts) m)
    (c : Dev Cert.KernelIdeal.nD) (i : Cert.KernelIdeal.S16x2048x512.Idx) :
    ∃ r : ℝ, m ((c.tc : Thread Cert.KernelIdeal.nD Cert.KernelIdeal.τ).loc Cert.KernelIdeal.main_arg0) i = (r : EReal) :=
  (fn_all _ _ _ _ (hpre c)).1 i

/-- Under the precondition every entry of the first weight matrix is a real, on every device. -/
theorem finite_arg1 (hpre : Cert.Pre_KernelIdeal (hPre_finite_inputs := Cert.Pre_finite_inputs.Gen.facts) m)
    (c : Dev Cert.KernelIdeal.nD) (i : Cert.KernelIdeal.S512x64.Idx) :
    ∃ r : ℝ, m ((c.tc : Thread Cert.KernelIdeal.nD Cert.KernelIdeal.τ).loc Cert.KernelIdeal.main_arg1) i = (r : EReal) :=
  (fn_all _ _ _ _ (hpre c)).2.1 i

/-- Under the precondition every entry of the second weight matrix is a real, on every device. -/
theorem finite_arg2 (hpre : Cert.Pre_KernelIdeal (hPre_finite_inputs := Cert.Pre_finite_inputs.Gen.facts) m)
    (c : Dev Cert.KernelIdeal.nD) (i : Cert.KernelIdeal.S512x64.Idx) :
    ∃ r : ℝ, m ((c.tc : Thread Cert.KernelIdeal.nD Cert.KernelIdeal.τ).loc Cert.KernelIdeal.main_arg2) i = (r : EReal) :=
  (fn_all _ _ _ _ (hpre c)).2.2.1 i

/-- Under the precondition every entry of the third weight matrix is a real, on every device. -/
theorem finite_arg3 (hpre : Cert.Pre_KernelIdeal (hPre_finite_inputs := Cert.Pre_finite_inputs.Gen.facts) m)
    (c : Dev Cert.KernelIdeal.nD) (i : Cert.KernelIdeal.S512x64.Idx) :
    ∃ r : ℝ, m ((c.tc : Thread Cert.KernelIdeal.nD Cert.KernelIdeal.τ).loc Cert.KernelIdeal.main_arg3) i = (r : EReal) :=
  (fn_all _ _ _ _ (hpre c)).2.2.2 i

end Cert.KernelIdeal.Finite
-- ==== Proof.lean ====
/-
  Causal self-attention with the query, key and value projections fused into the attention sweep, against the plain
  reference: project, score, mask below the diagonal with −∞, softmax along the keys, weight the values.

  The kernel walks a grid (batch, query tile, key tile). At the first key tile of a query tile it projects the queries and
  resets three running statistics per query row — the maximum score seen, the sum of exponentials relative to that maximum,
  and the exponential-weighted sum of value rows —; at each key tile at or before the query tile it projects keys and
  values, scores the tile, masks it, and folds it into the statistics, rescaling the old sums by the exponential of the
  change of maximum; at the last key tile it stores the weighted sum divided by the sum of exponentials.

  The value claim: the scratch after every grid point holds, row by row, the online-softmax statistics of the keys seen so far
  (Proof/KernelIdealPay reads the body's arithmetic at an index, Proof/KernelIdealSweep folds a key tile over Proof/LibOnlineSoftmax,
  Proof/KernelIdealFinal carries it along the grid and reads the result array block by block); the reference's result is read
  index by index (Proof/RefValue); Proof/KernelIdealBridge identifies the two under finite inputs (Proof/KernelIdealFinite), the causal
  mask of the kernel's integer positions being the reference's triangle (Proof/KernelIdealMask).

  The frames of both printed kernels: the body at a grid point is a pure step on the four scratch buffers (Proof/…Step),
  run case by case (Proof/…Cases), folded along the grid into the proof data of the pipelined region, whose two windows on
  the one input array each hold half of it (Proof/…Run, over Proof/LibFrameShared). The reference's frame is its generated
  run with the result dropped; the one ledger entry of the idealization is the named constant's statement.
-/
import proofs.«166854_j67577015435858_2_alg».proof.Defs
import proofs.«166854_j67577015435858_2_alg».proof.Proof.Gen.Kernel
import proofs.«166854_j67577015435858_2_alg».proof.Proof.Gen.Kernel.Skeleton
import proofs.«166854_j67577015435858_2_alg».proof.Proof.Gen.Kernel.Launch
import proofs.«166854_j67577015435858_2_alg».proof.Proof.Gen.Kernel.Points
import proofs.«166854_j67577015435858_2_alg».proof.Proof.Gen.KernelIdeal
import proofs.«166854_j67577015435858_2_alg».proof.Proof.Gen.KernelIdeal.Skeleton
import proofs.«166854_j67577015435858_2_alg».proof.Proof.Gen.KernelIdeal.Launch
import proofs.«166854_j67577015435858_2_alg».proof.Proof.Gen.KernelIdeal.Points
import proofs.«166854_j67577015435858_2_alg».proof.Proof.Gen.ReferenceIdeal
import proofs.«166854_j67577015435858_2_alg».proof.Proof.Gen.Pre_finite_inputs
import proofs.«166854_j67577015435858_2_alg».proof.Proof.Gen.ReferenceIdeal.Run
import proofs.«166854_j67577015435858_2_alg».proof.Proof.Gen.ReferenceIdeal.Read
import proofs.«166854_j67577015435858_2_alg».proof.Proof.KernelRun
import proofs.«166854_j67577015435858_2_alg».proof.Proof.KernelIdealRun
import proofs.«166854_j67577015435858_2_alg».proof.Proof.KernelIdealBridge
import proofs.«166854_j67577015435858_2_alg».proof.Proof.KernelIdealFinite
import proofs.«166854_j67577015435858_2_alg».proof.Proof.RefValue
import Idealize.ShloMosaic.Adequacy
import Idealize.ShloMosaic.Init

noncomputable section

namespace Cert.Proof

open Idealize.ShloMosaic Idealize.SL.Sem

/-- The word-level kernel runs to the end, faults nowhere, and leaves its four arguments as they were. -/
theorem frame_k : Cert.frame_Kernel := fun m ρ _ => Cert.Kernel.Hand.frame m ρ
/-- The same of the idealized kernel, read at the extended reals. -/
theorem frame_ki : Cert.frame_KernelIdeal := fun m ρ _ => Cert.KernelIdeal.Hand.frame m ρ
/-- The reference is a straight line of host operations: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the finite stand-in for −∞ that fills the masked scores is named, and the name
    denotes −∞ at the extended reals. -/
theorem preserves : Cert.preserves_Kernel_KernelIdeal :=
  IdealRules.named_const.statement Cert.KernelIdeal.κ "neg_big" .f32 0xFF333332#32 ⊥ rfl

/-- At the extended reals, from memories that agree on the four arguments: the idealized kernel's result array ends at the
    quotient of the online-softmax statistics of each row over the keys its query tile sees (the frame run, read block by block),
    the reference's at the softmax-weighted sum of the values (its generated run, read index by index); finite inputs make every
    score a real number or −∞ and every value a real number, so the statistics are those of the plain definition, the keys after
    the query tile contribute nothing, and the quotient is the weighted sum. -/
theorem algebraic : Cert.algebraic_KernelIdeal_ReferenceIdeal := by
  intro m ρ m' ρ' hpre hagree
  have hx : ∀ c i, Idealize.ShloMosaic.OnlineSoftmax.IsReal (Cert.KernelIdeal.Bridge.aX m c i) := fun c i => Cert.KernelIdeal.Finite.finite_arg0 m hpre c i
  have hq : ∀ c i, Idealize.ShloMosaic.OnlineSoftmax.IsReal (Cert.KernelIdeal.Bridge.aWQ m c i) := fun c i => Cert.KernelIdeal.Finite.finite_arg1 m hpre c i
  have hk : ∀ c i, Idealize.ShloMosaic.OnlineSoftmax.IsReal (Cert.KernelIdeal.Bridge.aWK m c i) := fun c i => Cert.KernelIdeal.Finite.finite_arg2 m hpre c i
  have hv : ∀ c i, Idealize.ShloMosaic.OnlineSoftmax.IsReal (Cert.KernelIdeal.Bridge.aWV m c i) := fun c i => Cert.KernelIdeal.Finite.finite_arg3 m hpre c i
  refine ⟨fun c => Cert.KernelIdeal.Final.Gker m c,
    Cert.KernelIdeal.Final.run_value m ρ (fun c b qi => Cert.KernelIdeal.Bridge.tame m c (hx c) (hq c) (hk c) (hv c) b qi), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_eq, (hagree c).1, (hagree c).2.1, (hagree c).2.2.1, (hagree c).2.2.2]
  exact (Cert.KernelIdeal.Bridge.Gker_eq_Gref m c (hx c) (hq c) (hk c) (hv c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
